-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S262144 : Shape := ⟨1, ![262144]⟩
abbrev S300x200 : Shape := ⟨2, ![300, 200]⟩
abbrev S200 : Shape := ⟨1, ![200]⟩
abbrev S200x150 : Shape := ⟨2, ![200, 150]⟩
abbrev S150 : Shape := ⟨1, ![150]⟩
abbrev S150x100 : Shape := ⟨2, ![150, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x3 : Shape := ⟨2, ![25, 3]⟩
abbrev S3 : Shape := ⟨1, ![3]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x200 : S_.BroadcastsInDim S300x200 (![] : Fin 0 → Fin S300x200.rank)
  reducesTo_S300x200_S_d0_1 : S300x200.ReducesTo [0, 1] S_
  bcast_S_S200 : S_.BroadcastsInDim S200 (![] : Fin 0 → Fin S200.rank)
  reducesTo_S200_S_d0 : S200.ReducesTo [0] S_
  bcast_S_S200x150 : S_.BroadcastsInDim S200x150 (![] : Fin 0 → Fin S200x150.rank)
  reducesTo_S200x150_S_d0_1 : S200x150.ReducesTo [0, 1] S_
  bcast_S_S150 : S_.BroadcastsInDim S150 (![] : Fin 0 → Fin S150.rank)
  reducesTo_S150_S_d0 : S150.ReducesTo [0] S_
  bcast_S_S150x100 : S_.BroadcastsInDim S150x100 (![] : Fin 0 → Fin S150x100.rank)
  reducesTo_S150x100_S_d0_1 : S150x100.ReducesTo [0, 1] S_
  bcast_S_S100 : S_.BroadcastsInDim S100 (![] : Fin 0 → Fin S100.rank)
  reducesTo_S100_S_d0 : S100.ReducesTo [0] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x25 : S_.BroadcastsInDim S50x25 (![] : Fin 0 → Fin S50x25.rank)
  reducesTo_S50x25_S_d0_1 : S50x25.ReducesTo [0, 1] S_
  bcast_S_S25 : S_.BroadcastsInDim S25 (![] : Fin 0 → Fin S25.rank)
  reducesTo_S25_S_d0 : S25.ReducesTo [0] S_
  bcast_S_S25x3 : S_.BroadcastsInDim S25x3 (![] : Fin 0 → Fin S25x3.rank)
  reducesTo_S25x3_S_d0_1 : S25x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S25x3 .f32) (main_arg14 : FVec F S3 .f32) (main_v48 : IVec S_ 1) (main_v49 : FVec F S25 .f32) (main_v50 : FVec F S25 .f32) : IVec S_ 1 :=
  let main_v51 : IVec S25 1 := cmpf .olt main_v49 main_v50
  let main_c_19 : IVec S_ 1 := constantI S_ 1 1#1
  let main_v52 : IVec S_ 1 := (fun x v => Host.reduce IntOp.andi x v reducesTo_S25_S_d0 h_S_) main_v51 main_c_19
  let main_v53 : IVec S_ 1 := andi main_v48 main_v52
  let main_v54 : FVec F S25x3 .f32 := Host.absf main_arg13
  let main_cst_20 : FVec F S_ .f32 := constant S_ .f32 0x7F800000#32
  let main_v55 : FVec F S25x3 .f32 := broadcastInDim S25x3 ![] bcast_S_S25x3 main_cst_20
  let main_v56 : IVec S25x3 1 := cmpf .olt main_v54 main_v55
  let main_c_21 : IVec S_ 1 := constantI S_ 1 1#1
  let main_v57 : IVec S_ 1 := (fun x v => Host.reduce IntOp.andi x v reducesTo_S25x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S100x50 .f32) (main_arg10 : FVec F S50 .f32) (main_arg11 : FVec F S50x25 .f32) (main_arg12 : FVec F S25 .f32) (main_arg13 : FVec F S25x3 .f32) (main_arg14 : FVec F S3 .f32) (main_v33 : IVec S_ 1) : IVec S_ 1 :=
  let main_v34 : FVec F S100x50 .f32 := Host.absf main_arg9
  let main_cst_12 : FVec F S_ .f32 := constant S_ .f32 0x7F800000#32
  let main_v35 : FVec F S100x50 .f32 := broadcastInDim S100x50 ![] bcast_S_S100x50 main_cst_12
  let main_v36 : IVec S100x50 1 := cmpf .olt main_v34 main_v35
  let main_c_13 : IVec S_ 1 := constantI S_ 1 1#1
  let main_v37 : IVec S_ 1 := (fun x v => Host.reduce IntOp.andi x v reducesTo_S100x50_S_d0_1 h_S_) main_v36 main_c_13
  let main_v38 : IVec S_ 1 := andi main_v33 main_v37
  let main_v39 : FVec F S50 .f32 := Host.absf main_arg10
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50x25 .f32 := Host.absf main_arg11
  let main_cst_16 : FVec F S_ .f32 := constant S_ .f32 0x7F800000#32
  let main_v45 : FVec F S50x25 .f32 := broadcastInDim S50x25 ![] bcast_S_S50x25 main_cst_16
  let main_v46 : IVec S50x25 1 := cmpf .olt main_v44 main_v45
  let main_c_17 : IVec S_ 1 := constantI S_ 1 1#1
  let main_v47 : IVec S_ 1 := (fun x v => Host.reduce IntOp.andi x v reducesTo_S50x25_S_d0_1 h_S_) main_v46 main_c_17
  let main_v48 : IVec S_ 1 := andi main_v43 main_v47
  let main_v49 : FVec F S25 .f32 := Host.absf main_arg12
  let main_cst_18 : FVec F S_ .f32 := constant S_ .f32 0x7F800000#32
  let main_v50 : FVec F S25 .f32 := broadcastInDim S25 ![] bcast_S_S25 main_cst_18
  fn_part3 (F := F) main_arg13 main_arg14 main_v48 main_v49 main_v50

def fn_part1 {F : FTy → Type} [FloatOps F] (main_arg6 : FVec F S150 .f32) (main_arg7 : FVec F S150x100 .f32) (main_arg8 : FVec F S100 .f32) (main_arg9 : FVec F S100x50 .f32) (main_arg10 : FVec F S50 .f32) (main_arg11 : FVec F S50x25 .f32) (main_arg12 : FVec F S25 .f32) (main_arg13 : FVec F S25x3 .f32) (main_arg14 : FVec F S3 .f32) (main_v13 : IVec S_ 1) (main_v16 : IVec S200x150 1) : IVec S_ 1 :=
  let main_c_5 : IVec S_ 1 := constantI S_ 1 1#1
  let main_v17 : IVec S_ 1 := (fun x v => Host.reduce IntOp.andi x v reducesTo_S200x150_S_d0_1 h_S_) main_v16 main_c_5
  let main_v18 : IVec S_ 1 := andi main_v13 main_v17
  let main_v19 : FVec F S150 .f32 := Host.absf main_arg6
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S150x100 .f32 := Host.absf main_arg7
  let main_cst_8 : FVec F S_ .f32 := constant S_ .f32 0x7F800000#32
  let main_v25 : FVec F S150x100 .f32 := broadcastInDim S150x100 ![] bcast_S_S150x100 main_cst_8
  let main_v26 : IVec S150x100 1 := cmpf .olt main_v24 main_v25
  let main_c_9 : IVec S_ 1 := constantI S_ 1 1#1
  let main_v27 : IVec S_ 1 := (fun x v => Host.reduce IntOp.andi x v reducesTo_S150x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x300 .f32) (main_arg1 : IVec S262144 32) (main_arg2 : IVec S262144 32) (main_arg3 : FVec F S300x200 .f32) (main_arg4 : FVec F S200 .f32) (main_arg5 : FVec F S200x150 .f32) (main_arg6 : FVec F S150 .f32) (main_arg7 : FVec F S150x100 .f32) (main_arg8 : FVec F S100 .f32) (main_arg9 : FVec F S100x50 .f32) (main_arg10 : FVec F S50 .f32) (main_arg11 : FVec F S50x25 .f32) (main_arg12 : FVec F S25 .f32) (main_arg13 : FVec F S25x3 .f32) (main_arg14 : FVec F S3 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x200 .f32 := Host.absf main_arg3
  let main_cst_0 : FVec F S_ .f32 := constant S_ .f32 0x7F800000#32
  let main_v5 : FVec F S300x200 .f32 := broadcastInDim S300x200 ![] bcast_S_S300x200 main_cst_0
  let main_v6 : IVec S300x200 1 := cmpf .olt main_v4 main_v5
  let main_c_1 : IVec S_ 1 := constantI S_ 1 1#1
  let main_v7 : IVec S_ 1 := (fun x v => Host.reduce IntOp.andi x v reducesTo_S300x200_S_d0_1 h_S_) main_v6 main_c_1
  let main_v8 : IVec S_ 1 := andi main_v3 main_v7
  let main_v9 : FVec F S200 .f32 := Host.absf main_arg4
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x150 .f32 := Host.absf main_arg5
  let main_cst_4 : FVec F S_ .f32 := constant S_ .f32 0x7F800000#32
  let main_v15 : FVec F S200x150 .f32 := broadcastInDim S200x150 ![] bcast_S_S200x150 main_cst_4
  let main_v16 : IVec S200x150 1 := cmpf .olt main_v14 main_v15
  fn_part1 (F := F) main_arg6 main_arg7 main_arg8 main_arg9 main_arg10 main_arg11 main_arg12 main_arg13 main_arg14 main_v13 main_v16
-- ==== Kernel.lean ====
abbrev S50000x300 : Shape := ⟨2, ![50000, 300]⟩
abbrev S262144 : Shape := ⟨1, ![262144]⟩
abbrev S300x200 : Shape := ⟨2, ![300, 200]⟩
abbrev S200 : Shape := ⟨1, ![200]⟩
abbrev S200x150 : Shape := ⟨2, ![200, 150]⟩
abbrev S150 : Shape := ⟨1, ![150]⟩
abbrev S150x100 : Shape := ⟨2, ![150, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x3 : Shape := ⟨2, ![25, 3]⟩
abbrev S3 : Shape := ⟨1, ![3]⟩
abbrev S_ : Shape := ⟨0, ![]⟩
abbrev S262144x1 : Shape := ⟨2, ![262144, 1]⟩
abbrev S262144x300 : Shape := ⟨2, ![262144, 300]⟩
abbrev S1x200 : Shape := ⟨2, ![1, 200]⟩
abbrev S50000x200 : Shape := ⟨2, ![50000, 200]⟩
abbrev S5000x300 : Shape := ⟨2, ![5000, 300]⟩
abbrev S5000x200 : Shape := ⟨2, ![5000, 200]⟩
abbrev S262144x200 : Shape := ⟨2, ![262144, 200]⟩
abbrev S1x150 : Shape := ⟨2, ![1, 150]⟩
abbrev S50000x150 : Shape := ⟨2, ![50000, 150]⟩
abbrev S5000x150 : Shape := ⟨2, ![5000, 150]⟩
abbrev S5000 : Shape := ⟨1, ![5000]⟩
abbrev S5000x1 : Shape := ⟨2, ![5000, 1]⟩
abbrev S262144x150 : Shape := ⟨2, ![262144, 150]⟩
abbrev S1x100 : Shape := ⟨2, ![1, 100]⟩
abbrev S50000x100 : Shape := ⟨2, ![50000, 100]⟩
abbrev S5000x100 : Shape := ⟨2, ![5000, 100]⟩
abbrev S262144x100 : Shape := ⟨2, ![262144, 100]⟩
abbrev S1x50 : Shape := ⟨2, ![1, 50]⟩
abbrev S50000x50 : Shape := ⟨2, ![50000, 50]⟩
abbrev S5000x50 : Shape := ⟨2, ![5000, 50]⟩
abbrev S262144x50 : Shape := ⟨2, ![262144, 50]⟩
abbrev S1x25 : Shape := ⟨2, ![1, 25]⟩
abbrev S50000x25 : Shape := ⟨2, ![50000, 25]⟩
abbrev S5000x25 : Shape := ⟨2, ![5000, 25]⟩
abbrev S262144x25 : Shape := ⟨2, ![262144, 25]⟩
abbrev S1x3 : Shape := ⟨2, ![1, 3]⟩
abbrev S50000x3 : Shape := ⟨2, ![50000, 3]⟩
abbrev S5000x3 : Shape := ⟨2, ![5000, 3]⟩

abbrev nBuf : Space → Nat
  | .hbm => 105
  | .vmem => 36
  | .smem => 0
  | _ => 0

abbrev bufTy : (tb : Table) → Fin (tcTables nBuf tb) → BufTy
  | .hbm, ⟨0, _⟩ => ⟨S50000x300, .f32⟩
  | .hbm, ⟨1, _⟩ => ⟨S262144, .i32⟩
  | .hbm, ⟨2, _⟩ => ⟨S262144, .i32⟩
  | .hbm, ⟨3, _⟩ => ⟨S300x200, .f32⟩
  | .hbm, ⟨4, _⟩ => ⟨S200, .f32⟩
  | .hbm, ⟨5, _⟩ => ⟨S200x150, .f32⟩
  | .hbm, ⟨6, _⟩ => ⟨S150, .f32⟩
  | .hbm, ⟨7, _⟩ => ⟨S150x100, .f32⟩
  | .hbm, ⟨8, _⟩ => ⟨S100, .f32⟩
  | .hbm, ⟨9, _⟩ => ⟨S100x50, .f32⟩
  | .hbm, ⟨10, _⟩ => ⟨S50, .f32⟩
  | .hbm, ⟨11, _⟩ => ⟨S50x25, .f32⟩
  | .hbm, ⟨12, _⟩ => ⟨S25, .f32⟩
  | .hbm, ⟨13, _⟩ => ⟨S25x3, .f32⟩
  | .hbm, ⟨14, _⟩ => ⟨S3, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x300, .f32⟩
  | .hbm, ⟨24, _⟩ => ⟨S_, .f32⟩
  | .hbm, ⟨25, _⟩ => ⟨S50000x300, .f32⟩
  | .hbm, ⟨26, _⟩ => ⟨S262144x1, .i32⟩
  | .hbm, ⟨27, _⟩ => ⟨S50000x300, .f32⟩
  | .hbm, ⟨28, _⟩ => ⟨S1x200, .f32⟩
  | .hbm, ⟨29, _⟩ => ⟨S50000x200, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x200, .f32⟩
  | .hbm, ⟨39, _⟩ => ⟨S_, .f32⟩
  | .hbm, ⟨40, _⟩ => ⟨S50000x200, .f32⟩
  | .hbm, ⟨41, _⟩ => ⟨S262144x1, .i32⟩
  | .hbm, ⟨42, _⟩ => ⟨S50000x200, .f32⟩
  | .hbm, ⟨43, _⟩ => ⟨S1x150, .f32⟩
  | .hbm, ⟨44, _⟩ => ⟨S50000x150, .f32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x150, .f32⟩
  | .hbm, ⟨54, _⟩ => ⟨S_, .f32⟩
  | .hbm, ⟨55, _⟩ => ⟨S50000x150, .f32⟩
  | .hbm, ⟨56, _⟩ => ⟨S262144x1, .i32⟩
  | .hbm, ⟨57, _⟩ => ⟨S50000x150, .f32⟩
  | .hbm, ⟨58, _⟩ => ⟨S1x100, .f32⟩
  | .hbm, ⟨59, _⟩ => ⟨S50000x100, .f32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x100, .f32⟩
  | .hbm, ⟨69, _⟩ => ⟨S_, .f32⟩
  | .hbm, ⟨70, _⟩ => ⟨S50000x100, .f32⟩
  | .hbm, ⟨71, _⟩ => ⟨S262144x1, .i32⟩
  | .hbm, ⟨72, _⟩ => ⟨S50000x100, .f32⟩
  | .hbm, ⟨73, _⟩ => ⟨S1x50, .f32⟩
  | .hbm, ⟨74, _⟩ => ⟨S50000x50, .f32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S262144x1, .i32⟩
  | .hbm, ⟨83, _⟩ => ⟨S262144x50, .f32⟩
  | .hbm, ⟨84, _⟩ => ⟨S_, .f32⟩
  | .hbm, ⟨85, _⟩ => ⟨S50000x50, .f32⟩
  | .hbm, ⟨86, _⟩ => ⟨S262144x1, .i32⟩
  | .hbm, ⟨87, _⟩ => ⟨S50000x50, .f32⟩
  | .hbm, ⟨88, _⟩ => ⟨S1x25, .f32⟩
  | .hbm, ⟨89, _⟩ => ⟨S50000x25, .f32⟩
  | .hbm, ⟨90, _⟩ => ⟨S_, .i32⟩
  | .hbm, ⟨91, _⟩ => ⟨S262144, .i32⟩
  | .hbm, ⟨92, _⟩ => ⟨S262144, .i1⟩
  | .hbm, ⟨93, _⟩ => ⟨S_, .i32⟩
  | .hbm, ⟨94, _⟩ => ⟨S262144, .i32⟩
  | .hbm, ⟨95, _⟩ => ⟨S262144, .i32⟩
  | .hbm, ⟨96, _⟩ => ⟨S262144, .i32⟩
  | .hbm, ⟨97, _⟩ => ⟨S262144x1, .i32⟩
  | .hbm, ⟨98, _⟩ => ⟨S262144x25, .f32⟩
  | .hbm, ⟨99, _⟩ => ⟨S_, .f32⟩
  | .hbm, ⟨100, _⟩ => ⟨S50000x25, .f32⟩
  | .hbm, ⟨101, _⟩ => ⟨S262144x1, .i32⟩
  | .hbm, ⟨102, _⟩ => ⟨S50000x25, .f32⟩
  | .hbm, ⟨103, _⟩ => ⟨S1x3, .f32⟩
  | .hbm, ⟨104, _⟩ => ⟨S50000x3, .f32⟩
  | .local _ .vmem, ⟨0, _⟩ => ⟨S5000x300, .f32⟩
  | .local _ .vmem, ⟨1, _⟩ => ⟨S5000x300, .f32⟩
  | .local _ .vmem, ⟨2, _⟩ => ⟨S300x200, .f32⟩
  | .local _ .vmem, ⟨3, _⟩ => ⟨S1x200, .f32⟩
  | .local _ .vmem, ⟨4, _⟩ => ⟨S5000x200, .f32⟩
  | .local _ .vmem, ⟨5, _⟩ => ⟨S5000x200, .f32⟩
  | .local _ .vmem, ⟨6, _⟩ => ⟨S5000x200, .f32⟩
  | .local _ .vmem, ⟨7, _⟩ => ⟨S5000x200, .f32⟩
  | .local _ .vmem, ⟨8, _⟩ => ⟨S200x150, .f32⟩
  | .local _ .vmem, ⟨9, _⟩ => ⟨S1x150, .f32⟩
  | .local _ .vmem, ⟨10, _⟩ => ⟨S5000x150, .f32⟩
  | .local _ .vmem, ⟨11, _⟩ => ⟨S5000x150, .f32⟩
  | .local _ .vmem, ⟨12, _⟩ => ⟨S5000x150, .f32⟩
  | .local _ .vmem, ⟨13, _⟩ => ⟨S5000x150, .f32⟩
  | .local _ .vmem, ⟨14, _⟩ => ⟨S150x100, .f32⟩
  | .local _ .vmem, ⟨15, _⟩ => ⟨S1x100, .f32⟩
  | .local _ .vmem, ⟨16, _⟩ => ⟨S5000x100, .f32⟩
  | .local _ .vmem, ⟨17, _⟩ => ⟨S5000x100, .f32⟩
  | .local _ .vmem, ⟨18, _⟩ => ⟨S5000x100, .f32⟩
  | .local _ .vmem, ⟨19, _⟩ => ⟨S5000x100, .f32⟩
  | .local _ .vmem, ⟨20, _⟩ => ⟨S100x50, .f32⟩
  | .local _ .vmem, ⟨21, _⟩ => ⟨S1x50, .f32⟩
  | .local _ .vmem, ⟨22, _⟩ => ⟨S5000x50, .f32⟩
  | .local _ .vmem, ⟨23, _⟩ => ⟨S5000x50, .f32⟩
  | .local _ .vmem, ⟨24, _⟩ => ⟨S5000x50, .f32⟩
  | .local _ .vmem, ⟨25, _⟩ => ⟨S5000x50, .f32⟩
  | .local _ .vmem, ⟨26, _⟩ => ⟨S50x25, .f32⟩
  | .local _ .vmem, ⟨27, _⟩ => ⟨S1x25, .f32⟩
  | .local _ .vmem, ⟨28, _⟩ => ⟨S5000x25, .f32⟩
  | .local _ .vmem, ⟨29, _⟩ => ⟨S5000x25, .f32⟩
  | .local _ .vmem, ⟨30, _⟩ => ⟨S5000x25, .f32⟩
  | .local _ .vmem, ⟨31, _⟩ => ⟨S5000x25, .f32⟩
  | .local _ .vmem, ⟨32, _⟩ => ⟨S25x3, .f32⟩
  | .local _ .vmem, ⟨33, _⟩ => ⟨S1x3, .f32⟩
  | .local _ .vmem, ⟨34, _⟩ => ⟨S5000x3, .f32⟩
  | .local _ .vmem, ⟨35, _⟩ => ⟨S5000x3, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x150 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x150 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x150 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x150 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S150x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x50 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x50 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x50 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x50 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S50x25 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x25 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x25 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x25 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S25x3 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x3 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S50000x300 : S_.BroadcastsInDim S50000x300 (![] : Fin 0 → Fin S50000x300.rank)
  shapeCasts_S200_S1x200 : S200.ShapeCasts S1x200
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  bitsLt_bf16_f32 : FTy.bits .bf16 < FTy.bits .f32
  inb_S300x200_S300x200_0_0 : ∀ a, (![0, 0] : Fin 2 → Nat) a + S300x200.size a ≤ S300x200.size a
  h_S300x200 : 0 < S300x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  inb_S5000x200_S5000x200_0_0 : ∀ a, (![0, 0] : Fin 2 → Nat) a + S5000x200.size a ≤ S5000x200.size a
  h_S5000x200 : 0 < S5000x200.numel
  bcast_S_S50000x200 : S_.BroadcastsInDim S50000x200 (![] : Fin 0 → Fin S50000x200.rank)
  shapeCasts_S150_S1x150 : S150.ShapeCasts S1x150
  shapeCasts_S5000x200_S5000x200 : S5000x200.ShapeCasts S5000x200
  inb_S200x150_S200x150_0_0 : ∀ a, (![0, 0] : Fin 2 → Nat) a + S200x150.size a ≤ S200x150.size a
  h_S200x150 : 0 < S200x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S5000x150 : S1x150.Broadcasts S5000x150
  reduces_S5000x150_S5000 : S5000x150.Reduces [1] S5000
  shapeCasts_S5000_S5000x1 : S5000.ShapeCasts S5000x1
  broadcasts_S5000x1_S5000x150 : S5000x1.Broadcasts S5000x150
  inb_S5000x150_S5000x150_0_0 : ∀ a, (![0, 0] : Fin 2 → Nat) a + S5000x150.size a ≤ S5000x150.size a
  h_S5000x150 : 0 < S5000x150.numel
  bcast_S_S50000x150 : S_.BroadcastsInDim S50000x150 (![] : Fin 0 → Fin S50000x150.rank)
  shapeCasts_S100_S1x100 : S100.ShapeCasts S1x100
  shapeCasts_S5000x150_S5000x150 : S5000x150.ShapeCasts S5000x150
  inb_S150x100_S150x100_0_0 : ∀ a, (![0, 0] : Fin 2 → Nat) a + S150x100.size a ≤ S150x100.size a
  h_S150x100 : 0 < S150x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S5000x100_S5000x100_0_0 : ∀ a, (![0, 0] : Fin 2 → Nat) a + S5000x100.size a ≤ S5000x100.size a
  h_S5000x100 : 0 < S5000x100.numel
  bcast_S_S50000x100 : S_.BroadcastsInDim S50000x100 (![] : Fin 0 → Fin S50000x100.rank)
  shapeCasts_S50_S1x50 : S50.ShapeCasts S1x50
  shapeCasts_S5000x100_S5000x100 : S5000x100.ShapeCasts S5000x100
  inb_S100x50_S100x50_0_0 : ∀ a, (![0, 0] : Fin 2 → Nat) a + S100x50.size a ≤ S100x50.size a
  h_S100x50 : 0 < S100x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  reduces_S5000x50_S5000 : S5000x50.Reduces [1] S5000
  broadcasts_S5000x1_S5000x50 : S5000x1.Broadcasts S5000x50
  inb_S5000x50_S5000x50_0_0 : ∀ a, (![0, 0] : Fin 2 → Nat) a + S5000x50.size a ≤ S5000x50.size a
  h_S5000x50 : 0 < S5000x50.numel
  bcast_S_S50000x50 : S_.BroadcastsInDim S50000x50 (![] : Fin 0 → Fin S50000x50.rank)
  shapeCasts_S25_S1x25 : S25.ShapeCasts S1x25
  shapeCasts_S5000x50_S5000x50 : S5000x50.ShapeCasts S5000x50
  inb_S50x25_S50x25_0_0 : ∀ a, (![0, 0] : Fin 2 → Nat) a + S50x25.size a ≤ S50x25.size a
  h_S50x25 : 0 < S50x25.numel
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  inb_S5000x25_S5000x25_0_0 : ∀ a, (![0, 0] : Fin 2 → Nat) a + S5000x25.size a ≤ S5000x25.size a
  h_S5000x25 : 0 < S5000x25.numel
  bcast_S_S50000x25 : S_.BroadcastsInDim S50000x25 (![] : Fin 0 → Fin S50000x25.rank)
  shapeCasts_S3_S1x3 : S3.ShapeCasts S1x3
  shapeCasts_S5000x25_S5000x25 : S5000x25.ShapeCasts S5000x25
  inb_S25x3_S25x3_0_0 : ∀ a, (![0, 0] : Fin 2 → Nat) a + S25x3.size a ≤ S25x3.size a
  h_S25x3 : 0 < S25x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  gather_S50000x300_S262144x1_S262144x300_1_0_n_n_0_1_1300_wf : GatherDims.WF S50000x300 S262144x1 S262144x300 [1] [0] [] [0] [] 1 ![1, 300]
  scatter_S50000x300_S262144x1_S262144x300_1_0_0_1_wf : ScatterDims.WF S50000x300 S262144x1 S262144x300 [1] [0] [0] 1
  dot_S5000x300_S300x200_S5000x200_1_0_0_1_n_n_wf : DotDims.WF S5000x300 S300x200 S5000x200 [1] [0] [0] [1] [] []
  gather_S50000x200_S262144x1_S262144x200_1_0_n_n_0_1_1200_wf : GatherDims.WF S50000x200 S262144x1 S262144x200 [1] [0] [] [0] [] 1 ![1, 200]
  scatter_S50000x200_S262144x1_S262144x200_1_0_0_1_wf : ScatterDims.WF S50000x200 S262144x1 S262144x200 [1] [0] [0] 1
  dot_S5000x200_S200x150_S5000x150_1_0_0_1_n_n_wf : DotDims.WF S5000x200 S200x150 S5000x150 [1] [0] [0] [1] [] []
  gather_S50000x150_S262144x1_S262144x150_1_0_n_n_0_1_1150_wf : GatherDims.WF S50000x150 S262144x1 S262144x150 [1] [0] [] [0] [] 1 ![1, 150]
  scatter_S50000x150_S262144x1_S262144x150_1_0_0_1_wf : ScatterDims.WF S50000x150 S262144x1 S262144x150 [1] [0] [0] 1
  dot_S5000x150_S150x100_S5000x100_1_0_0_1_n_n_wf : DotDims.WF S5000x150 S150x100 S5000x100 [1] [0] [0] [1] [] []
  gather_S50000x100_S262144x1_S262144x100_1_0_n_n_0_1_1100_wf : GatherDims.WF S50000x100 S262144x1 S262144x100 [1] [0] [] [0] [] 1 ![1, 100]
  scatter_S50000x100_S262144x1_S262144x100_1_0_0_1_wf : ScatterDims.WF S50000x100 S262144x1 S262144x100 [1] [0] [0] 1
  dot_S5000x100_S100x50_S5000x50_1_0_0_1_n_n_wf : DotDims.WF S5000x100 S100x50 S5000x50 [1] [0] [0] [1] [] []
  gather_S50000x50_S262144x1_S262144x50_1_0_n_n_0_1_150_wf : GatherDims.WF S50000x50 S262144x1 S262144x50 [1] [0] [] [0] [] 1 ![1, 50]
  scatter_S50000x50_S262144x1_S262144x50_1_0_0_1_wf : ScatterDims.WF S50000x50 S262144x1 S262144x50 [1] [0] [0] 1
  dot_S5000x50_S50x25_S5000x25_1_0_0_1_n_n_wf : DotDims.WF S5000x50 S50x25 S5000x25 [1] [0] [0] [1] [] []
  gather_S50000x25_S262144x1_S262144x25_1_0_n_n_0_1_125_wf : GatherDims.WF S50000x25 S262144x1 S262144x25 [1] [0] [] [0] [] 1 ![1, 25]
  scatter_S50000x25_S262144x1_S262144x25_1_0_0_1_wf : ScatterDims.WF S50000x25 S262144x1 S262144x25 [1] [0] [0] 1
  dot_S5000x25_S25x3_S5000x3_1_0_0_1_n_n_wf : DotDims.WF S5000x25 S25x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S50000x300.size a
  hwx0_0 : ∀ i : grid0.Coords, EltTy.bits .f32 = 32 ∨ (Rect.block (s := S50000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x200.size a ≤ S300x200.size a
  hwx0_1 : ∀ i : grid0.Coords, EltTy.bits .f32 = 32 ∨ (Rect.block (s := S300x200) S300x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x200.size a ≤ S50000x200.size a
  hwx0_3 : ∀ i : grid0.Coords, EltTy.bits .f32 = 32 ∨ (Rect.block (s := S50000x200) S5000x200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x200.size a ≤ S50000x200.size a
  hwx1_0 : ∀ i : grid1.Coords, EltTy.bits .f32 = 32 ∨ (Rect.block (s := S50000x200) S5000x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x150.size a ≤ S200x150.size a
  hwx1_1 : ∀ i : grid1.Coords, EltTy.bits .f32 = 32 ∨ (Rect.block (s := S200x150) S200x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x150.size a ≤ S1x150.size a
  hwx1_2 : ∀ i : grid1.Coords, EltTy.bits .f32 = 32 ∨ (Rect.block (s := S1x150) S1x150.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x150.size a ≤ S50000x150.size a
  hwx1_3 : ∀ i : grid1.Coords, EltTy.bits .f32 = 32 ∨ (Rect.block (s := S50000x150) S5000x150.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x150.size a ≤ S50000x150.size a
  hwx2_0 : ∀ i : grid2.Coords, EltTy.bits .f32 = 32 ∨ (Rect.block (s := S50000x150) S5000x150.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S150x100.size a ≤ S150x100.size a
  hwx2_1 : ∀ i : grid2.Coords, EltTy.bits .f32 = 32 ∨ (Rect.block (s := S150x100) S150x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x100.size a ≤ S50000x100.size a
  hwx2_3 : ∀ i : grid2.Coords, EltTy.bits .f32 = 32 ∨ (Rect.block (s := S50000x100) S5000x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x50.size a ≤ S100x50.size a
  hwx3_1 : ∀ i : grid3.Coords, EltTy.bits .f32 = 32 ∨ (Rect.block (s := S100x50) S100x50.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x50.size a ≤ S1x50.size a
  hwx3_2 : ∀ i : grid3.Coords, EltTy.bits .f32 = 32 ∨ (Rect.block (s := S1x50) S1x50.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x50.size a ≤ S50000x50.size a
  hwx3_3 : ∀ i : grid3.Coords, EltTy.bits .f32 = 32 ∨ (Rect.block (s := S50000x50) S5000x50.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x50.size a ≤ S50000x50.size a
  hwx4_0 : ∀ i : grid4.Coords, EltTy.bits .f32 = 32 ∨ (Rect.block (s := S50000x50) S5000x50.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S50x25.size a ≤ S50x25.size a
  hwx4_1 : ∀ i : grid4.Coords, EltTy.bits .f32 = 32 ∨ (Rect.block (s := S50x25) S50x25.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x25.size a ≤ S1x25.size a
  hwx4_2 : ∀ i : grid4.Coords, EltTy.bits .f32 = 32 ∨ (Rect.block (s := S1x25) S1x25.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x25.size a ≤ S50000x25.size a
  hwx4_3 : ∀ i : grid4.Coords, EltTy.bits .f32 = 32 ∨ (Rect.block (s := S50000x25) S5000x25.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x25.size a ≤ S50000x25.size a
  hwx5_0 : ∀ i : grid5.Coords, EltTy.bits .f32 = 32 ∨ (Rect.block (s := S50000x25) S5000x25.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S25x3.size a ≤ S25x3.size a
  hwx5_1 : ∀ i : grid5.Coords, EltTy.bits .f32 = 32 ∨ (Rect.block (s := S25x3) S25x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x3.size a ≤ S1x3.size a
  hwx5_2 : ∀ i : grid5.Coords, EltTy.bits .f32 = 32 ∨ (Rect.block (s := S1x3) S1x3.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x3.size a ≤ S50000x3.size a
  hwx5_3 : ∀ i : grid5.Coords, EltTy.bits .f32 = 32 ∨ (Rect.block (s := S50000x3) S5000x3.size (cc5_transform_3 i) (hinb5_3 i)).WholeWords (EltTy.packing .f32)

variable [Facts₀]

def gather_S50000x300_S262144x1_S262144x300_1_0_n_n_0_1_1300 : GatherDims S50000x300 S262144x1 S262144x300 where
  offsetDims := [1]
  collapsedSliceDims := [0]
  operandBatchingDims := []
  startIndicesBatchingDims := []
  startIndexMap := [0]
  indexVectorDim := 1
  sliceSizes := ![1, 300]
  wf := gather_S50000x300_S262144x1_S262144x300_1_0_n_n_0_1_1300_wf
def scatter_S50000x300_S262144x1_S262144x300_1_0_0_1 : ScatterDims S50000x300 S262144x1 S262144x300 where
  updateWindowDims := [1]
  insertedWindowDims := [0]
  scatterDimsToOperandDims := [0]
  indexVectorDim := 1
  wf := scatter_S50000x300_S262144x1_S262144x300_1_0_0_1_wf
def dot_S5000x300_S300x200_S5000x200_1_0_0_1_n_n : DotDims S5000x300 S300x200 S5000x200 where
  lhsContracting := [1]
  rhsContracting := [0]
  lhsNonContracting := [0]
  rhsNonContracting := [1]
  lhsBatch := []
  rhsBatch := []
  wf := dot_S5000x300_S300x200_S5000x200_1_0_0_1_n_n_wf
def gather_S50000x200_S262144x1_S262144x200_1_0_n_n_0_1_1200 : GatherDims S50000x200 S262144x1 S262144x200 where
  offsetDims := [1]
  collapsedSliceDims := [0]
  operandBatchingDims := []
  startIndicesBatchingDims := []
  startIndexMap := [0]
  indexVectorDim := 1
  sliceSizes := ![1, 200]
  wf := gather_S50000x200_S262144x1_S262144x200_1_0_n_n_0_1_1200_wf
def scatter_S50000x200_S262144x1_S262144x200_1_0_0_1 : ScatterDims S50000x200 S262144x1 S262144x200 where
  updateWindowDims := [1]
  insertedWindowDims := [0]
  scatterDimsToOperandDims := [0]
  indexVectorDim := 1
  wf := scatter_S50000x200_S262144x1_S262144x200_1_0_0_1_wf
def dot_S5000x200_S200x150_S5000x150_1_0_0_1_n_n : DotDims S5000x200 S200x150 S5000x150 where
  lhsContracting := [1]
  rhsContracting := [0]
  lhsNonContracting := [0]
  rhsNonContracting := [1]
  lhsBatch := []
  rhsBatch := []
  wf := dot_S5000x200_S200x150_S5000x150_1_0_0_1_n_n_wf
def gather_S50000x150_S262144x1_S262144x150_1_0_n_n_0_1_1150 : GatherDims S50000x150 S262144x1 S262144x150 where
  offsetDims := [1]
  collapsedSliceDims := [0]
  operandBatchingDims := []
  startIndicesBatchingDims := []
  startIndexMap := [0]
  indexVectorDim := 1
  sliceSizes := ![1, 150]
  wf := gather_S50000x150_S262144x1_S262144x150_1_0_n_n_0_1_1150_wf
def scatter_S50000x150_S262144x1_S262144x150_1_0_0_1 : ScatterDims S50000x150 S262144x1 S262144x150 where
  updateWindowDims := [1]
  insertedWindowDims := [0]
  scatterDimsToOperandDims := [0]
  indexVectorDim := 1
  wf := scatter_S50000x150_S262144x1_S262144x150_1_0_0_1_wf
def dot_S5000x150_S150x100_S5000x100_1_0_0_1_n_n : DotDims S5000x150 S150x100 S5000x100 where
  lhsContracting := [1]
  rhsContracting := [0]
  lhsNonContracting := [0]
  rhsNonContracting := [1]
  lhsBatch := []
  rhsBatch := []
  wf := dot_S5000x150_S150x100_S5000x100_1_0_0_1_n_n_wf
def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def scatter_S50000x100_S262144x1_S262144x100_1_0_0_1 : ScatterDims S50000x100 S262144x1 S262144x100 where
  updateWindowDims := [1]
  insertedWindowDims := [0]
  scatterDimsToOperandDims := [0]
  indexVectorDim := 1
  wf := scatter_S50000x100_S262144x1_S262144x100_1_0_0_1_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf
def gather_S50000x50_S262144x1_S262144x50_1_0_n_n_0_1_150 : GatherDims S50000x50 S262144x1 S262144x50 where
  offsetDims := [1]
  collapsedSliceDims := [0]
  operandBatchingDims := []
  startIndicesBatchingDims := []
  startIndexMap := [0]
  indexVectorDim := 1
  sliceSizes := ![1, 50]
  wf := gather_S50000x50_S262144x1_S262144x50_1_0_n_n_0_1_150_wf
def scatter_S50000x50_S262144x1_S262144x50_1_0_0_1 : ScatterDims S50000x50 S262144x1 S262144x50 where
  updateWindowDims := [1]
  insertedWindowDims := [0]
  scatterDimsToOperandDims := [0]
  indexVectorDim := 1
  wf := scatter_S50000x50_S262144x1_S262144x50_1_0_0_1_wf
def dot_S5000x50_S50x25_S5000x25_1_0_0_1_n_n : DotDims S5000x50 S50x25 S5000x25 where
  lhsContracting := [1]
  rhsContracting := [0]
  lhsNonContracting := [0]
  rhsNonContracting := [1]
  lhsBatch := []
  rhsBatch := []
  wf := dot_S5000x50_S50x25_S5000x25_1_0_0_1_n_n_wf
def gather_S50000x25_S262144x1_S262144x25_1_0_n_n_0_1_125 : GatherDims S50000x25 S262144x1 S262144x25 where
  offsetDims := [1]
  collapsedSliceDims := [0]
  operandBatchingDims := []
  startIndicesBatchingDims := []
  startIndexMap := [0]
  indexVectorDim := 1
  sliceSizes := ![1, 25]
  wf := gather_S50000x25_S262144x1_S262144x25_1_0_n_n_0_1_125_wf
def scatter_S50000x25_S262144x1_S262144x25_1_0_0_1 : ScatterDims S50000x25 S262144x1 S262144x25 where
  updateWindowDims := [1]
  insertedWindowDims := [0]
  scatterDimsToOperandDims := [0]
  indexVectorDim := 1
  wf := scatter_S50000x25_S262144x1_S262144x25_1_0_0_1_wf
def dot_S5000x25_S25x3_S5000x3_1_0_0_1_n_n : DotDims S5000x25 S25x3 S5000x3 where
  lhsContracting := [1]
  rhsContracting := [0]
  lhsNonContracting := [0]
  rhsNonContracting := [1]
  lhsBatch := []
  rhsBatch := []
  wf := dot_S5000x25_S25x3_S5000x3_1_0_0_1_n_n_wf

abbrev win0_0 : Pipeline.Window sig grid0 :=
  Pipeline.Window.ofSpec (Memref.whole main_v9) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S200x150.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x150.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x150.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x150.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S150x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S100x50.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S5000x50.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S5000x50.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S50x25.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x25.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S5000x25.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v69) S5000x25.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S25x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S5000x3.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x300 : Shape := ⟨2, ![50000, 300]⟩
abbrev S262144 : Shape := ⟨1, ![262144]⟩
abbrev S300x200 : Shape := ⟨2, ![300, 200]⟩
abbrev S200 : Shape := ⟨1, ![200]⟩
abbrev S200x150 : Shape := ⟨2, ![200, 150]⟩
abbrev S150 : Shape := ⟨1, ![150]⟩
abbrev S150x100 : Shape := ⟨2, ![150, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x3 : Shape := ⟨2, ![25, 3]⟩
abbrev S3 : Shape := ⟨1, ![3]⟩
abbrev S_ : Shape := ⟨0, ![]⟩
abbrev S262144x1 : Shape := ⟨2, ![262144, 1]⟩
abbrev S262144x300 : Shape := ⟨2, ![262144, 300]⟩
abbrev S50000x200 : Shape := ⟨2, ![50000, 200]⟩
abbrev S1x200 : Shape := ⟨2, ![1, 200]⟩
abbrev S262144x200 : Shape := ⟨2, ![262144, 200]⟩
abbrev S50000x150 : Shape := ⟨2, ![50000, 150]⟩
abbrev S1x150 : Shape := ⟨2, ![1, 150]⟩
abbrev S50000 : Shape := ⟨1, ![50000]⟩
abbrev S50000x1 : Shape := ⟨2, ![50000, 1]⟩
abbrev S262144x150 : Shape := ⟨2, ![262144, 150]⟩
abbrev S50000x100 : Shape := ⟨2, ![50000, 100]⟩
abbrev S1x100 : Shape := ⟨2, ![1, 100]⟩
abbrev S262144x100 : Shape := ⟨2, ![262144, 100]⟩
abbrev S50000x50 : Shape := ⟨2, ![50000, 50]⟩
abbrev S1x50 : Shape := ⟨2, ![1, 50]⟩
abbrev S262144x50 : Shape := ⟨2, ![262144, 50]⟩
abbrev S50000x25 : Shape := ⟨2, ![50000, 25]⟩
abbrev S1x25 : Shape := ⟨2, ![1, 25]⟩
abbrev S262144x25 : Shape := ⟨2, ![262144, 25]⟩
abbrev S50000x3 : Shape := ⟨2, ![50000, 3]⟩
abbrev S1x3 : Shape := ⟨2, ![1, 3]⟩

abbrev nBuf : Space → Nat
  | .hbm => 184
  | .vmem => 0
  | .smem => 0
  | _ => 0

abbrev hbmTy0_0 (i : Nat) : BufTy := match i % 128 with
  | 0 => ⟨S50000x300, .f32⟩
  | 1 => ⟨S262144, .i32⟩
  | 2 => ⟨S262144, .i32⟩
  | 3 => ⟨S300x200, .f32⟩
  | 4 => ⟨S200, .f32⟩
  | 5 => ⟨S200x150, .f32⟩
  | 6 => ⟨S150, .f32⟩
  | 7 => ⟨S150x100, .f32⟩
  | 8 => ⟨S100, .f32⟩
  | 9 => ⟨S100x50, .f32⟩
  | 10 => ⟨S50, .f32⟩
  | 11 => ⟨S50x25, .f32⟩
  | 12 => ⟨S25, .f32⟩
  | 13 => ⟨S25x3, .f32⟩
  | 14 => ⟨S3, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x300, .f32⟩
  | 24 => ⟨S_, .f32⟩
  | 25 => ⟨S50000x300, .f32⟩
  | 26 => ⟨S262144x1, .i32⟩
  | 27 => ⟨S50000x300, .f32⟩
  | 28 => ⟨S50000x200, .f32⟩
  | 29 => ⟨S1x200, .f32⟩
  | 30 => ⟨S50000x200, .f32⟩
  | 31 => ⟨S50000x200, .f32⟩
  | 32 => ⟨S_, .f32⟩
  | 33 => ⟨S_, .f32⟩
  | 34 => ⟨S50000x200, .f32⟩
  | 35 => ⟨S50000x200, .i1⟩
  | 36 => ⟨S_, .f32⟩
  | 37 => ⟨S50000x200, .f32⟩
  | 38 => ⟨S50000x200, .f32⟩
  | 39 => ⟨S50000x200, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x200, .f32⟩
  | 49 => ⟨S_, .f32⟩
  | 50 => ⟨S50000x200, .f32⟩
  | 51 => ⟨S262144x1, .i32⟩
  | 52 => ⟨S50000x200, .f32⟩
  | 53 => ⟨S50000x150, .f32⟩
  | 54 => ⟨S1x150, .f32⟩
  | 55 => ⟨S50000x150, .f32⟩
  | 56 => ⟨S50000x150, .f32⟩
  | 57 => ⟨S_, .f32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x150, .f32⟩
  | 64 => ⟨S50000x150, .f32⟩
  | 65 => ⟨S50000x150, .f32⟩
  | 66 => ⟨S_, .f32⟩
  | 67 => ⟨S50000, .f32⟩
  | 68 => ⟨S50000x1, .f32⟩
  | 69 => ⟨S50000x150, .f32⟩
  | 70 => ⟨S50000x150, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x150, .f32⟩
  | 80 => ⟨S_, .f32⟩
  | 81 => ⟨S50000x150, .f32⟩
  | 82 => ⟨S262144x1, .i32⟩
  | 83 => ⟨S50000x150, .f32⟩
  | 84 => ⟨S50000x100, .f32⟩
  | 85 => ⟨S1x100, .f32⟩
  | 86 => ⟨S50000x100, .f32⟩
  | 87 => ⟨S50000x100, .f32⟩
  | 88 => ⟨S_, .f32⟩
  | 89 => ⟨S_, .f32⟩
  | 90 => ⟨S50000x100, .f32⟩
  | 91 => ⟨S50000x100, .i1⟩
  | 92 => ⟨S_, .f32⟩
  | 93 => ⟨S50000x100, .f32⟩
  | 94 => ⟨S50000x100, .f32⟩
  | 95 => ⟨S50000x100, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x100, .f32⟩
  | 105 => ⟨S_, .f32⟩
  | 106 => ⟨S50000x100, .f32⟩
  | 107 => ⟨S262144x1, .i32⟩
  | 108 => ⟨S50000x100, .f32⟩
  | 109 => ⟨S50000x50, .f32⟩
  | 110 => ⟨S1x50, .f32⟩
  | 111 => ⟨S50000x50, .f32⟩
  | 112 => ⟨S50000x50, .f32⟩
  | 113 => ⟨S_, .f32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x50, .f32⟩
  | 120 => ⟨S50000x50, .f32⟩
  | 121 => ⟨S50000x50, .f32⟩
  | 122 => ⟨S_, .f32⟩
  | 123 => ⟨S50000, .f32⟩
  | 124 => ⟨S50000x1, .f32⟩
  | 125 => ⟨S50000x50, .f32⟩
  | 126 => ⟨S50000x50, .f32⟩
  | 127 => ⟨S_, .i32⟩
  | _ => ⟨S50000x300, .f32⟩

abbrev hbmTy0_1 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S262144x50, .f32⟩
  | 8 => ⟨S_, .f32⟩
  | 9 => ⟨S50000x50, .f32⟩
  | 10 => ⟨S262144x1, .i32⟩
  | 11 => ⟨S50000x50, .f32⟩
  | 12 => ⟨S50000x25, .f32⟩
  | 13 => ⟨S1x25, .f32⟩
  | 14 => ⟨S50000x25, .f32⟩
  | 15 => ⟨S50000x25, .f32⟩
  | 16 => ⟨S_, .f32⟩
  | 17 => ⟨S_, .f32⟩
  | 18 => ⟨S50000x25, .f32⟩
  | 19 => ⟨S50000x25, .i1⟩
  | 20 => ⟨S_, .f32⟩
  | 21 => ⟨S50000x25, .f32⟩
  | 22 => ⟨S50000x25, .f32⟩
  | 23 => ⟨S50000x25, .f32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S262144x1, .i32⟩
  | 32 => ⟨S262144x25, .f32⟩
  | 33 => ⟨S_, .f32⟩
  | 34 => ⟨S50000x25, .f32⟩
  | 35 => ⟨S262144x1, .i32⟩
  | 36 => ⟨S50000x25, .f32⟩
  | 37 => ⟨S50000x3, .f32⟩
  | 38 => ⟨S1x3, .f32⟩
  | 39 => ⟨S50000x3, .f32⟩
  | 40 => ⟨S50000x3, .f32⟩
  | 41 => ⟨S_, .f32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x3, .f32⟩
  | 48 => ⟨S50000x3, .f32⟩
  | 49 => ⟨S50000x3, .f32⟩
  | 50 => ⟨S_, .f32⟩
  | 51 => ⟨S50000, .f32⟩
  | 52 => ⟨S50000x1, .f32⟩
  | 53 => ⟨S50000x1, .f32⟩
  | 54 => ⟨S50000x3, .f32⟩
  | 55 => ⟨S50000x3, .f32⟩
  | _ => ⟨S50000x300, .f32⟩

abbrev hbmTy (i : Nat) : BufTy := match i / 128 with
  | 0 => hbmTy0_0 i
  | 1 => hbmTy0_1 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v14 : Ref sig .tc := ⟨.hbm, 39, rfl⟩
abbrev main_c_2 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_8 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v54 : Ref sig .tc := ⟨.hbm, 95, rfl⟩
abbrev main_c_12 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_14 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_15 : Ref sig .tc := ⟨.hbm, 113, rfl⟩
abbrev main_v69 : Ref sig .tc := ⟨.hbm, 114, rfl⟩
abbrev main_cst_16 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_17 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_18 : Ref sig .tc := ⟨.hbm, 127, rfl⟩
abbrev main_v80 : Ref sig .tc := ⟨.hbm, 128, rfl⟩
abbrev main_v81 : Ref sig .tc := ⟨.hbm, 129, rfl⟩
abbrev main_c_19 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_20 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_21 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_v94 : Ref sig .tc := ⟨.hbm, 151, rfl⟩
abbrev main_c_22 : Ref sig .tc := ⟨.hbm, 152, rfl⟩
abbrev main_v95 : Ref sig .tc := ⟨.hbm, 153, rfl⟩
abbrev main_v96 : Ref sig .tc := ⟨.hbm, 154, rfl⟩
abbrev main_c_23 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_24 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call3_cst : Ref sig .tc := ⟨.hbm, 169, rfl⟩
abbrev main_call3_v0 : Ref sig .tc := ⟨.hbm, 170, rfl⟩
abbrev main_call3_cst_0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_v6 : Ref sig .tc := ⟨.hbm, 177, rfl⟩
abbrev main_call3_cst_1 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_v109 : Ref sig .tc := ⟨.hbm, 183, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S50000x300 : S_.BroadcastsInDim S50000x300 (![] : Fin 0 → Fin S50000x300.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  bcast_S150_S1x150_1 : S150.BroadcastsInDim S1x150 (![1] : Fin 1 → Fin S1x150.rank)
  bcast_S1x150_S50000x150_0_1 : S1x150.BroadcastsInDim S50000x150 (![0, 1] : Fin 2 → Fin S50000x150.rank)
  reducesTo_S50000x150_S50000_d1 : S50000x150.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x150_0_1 : S50000x1.BroadcastsInDim S50000x150 (![0, 1] : Fin 2 → Fin S50000x150.rank)
  bcast_S_S50000x150 : S_.BroadcastsInDim S50000x150 (![] : Fin 0 → Fin S50000x150.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  reducesTo_S50000x50_S50000_d1 : S50000x50.ReducesTo [1] S50000
  bcast_S50000x1_S50000x50_0_1 : S50000x1.BroadcastsInDim S50000x50 (![0, 1] : Fin 2 → Fin S50000x50.rank)
  bcast_S_S50000x50 : S_.BroadcastsInDim S50000x50 (![] : Fin 0 → Fin S50000x50.rank)
  bcast_S25_S1x25_1 : S25.BroadcastsInDim S1x25 (![1] : Fin 1 → Fin S1x25.rank)
  bcast_S1x25_S50000x25_0_1 : S1x25.BroadcastsInDim S50000x25 (![0, 1] : Fin 2 → Fin S50000x25.rank)
  bcast_S_S50000x25 : S_.BroadcastsInDim S50000x25 (![] : Fin 0 → Fin S50000x25.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S50000_d1 : S50000x3.ReducesTo [1] S50000
  bcast_S50000x1_S50000x3_0_1 : S50000x1.BroadcastsInDim S50000x3 (![0, 1] : Fin 2 → Fin S50000x3.rank)
  gather_S50000x300_S262144x1_S262144x300_1_0_n_n_0_1_1300_wf : GatherDims.WF S50000x300 S262144x1 S262144x300 [1] [0] [] [0] [] 1 ![1, 300]
  scatter_S50000x300_S262144x1_S262144x300_1_0_0_1_wf : ScatterDims.WF S50000x300 S262144x1 S262144x300 [1] [0] [0] 1
  dot_S50000x300_S300x200_S50000x200_1_0_0_1_n_n_wf : DotDims.WF S50000x300 S300x200 S50000x200 [1] [0] [0] [1] [] []
  gather_S50000x200_S262144x1_S262144x200_1_0_n_n_0_1_1200_wf : GatherDims.WF S50000x200 S262144x1 S262144x200 [1] [0] [] [0] [] 1 ![1, 200]
  scatter_S50000x200_S262144x1_S262144x200_1_0_0_1_wf : ScatterDims.WF S50000x200 S262144x1 S262144x200 [1] [0] [0] 1
  dot_S50000x200_S200x150_S50000x150_1_0_0_1_n_n_wf : DotDims.WF S50000x200 S200x150 S50000x150 [1] [0] [0] [1] [] []
  gather_S50000x150_S262144x1_S262144x150_1_0_n_n_0_1_1150_wf : GatherDims.WF S50000x150 S262144x1 S262144x150 [1] [0] [] [0] [] 1 ![1, 150]
  scatter_S50000x150_S262144x1_S262144x150_1_0_0_1_wf : ScatterDims.WF S50000x150 S262144x1 S262144x150 [1] [0] [0] 1
  dot_S50000x150_S150x100_S50000x100_1_0_0_1_n_n_wf : DotDims.WF S50000x150 S150x100 S50000x100 [1] [0] [0] [1] [] []
  gather_S50000x100_S262144x1_S262144x100_1_0_n_n_0_1_1100_wf : GatherDims.WF S50000x100 S262144x1 S262144x100 [1] [0] [] [0] [] 1 ![1, 100]
  scatter_S50000x100_S262144x1_S262144x100_1_0_0_1_wf : ScatterDims.WF S50000x100 S262144x1 S262144x100 [1] [0] [0] 1
  dot_S50000x100_S100x50_S50000x50_1_0_0_1_n_n_wf : DotDims.WF S50000x100 S100x50 S50000x50 [1] [0] [0] [1] [] []
  gather_S50000x50_S262144x1_S262144x50_1_0_n_n_0_1_150_wf : GatherDims.WF S50000x50 S262144x1 S262144x50 [1] [0] [] [0] [] 1 ![1, 50]
  scatter_S50000x50_S262144x1_S262144x50_1_0_0_1_wf : ScatterDims.WF S50000x50 S262144x1 S262144x50 [1] [0] [0] 1
  dot_S50000x50_S50x25_S50000x25_1_0_0_1_n_n_wf : DotDims.WF S50000x50 S50x25 S50000x25 [1] [0] [0] [1] [] []
  gather_S50000x25_S262144x1_S262144x25_1_0_n_n_0_1_125_wf : GatherDims.WF S50000x25 S262144x1 S262144x25 [1] [0] [] [0] [] 1 ![1, 25]
  scatter_S50000x25_S262144x1_S262144x25_1_0_0_1_wf : ScatterDims.WF S50000x25 S262144x1 S262144x25 [1] [0] [0] 1
  dot_S50000x25_S25x3_S50000x3_1_0_0_1_n_n_wf : DotDims.WF S50000x25 S25x3 S50000x3 [1] [0] [0] [1] [] []

variable [Facts₀]

def gather_S50000x300_S262144x1_S262144x300_1_0_n_n_0_1_1300 : GatherDims S50000x300 S262144x1 S262144x300 where
  offsetDims := [1]
  collapsedSliceDims := [0]
  operandBatchingDims := []
  startIndicesBatchingDims := []
  startIndexMap := [0]
  indexVectorDim := 1
  sliceSizes := ![1, 300]
  wf := gather_S50000x300_S262144x1_S262144x300_1_0_n_n_0_1_1300_wf
def scatter_S50000x300_S262144x1_S262144x300_1_0_0_1 : ScatterDims S50000x300 S262144x1 S262144x300 where
  updateWindowDims := [1]
  insertedWindowDims := [0]
  scatterDimsToOperandDims := [0]
  indexVectorDim := 1
  wf := scatter_S50000x300_S262144x1_S262144x300_1_0_0_1_wf
def dot_S50000x300_S300x200_S50000x200_1_0_0_1_n_n : DotDims S50000x300 S300x200 S50000x200 where
  lhsContracting := [1]
  rhsContracting := [0]
  lhsNonContracting := [0]
  rhsNonContracting := [1]
  lhsBatch := []
  rhsBatch := []
  wf := dot_S50000x300_S300x200_S50000x200_1_0_0_1_n_n_wf
def gather_S50000x200_S262144x1_S262144x200_1_0_n_n_0_1_1200 : GatherDims S50000x200 S262144x1 S262144x200 where
  offsetDims := [1]
  collapsedSliceDims := [0]
  operandBatchingDims := []
  startIndicesBatchingDims := []
  startIndexMap := [0]
  indexVectorDim := 1
  sliceSizes := ![1, 200]
  wf := gather_S50000x200_S262144x1_S262144x200_1_0_n_n_0_1_1200_wf
def scatter_S50000x200_S262144x1_S262144x200_1_0_0_1 : ScatterDims S50000x200 S262144x1 S262144x200 where
  updateWindowDims := [1]
  insertedWindowDims := [0]
  scatterDimsToOperandDims := [0]
  indexVectorDim := 1
  wf := scatter_S50000x200_S262144x1_S262144x200_1_0_0_1_wf
def dot_S50000x200_S200x150_S50000x150_1_0_0_1_n_n : DotDims S50000x200 S200x150 S50000x150 where
  lhsContracting := [1]
  rhsContracting := [0]
  lhsNonContracting := [0]
  rhsNonContracting := [1]
  lhsBatch := []
  rhsBatch := []
  wf := dot_S50000x200_S200x150_S50000x150_1_0_0_1_n_n_wf
def gather_S50000x150_S262144x1_S262144x150_1_0_n_n_0_1_1150 : GatherDims S50000x150 S262144x1 S262144x150 where
  offsetDims := [1]
  collapsedSliceDims := [0]
  operandBatchingDims := []
  startIndicesBatchingDims := []
  startIndexMap := [0]
  indexVectorDim := 1
  sliceSizes := ![1, 150]
  wf := gather_S50000x150_S262144x1_S262144x150_1_0_n_n_0_1_1150_wf
def scatter_S50000x150_S262144x1_S262144x150_1_0_0_1 : ScatterDims S50000x150 S262144x1 S262144x150 where
  updateWindowDims := [1]
  insertedWindowDims := [0]
  scatterDimsToOperandDims := [0]
  indexVectorDim := 1
  wf := scatter_S50000x150_S262144x1_S262144x150_1_0_0_1_wf
def dot_S50000x150_S150x100_S50000x100_1_0_0_1_n_n : DotDims S50000x150 S150x100 S50000x100 where
  lhsContracting := [1]
  rhsContracting := [0]
  lhsNonContracting := [0]
  rhsNonContracting := [1]
  lhsBatch := []
  rhsBatch := []
  wf := dot_S50000x150_S150x100_S50000x100_1_0_0_1_n_n_wf
def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def scatter_S50000x100_S262144x1_S262144x100_1_0_0_1 : ScatterDims S50000x100 S262144x1 S262144x100 where
  updateWindowDims := [1]
  insertedWindowDims := [0]
  scatterDimsToOperandDims := [0]
  indexVectorDim := 1
  wf := scatter_S50000x100_S262144x1_S262144x100_1_0_0_1_wf
def dot_S50000x100_S100x50_S50000x50_1_0_0_1_n_n : DotDims S50000x100 S100x50 S50000x50 where
  lhsContracting := [1]
  rhsContracting := [0]
  lhsNonContracting := [0]
  rhsNonContracting := [1]
  lhsBatch := []
  rhsBatch := []
  wf := dot_S50000x100_S100x50_S50000x50_1_0_0_1_n_n_wf
def gather_S50000x50_S262144x1_S262144x50_1_0_n_n_0_1_150 : GatherDims S50000x50 S262144x1 S262144x50 where
  offsetDims := [1]
  collapsedSliceDims := [0]
  operandBatchingDims := []
  startIndicesBatchingDims := []
  startIndexMap := [0]
  indexVectorDim := 1
  sliceSizes := ![1, 50]
  wf := gather_S50000x50_S262144x1_S262144x50_1_0_n_n_0_1_150_wf
def scatter_S50000x50_S262144x1_S262144x50_1_0_0_1 : ScatterDims S50000x50 S262144x1 S262144x50 where
  updateWindowDims := [1]
  insertedWindowDims := [0]
  scatterDimsToOperandDims := [0]
  indexVectorDim := 1
  wf := scatter_S50000x50_S262144x1_S262144x50_1_0_0_1_wf
def dot_S50000x50_S50x25_S50000x25_1_0_0_1_n_n : DotDims S50000x50 S50x25 S50000x25 where
  lhsContracting := [1]
  rhsContracting := [0]
  lhsNonContracting := [0]
  rhsNonContracting := [1]
  lhsBatch := []
  rhsBatch := []
  wf := dot_S50000x50_S50x25_S50000x25_1_0_0_1_n_n_wf
def gather_S50000x25_S262144x1_S262144x25_1_0_n_n_0_1_125 : GatherDims S50000x25 S262144x1 S262144x25 where
  offsetDims := [1]
  collapsedSliceDims := [0]
  operandBatchingDims := []
  startIndicesBatchingDims := []
  startIndexMap := [0]
  indexVectorDim := 1
  sliceSizes := ![1, 25]
  wf := gather_S50000x25_S262144x1_S262144x25_1_0_n_n_0_1_125_wf
def scatter_S50000x25_S262144x1_S262144x25_1_0_0_1 : ScatterDims S50000x25 S262144x1 S262144x25 where
  updateWindowDims := [1]
  insertedWindowDims := [0]
  scatterDimsToOperandDims := [0]
  indexVectorDim := 1
  wf := scatter_S50000x25_S262144x1_S262144x25_1_0_0_1_wf
def dot_S50000x25_S25x3_S50000x3_1_0_0_1_n_n : DotDims S50000x25 S25x3 S50000x3 where
  lhsContracting := [1]
  rhsContracting := [0]
  lhsNonContracting := [0]
  rhsNonContracting := [1]
  lhsBatch := []
  rhsBatch := []
  wf := dot_S50000x25_S25x3_S50000x3_1_0_0_1_n_n_wf

class Facts : Prop extends Facts₀ where

variable [Facts]
-- ==== Proof.Spec.lean ====
/-
  The six layers of the network as functions of whole arrays, written with the host operations of the reference.

  Every layer takes the node features x (one row per node), gathers the row of each edge's source node, sums the
  gathered rows into each edge's destination node (a segment sum over the 262144 edges into the 50000 nodes), applies
  the affine map  y = agg · W + b  and then an activation along each row: the leaky rectifier
  (y where y ≥ 0, else 0.01·y, the slope being the f32 nearest 0.01), the softmax
  exp(y − max y) / Σ exp(y − max y), or the log-softmax (y − max y) − log Σ exp(y − max y).
  A source index below zero is first wrapped by the node count, as jnp indexing does. The bias enters as a 1×F row.
-/
import proofs.«103496_j8332236554735_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- A float array of shape `s` at the ideal values. -/
abbrev A (s : Shape) := FVec Ideal s .f32
/-- A 32-bit integer array of shape `s`. -/
abbrev I (s : Shape) := IVec s 32

/-- The edges' source nodes as a column of start indices, an index below zero wrapped by the node count. -/
def srcCol (src : I S262144) : I S262144x1 :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 50000#32))) src)

/-- The edges' destination nodes as a column of scatter indices. -/
def dstCol (dst : I S262144) : I S262144x1 := broadcastInDim S262144x1 ![0] bcast_S262144_S262144x1_0 dst

/-- Message passing at width 300: node v receives the sum of x's rows at the sources of the edges into v. -/
def agg300 (x : A S50000x300) (src dst : I S262144) : A S50000x300 :=
  Host.scatterAdd scatter_S50000x300_S262144x1_S262144x300_1_0_0_1
    (broadcastInDim S50000x300 ![] bcast_S_S50000x300 (constant (F := Ideal) S_ .f32 0x00000000#32))
    (dstCol dst)
    (Host.gather gather_S50000x300_S262144x1_S262144x300_1_0_n_n_0_1_1300 x (srcCol src))

/-- Message passing at width 200: node v receives the sum of x's rows at the sources of the edges into v. -/
def agg200 (x : A S50000x200) (src dst : I S262144) : A S50000x200 :=
  Host.scatterAdd scatter_S50000x200_S262144x1_S262144x200_1_0_0_1
    (broadcastInDim S50000x200 ![] bcast_S_S50000x200 (constant (F := Ideal) S_ .f32 0x00000000#32))
    (dstCol dst)
    (Host.gather gather_S50000x200_S262144x1_S262144x200_1_0_n_n_0_1_1200 x (srcCol src))

/-- Message passing at width 150: node v receives the sum of x's rows at the sources of the edges into v. -/
def agg150 (x : A S50000x150) (src dst : I S262144) : A S50000x150 :=
  Host.scatterAdd scatter_S50000x150_S262144x1_S262144x150_1_0_0_1
    (broadcastInDim S50000x150 ![] bcast_S_S50000x150 (constant (F := Ideal) S_ .f32 0x00000000#32))
    (dstCol dst)
    (Host.gather gather_S50000x150_S262144x1_S262144x150_1_0_n_n_0_1_1150 x (srcCol src))

/-- Message passing at width 100: node v receives the sum of x's rows at the sources of the edges into v. -/
def agg100 (x : A S50000x100) (src dst : I S262144) : A S50000x100 :=
  Host.scatterAdd scatter_S50000x100_S262144x1_S262144x100_1_0_0_1
    (broadcastInDim S50000x100 ![] bcast_S_S50000x100 (constant (F := Ideal) S_ .f32 0x00000000#32))
    (dstCol dst)
    (Host.gather gather_S50000x100_S262144x1_S262144x100_1_0_n_n_0_1_1100 x (srcCol src))

/-- Message passing at width 50: node v receives the sum of x's rows at the sources of the edges into v. -/
def agg50 (x : A S50000x50) (src dst : I S262144) : A S50000x50 :=
  Host.scatterAdd scatter_S50000x50_S262144x1_S262144x50_1_0_0_1
    (broadcastInDim S50000x50 ![] bcast_S_S50000x50 (constant (F := Ideal) S_ .f32 0x00000000#32))
    (dstCol dst)
    (Host.gather gather_S50000x50_S262144x1_S262144x50_1_0_n_n_0_1_150 x (srcCol src))

/-- Message passing at width 25: node v receives the sum of x's rows at the sources of the edges into v. -/
def agg25 (x : A S50000x25) (src dst : I S262144) : A S50000x25 :=
  Host.scatterAdd scatter_S50000x25_S262144x1_S262144x25_1_0_0_1
    (broadcastInDim S50000x25 ![] bcast_S_S50000x25 (constant (F := Ideal) S_ .f32 0x00000000#32))
    (dstCol dst)
    (Host.gather gather_S50000x25_S262144x1_S262144x25_1_0_n_n_0_1_125 x (srcCol src))

/-- The affine map of layer 1: x · W plus the bias row repeated down the rows. -/
def lin0 (x : A S50000x300) (W : A S300x200) (b2 : A S1x200) : A S50000x200 :=
  addf (F := Ideal) (Host.dotGeneral dot_S50000x300_S300x200_S50000x200_1_0_0_1_n_n none x W)
    (broadcastInDim S50000x200 ![0, 1] bcast_S1x200_S50000x200_0_1 b2)

/-- The leaky rectifier on a 200-wide array. -/
def act0 (y : A S50000x200) : A S50000x200 :=
  select (cmpf .oge y (broadcastInDim S50000x200 ![] bcast_S_S50000x200 (constant (F := Ideal) S_ .f32 0x00000000#32))) y
    (mulf (broadcastInDim S50000x200 ![] bcast_S_S50000x200 (constant (F := Ideal) S_ .f32 0x3C23D70A#32)) y)

/-- Layer 1 on already aggregated features, the bias as a row. -/
def layer0 (x : A S50000x300) (W : A S300x200) (b2 : A S1x200) : A S50000x200 := act0 (lin0 x W b2)

/-- A bias vector of length 200 as a 1×200 row. -/
def row0 (b : A S200) : A S1x200 := broadcastInDim S1x200 ![1] bcast_S200_S1x200_1 b

/-- The affine map of layer 2: x · W plus the bias row repeated down the rows. -/
def lin1 (x : A S50000x200) (W : A S200x150) (b2 : A S1x150) : A S50000x150 :=
  addf (F := Ideal) (Host.dotGeneral dot_S50000x200_S200x150_S50000x150_1_0_0_1_n_n none x W)
    (broadcastInDim S50000x150 ![0, 1] bcast_S1x150_S50000x150_0_1 b2)

/-- The rows of y shifted by their maxima, exponentiated. -/
def expShift1 (y : A S50000x150) : A S50000x150 :=
  Host.exp (F := Ideal) (subf y (broadcastInDim S50000x150 ![0, 1] bcast_S50000x1_S50000x150_0_1
    (broadcastInDim S50000x1 ![0] bcast_S50000_S50000x1_0
      (maximumf (broadcastInDim S50000 ![] bcast_S_S50000 (constant (F := Ideal) S_ .f32 0xFF800000#32))
        (Host.reduce (FloatOps.maximumf (F := Ideal)) y (constant (F := Ideal) S_ .f32 0xFF800000#32) reducesTo_S50000x150_S50000_d1 h_S_)))))

/-- The softmax along each row of a 150-wide array. -/
def act1 (y : A S50000x150) : A S50000x150 :=
  Host.divf (F := Ideal) (expShift1 y) (broadcastInDim S50000x150 ![0, 1] bcast_S50000x1_S50000x150_0_1
    (broadcastInDim S50000x1 ![0] bcast_S50000_S50000x1_0
      (Host.reduceAdd (F := Ideal) (expShift1 y) (constant (F := Ideal) S_ .f32 0x00000000#32) reducesTo_S50000x150_S50000_d1 h_S_)))

/-- Layer 2 on already aggregated features, the bias as a row. -/
def layer1 (x : A S50000x200) (W : A S200x150) (b2 : A S1x150) : A S50000x150 := act1 (lin1 x W b2)

/-- A bias vector of length 150 as a 1×150 row. -/
def row1 (b : A S150) : A S1x150 := broadcastInDim S1x150 ![1] bcast_S150_S1x150_1 b

/-- The affine map of layer 3: x · W plus the bias row repeated down the rows. -/
def lin2 (x : A S50000x150) (W : A S150x100) (b2 : A S1x100) : A S50000x100 :=
  addf (F := Ideal) (Host.dotGeneral dot_S50000x150_S150x100_S50000x100_1_0_0_1_n_n none x W)
    (broadcastInDim S50000x100 ![0, 1] bcast_S1x100_S50000x100_0_1 b2)

/-- The leaky rectifier on a 100-wide array. -/
def act2 (y : A S50000x100) : A S50000x100 :=
  select (cmpf .oge y (broadcastInDim S50000x100 ![] bcast_S_S50000x100 (constant (F := Ideal) S_ .f32 0x00000000#32))) y
    (mulf (broadcastInDim S50000x100 ![] bcast_S_S50000x100 (constant (F := Ideal) S_ .f32 0x3C23D70A#32)) y)

/-- Layer 3 on already aggregated features, the bias as a row. -/
def layer2 (x : A S50000x150) (W : A S150x100) (b2 : A S1x100) : A S50000x100 := act2 (lin2 x W b2)

/-- A bias vector of length 100 as a 1×100 row. -/
def row2 (b : A S100) : A S1x100 := broadcastInDim S1x100 ![1] bcast_S100_S1x100_1 b

/-- The affine map of layer 4: x · W plus the bias row repeated down the rows. -/
def lin3 (x : A S50000x100) (W : A S100x50) (b2 : A S1x50) : A S50000x50 :=
  addf (F := Ideal) (Host.dotGeneral dot_S50000x100_S100x50_S50000x50_1_0_0_1_n_n none x W)
    (broadcastInDim S50000x50 ![0, 1] bcast_S1x50_S50000x50_0_1 b2)

/-- The rows of y shifted by their maxima, exponentiated. -/
def expShift3 (y : A S50000x50) : A S50000x50 :=
  Host.exp (F := Ideal) (subf y (broadcastInDim S50000x50 ![0, 1] bcast_S50000x1_S50000x50_0_1
    (broadcastInDim S50000x1 ![0] bcast_S50000_S50000x1_0
      (maximumf (broadcastInDim S50000 ![] bcast_S_S50000 (constant (F := Ideal) S_ .f32 0xFF800000#32))
        (Host.reduce (FloatOps.maximumf (F := Ideal)) y (constant (F := Ideal) S_ .f32 0xFF800000#32) reducesTo_S50000x50_S50000_d1 h_S_)))))

/-- The softmax along each row of a 50-wide array. -/
def act3 (y : A S50000x50) : A S50000x50 :=
  Host.divf (F := Ideal) (expShift3 y) (broadcastInDim S50000x50 ![0, 1] bcast_S50000x1_S50000x50_0_1
    (broadcastInDim S50000x1 ![0] bcast_S50000_S50000x1_0
      (Host.reduceAdd (F := Ideal) (expShift3 y) (constant (F := Ideal) S_ .f32 0x00000000#32) reducesTo_S50000x50_S50000_d1 h_S_)))

/-- Layer 4 on already aggregated features, the bias as a row. -/
def layer3 (x : A S50000x100) (W : A S100x50) (b2 : A S1x50) : A S50000x50 := act3 (lin3 x W b2)

/-- A bias vector of length 50 as a 1×50 row. -/
def row3 (b : A S50) : A S1x50 := broadcastInDim S1x50 ![1] bcast_S50_S1x50_1 b

/-- The affine map of layer 5: x · W plus the bias row repeated down the rows. -/
def lin4 (x : A S50000x50) (W : A S50x25) (b2 : A S1x25) : A S50000x25 :=
  addf (F := Ideal) (Host.dotGeneral dot_S50000x50_S50x25_S50000x25_1_0_0_1_n_n none x W)
    (broadcastInDim S50000x25 ![0, 1] bcast_S1x25_S50000x25_0_1 b2)

/-- The leaky rectifier on a 25-wide array. -/
def act4 (y : A S50000x25) : A S50000x25 :=
  select (cmpf .oge y (broadcastInDim S50000x25 ![] bcast_S_S50000x25 (constant (F := Ideal) S_ .f32 0x00000000#32))) y
    (mulf (broadcastInDim S50000x25 ![] bcast_S_S50000x25 (constant (F := Ideal) S_ .f32 0x3C23D70A#32)) y)

/-- Layer 5 on already aggregated features, the bias as a row. -/
def layer4 (x : A S50000x50) (W : A S50x25) (b2 : A S1x25) : A S50000x25 := act4 (lin4 x W b2)

/-- A bias vector of length 25 as a 1×25 row. -/
def row4 (b : A S25) : A S1x25 := broadcastInDim S1x25 ![1] bcast_S25_S1x25_1 b

/-- The affine map of layer 6: x · W plus the bias row repeated down the rows. -/
def lin5 (x : A S50000x25) (W : A S25x3) (b2 : A S1x3) : A S50000x3 :=
  addf (F := Ideal) (Host.dotGeneral dot_S50000x25_S25x3_S50000x3_1_0_0_1_n_n none x W)
    (broadcastInDim S50000x3 ![0, 1] bcast_S1x3_S50000x3_0_1 b2)

/-- The rows of y shifted by their maxima. -/
def shift5 (y : A S50000x3) : A S50000x3 :=
  subf y (broadcastInDim S50000x3 ![0, 1] bcast_S50000x1_S50000x3_0_1
    (broadcastInDim S50000x1 ![0] bcast_S50000_S50000x1_0
      (maximumf (broadcastInDim S50000 ![] bcast_S_S50000 (constant (F := Ideal) S_ .f32 0xFF800000#32))
        (Host.reduce (FloatOps.maximumf (F := Ideal)) y (constant (F := Ideal) S_ .f32 0xFF800000#32) reducesTo_S50000x3_S50000_d1 h_S_))))

/-- The log-softmax along each row of a 3-wide array. -/
def act5 (y : A S50000x3) : A S50000x3 :=
  subf (shift5 y) (broadcastInDim S50000x3 ![0, 1] bcast_S50000x1_S50000x3_0_1
    (Host.log (F := Ideal) (broadcastInDim S50000x1 ![0] bcast_S50000_S50000x1_0
      (Host.reduceAdd (F := Ideal) (Host.exp (F := Ideal) (shift5 y)) (constant (F := Ideal) S_ .f32 0x00000000#32) reducesTo_S50000x3_S50000_d1 h_S_))))

/-- Layer 6 on already aggregated features, the bias as a row. -/
def layer5 (x : A S50000x25) (W : A S25x3) (b2 : A S1x3) : A S50000x3 := act5 (lin5 x W b2)

/-- A bias vector of length 3 as a 1×3 row. -/
def row5 (b : A S3) : A S1x3 := broadcastInDim S1x3 ![1] bcast_S3_S1x3_1 b

/-- The whole network: six rounds of message passing, affine map and activation. -/
def net (x : A S50000x300) (src dst : I S262144)
    (W1 : A S300x200) (b1 : A S200) (W2 : A S200x150) (b2 : A S150) (W3 : A S150x100) (b3 : A S100)
    (W4 : A S100x50) (b4 : A S50) (W5 : A S50x25) (b5 : A S25) (W6 : A S25x3) (b6 : A S3) : A S50000x3 :=
  layer5 (agg25 (layer4 (agg50 (layer3 (agg100 (layer2 (agg150 (layer1 (agg200 (layer0 (agg300 (x) src dst) W1 (row0 b1)) src dst) W2 (row1 b2)) src dst) W3 (row2 b3)) src dst) W4 (row3 b4)) src dst) W5 (row4 b5)) src dst) W6 (row5 b6)

end Cert.Spec

end
-- ==== Proof.KRun.lean ====
/-
  The kernel program's run with its result buffer named.

  The program is six kernel regions among stretches of host operations. Its run threads the contents of every buffer
  through twelve boundaries: a stretch of host operations replaces the contents by the operations' fold, a region
  replaces its arrays by what its write-backs leave. The last boundary's contents are the final memory, so the result
  buffer ends holding the last boundary's value at its reference, and the fifteen argument arrays end as launched.
-/
import proofs.«103496_j8332236554735_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the arguments end unchanged. -/
theorem run_named : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.KRun

end
-- ==== Proof.KValue.lean ====
/-
  The kernel program's result as the network of the specification.

  The program alternates stretches of host operations with kernel regions. Before region k the host gathers the rows
  of the previous layer's output at the edges' sources and sums them into the edges' destinations, and views the
  layer's bias vector as a one-row matrix; region k then leaves, in its output array, layer k of the specification
  applied to those arrays (the six facts this module takes as hypotheses). No host operation and no region writes an
  argument array, so each argument read at any boundary is the launch memory's. Composing the six steps from the
  launch memory gives the whole network at the result buffer.
-/
import proofs.«103496_j8332236554735_1_alg».proof.Proof.Spec
import proofs.«103496_j8332236554735_1_alg».proof.Proof.Gen.KernelIdeal.Frame
import proofs.«103496_j8332236554735_1_alg».proof.Proof.KRun
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

/-- A vector of length `a` viewed as a one-row matrix is the vector broadcast along a new leading axis: both read
    the vector's entry `i` at `(0, i)`. -/
theorem row_cast_eq {α : Type} {a : ℕ} (b : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ b h = broadcastInDim ⟨2, ![1, a]⟩ ![1] h' b := by
  funext j
  obtain ⟨u, i, rfl⟩ : ∃ (u : Fin 1) (i : Fin a), j = ix2 u i := ⟨j 0, j 1, eq_ix2 j⟩
  rw [shapeCast_a_1a_apply]
  refine (broadcastInDim_apply ![1] h' b (ix2 u i) (ix1 i) fun ax => ?_).symm
  match ax with
  | ⟨0, _⟩ =>
    show i.val = if a = 1 then 0 else i.val
    split
    · have := i.isLt; omega
    · rfl

theorem gather300_eq : Cert.KernelIdeal.gather_S50000x300_S262144x1_S262144x300_1_0_n_n_0_1_1300 = Cert.ReferenceIdeal.gather_S50000x300_S262144x1_S262144x300_1_0_n_n_0_1_1300 := rfl
theorem scatter300_eq : Cert.KernelIdeal.scatter_S50000x300_S262144x1_S262144x300_1_0_0_1 = Cert.ReferenceIdeal.scatter_S50000x300_S262144x1_S262144x300_1_0_0_1 := rfl

/-- The kernel program's gather and segment sum at width 300 are the specification's message passing. -/
theorem agg300_eq (x : FVec Ideal S50000x300 .f32) (s d : IVec S262144 32) :
    Host.scatterAdd scatter_S50000x300_S262144x1_S262144x300_1_0_0_1
      (broadcastInDim S50000x300 ![] bcast_S_S50000x300 (constant (F := Ideal) S_ .f32 0x00000000#32))
      (broadcastInDim S262144x1 ![0] bcast_S262144_S262144x1_0 d)
      (Host.gather gather_S50000x300_S262144x1_S262144x300_1_0_n_n_0_1_1300 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg300 x s d := by
  rw [gather300_eq, scatter300_eq]
  rfl

theorem gather200_eq : Cert.KernelIdeal.gather_S50000x200_S262144x1_S262144x200_1_0_n_n_0_1_1200 = Cert.ReferenceIdeal.gather_S50000x200_S262144x1_S262144x200_1_0_n_n_0_1_1200 := rfl
theorem scatter200_eq : Cert.KernelIdeal.scatter_S50000x200_S262144x1_S262144x200_1_0_0_1 = Cert.ReferenceIdeal.scatter_S50000x200_S262144x1_S262144x200_1_0_0_1 := rfl

/-- The kernel program's gather and segment sum at width 200 are the specification's message passing. -/
theorem agg200_eq (x : FVec Ideal S50000x200 .f32) (s d : IVec S262144 32) :
    Host.scatterAdd scatter_S50000x200_S262144x1_S262144x200_1_0_0_1
      (broadcastInDim S50000x200 ![] bcast_S_S50000x200 (constant (F := Ideal) S_ .f32 0x00000000#32))
      (broadcastInDim S262144x1 ![0] bcast_S262144_S262144x1_0 d)
      (Host.gather gather_S50000x200_S262144x1_S262144x200_1_0_n_n_0_1_1200 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg200 x s d := by
  rw [gather200_eq, scatter200_eq]
  rfl

theorem gather150_eq : Cert.KernelIdeal.gather_S50000x150_S262144x1_S262144x150_1_0_n_n_0_1_1150 = Cert.ReferenceIdeal.gather_S50000x150_S262144x1_S262144x150_1_0_n_n_0_1_1150 := rfl
theorem scatter150_eq : Cert.KernelIdeal.scatter_S50000x150_S262144x1_S262144x150_1_0_0_1 = Cert.ReferenceIdeal.scatter_S50000x150_S262144x1_S262144x150_1_0_0_1 := rfl

/-- The kernel program's gather and segment sum at width 150 are the specification's message passing. -/
theorem agg150_eq (x : FVec Ideal S50000x150 .f32) (s d : IVec S262144 32) :
    Host.scatterAdd scatter_S50000x150_S262144x1_S262144x150_1_0_0_1
      (broadcastInDim S50000x150 ![] bcast_S_S50000x150 (constant (F := Ideal) S_ .f32 0x00000000#32))
      (broadcastInDim S262144x1 ![0] bcast_S262144_S262144x1_0 d)
      (Host.gather gather_S50000x150_S262144x1_S262144x150_1_0_n_n_0_1_1150 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg150 x s d := by
  rw [gather150_eq, scatter150_eq]
  rfl

theorem gather100_eq : Cert.KernelIdeal.gather_S50000x100_S262144x1_S262144x100_1_0_n_n_0_1_1100 = Cert.ReferenceIdeal.gather_S50000x100_S262144x1_S262144x100_1_0_n_n_0_1_1100 := rfl
theorem scatter100_eq : Cert.KernelIdeal.scatter_S50000x100_S262144x1_S262144x100_1_0_0_1 = Cert.ReferenceIdeal.scatter_S50000x100_S262144x1_S262144x100_1_0_0_1 := rfl

/-- The kernel program's gather and segment sum at width 100 are the specification's message passing. -/
theorem agg100_eq (x : FVec Ideal S50000x100 .f32) (s d : IVec S262144 32) :
    Host.scatterAdd scatter_S50000x100_S262144x1_S262144x100_1_0_0_1
      (broadcastInDim S50000x100 ![] bcast_S_S50000x100 (constant (F := Ideal) S_ .f32 0x00000000#32))
      (broadcastInDim S262144x1 ![0] bcast_S262144_S262144x1_0 d)
      (Host.gather gather_S50000x100_S262144x1_S262144x100_1_0_n_n_0_1_1100 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg100 x s d := by
  rw [gather100_eq, scatter100_eq]
  rfl

theorem gather50_eq : Cert.KernelIdeal.gather_S50000x50_S262144x1_S262144x50_1_0_n_n_0_1_150 = Cert.ReferenceIdeal.gather_S50000x50_S262144x1_S262144x50_1_0_n_n_0_1_150 := rfl
theorem scatter50_eq : Cert.KernelIdeal.scatter_S50000x50_S262144x1_S262144x50_1_0_0_1 = Cert.ReferenceIdeal.scatter_S50000x50_S262144x1_S262144x50_1_0_0_1 := rfl

/-- The kernel program's gather and segment sum at width 50 are the specification's message passing. -/
theorem agg50_eq (x : FVec Ideal S50000x50 .f32) (s d : IVec S262144 32) :
    Host.scatterAdd scatter_S50000x50_S262144x1_S262144x50_1_0_0_1
      (broadcastInDim S50000x50 ![] bcast_S_S50000x50 (constant (F := Ideal) S_ .f32 0x00000000#32))
      (broadcastInDim S262144x1 ![0] bcast_S262144_S262144x1_0 d)
      (Host.gather gather_S50000x50_S262144x1_S262144x50_1_0_n_n_0_1_150 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg50 x s d := by
  rw [gather50_eq, scatter50_eq]
  rfl

theorem gather25_eq : Cert.KernelIdeal.gather_S50000x25_S262144x1_S262144x25_1_0_n_n_0_1_125 = Cert.ReferenceIdeal.gather_S50000x25_S262144x1_S262144x25_1_0_n_n_0_1_125 := rfl
theorem scatter25_eq : Cert.KernelIdeal.scatter_S50000x25_S262144x1_S262144x25_1_0_0_1 = Cert.ReferenceIdeal.scatter_S50000x25_S262144x1_S262144x25_1_0_0_1 := rfl

/-- The kernel program's gather and segment sum at width 25 are the specification's message passing. -/
theorem agg25_eq (x : FVec Ideal S50000x25 .f32) (s d : IVec S262144 32) :
    Host.scatterAdd scatter_S50000x25_S262144x1_S262144x25_1_0_0_1
      (broadcastInDim S50000x25 ![] bcast_S_S50000x25 (constant (F := Ideal) S_ .f32 0x00000000#32))
      (broadcastInDim S262144x1 ![0] bcast_S262144_S262144x1_0 d)
      (Host.gather gather_S50000x25_S262144x1_S262144x25_1_0_n_n_0_1_125 x
        (broadcastInDim S262144x1 ![0] bcast_S262144_S262144x1_0
          (select (cmpi .slt s (broadcastInDim S262144 ![] bcast_S_S262144 (constantI S_ 32 0#32)))
            (addi s (broadcastInDim S262144 ![] bcast_S_S262144 (constantI S_ 32 50000#32))) s)))
      = Cert.Spec.agg25 x s d := by
  rw [gather25_eq, scatter25_eq]
  rfl

variable (m : (ℓ : Loc nD τ sig) → Buf (Elt Ideal) ℓ) (ρ : Dev nD → PrngReg) (c : Dev nD)

/-! ## The argument arrays at every boundary before a stretch of host operations -/

theorem keep0_1 : W0 m ρ c (Proc.devRef .tc main_arg1) = m ((c : Thread nD τ).loc main_arg1) := rfl
theorem keep1_1 : W2 m ρ c (Proc.devRef .tc main_arg1) = m ((c : Thread nD τ).loc main_arg1) :=
  (W2_of_ne m ρ c main_arg1 (by decide)).trans (Eq.trans (by
    show StableHlo.after hostOps0 (W0 m ρ c) (Proc.devRef .tc main_arg1) = W0 m ρ c (Proc.devRef .tc main_arg1)
    after_results) (keep0_1 m ρ c))
theorem keep2_1 : W4 m ρ c (Proc.devRef .tc main_arg1) = m ((c : Thread nD τ).loc main_arg1) :=
  (W4_of_ne m ρ c main_arg1 (by decide)).trans (Eq.trans (by
    show StableHlo.after hostOps1 (W2 m ρ c) (Proc.devRef .tc main_arg1) = W2 m ρ c (Proc.devRef .tc main_arg1)
    after_results) (keep1_1 m ρ c))
theorem keep3_1 : W6 m ρ c (Proc.devRef .tc main_arg1) = m ((c : Thread nD τ).loc main_arg1) :=
  (W6_of_ne m ρ c main_arg1 (by decide)).trans (Eq.trans (by
    show StableHlo.after hostOps2 (W4 m ρ c) (Proc.devRef .tc main_arg1) = W4 m ρ c (Proc.devRef .tc main_arg1)
    after_results) (keep2_1 m ρ c))
theorem keep4_1 : W8 m ρ c (Proc.devRef .tc main_arg1) = m ((c : Thread nD τ).loc main_arg1) :=
  (W8_of_ne m ρ c main_arg1 (by decide)).trans (Eq.trans (by
    show StableHlo.after hostOps3 (W6 m ρ c) (Proc.devRef .tc main_arg1) = W6 m ρ c (Proc.devRef .tc main_arg1)
    after_results) (keep3_1 m ρ c))
theorem keep5_1 : W10 m ρ c (Proc.devRef .tc main_arg1) = m ((c : Thread nD τ).loc main_arg1) :=
  (W10_of_ne m ρ c main_arg1 (by decide)).trans (Eq.trans (by
    show StableHlo.after hostOps4 (W8 m ρ c) (Proc.devRef .tc main_arg1) = W8 m ρ c (Proc.devRef .tc main_arg1)
    after_results) (keep4_1 m ρ c))

theorem keep0_2 : W0 m ρ c (Proc.devRef .tc main_arg2) = m ((c : Thread nD τ).loc main_arg2) := rfl
theorem keep1_2 : W2 m ρ c (Proc.devRef .tc main_arg2) = m ((c : Thread nD τ).loc main_arg2) :=
  (W2_of_ne m ρ c main_arg2 (by decide)).trans (Eq.trans (by
    show StableHlo.after hostOps0 (W0 m ρ c) (Proc.devRef .tc main_arg2) = W0 m ρ c (Proc.devRef .tc main_arg2)
    after_results) (keep0_2 m ρ c))
theorem keep2_2 : W4 m ρ c (Proc.devRef .tc main_arg2) = m ((c : Thread nD τ).loc main_arg2) :=
  (W4_of_ne m ρ c main_arg2 (by decide)).trans (Eq.trans (by
    show StableHlo.after hostOps1 (W2 m ρ c) (Proc.devRef .tc main_arg2) = W2 m ρ c (Proc.devRef .tc main_arg2)
    after_results) (keep1_2 m ρ c))
theorem keep3_2 : W6 m ρ c (Proc.devRef .tc main_arg2) = m ((c : Thread nD τ).loc main_arg2) :=
  (W6_of_ne m ρ c main_arg2 (by decide)).trans (Eq.trans (by
    show StableHlo.after hostOps2 (W4 m ρ c) (Proc.devRef .tc main_arg2) = W4 m ρ c (Proc.devRef .tc main_arg2)
    after_results) (keep2_2 m ρ c))
theorem keep4_2 : W8 m ρ c (Proc.devRef .tc main_arg2) = m ((c : Thread nD τ).loc main_arg2) :=
  (W8_of_ne m ρ c main_arg2 (by decide)).trans (Eq.trans (by
    show StableHlo.after hostOps3 (W6 m ρ c) (Proc.devRef .tc main_arg2) = W6 m ρ c (Proc.devRef .tc main_arg2)
    after_results) (keep3_2 m ρ c))
theorem keep5_2 : W10 m ρ c (Proc.devRef .tc main_arg2) = m ((c : Thread nD τ).loc main_arg2) :=
  (W10_of_ne m ρ c main_arg2 (by decide)).trans (Eq.trans (by
    show StableHlo.after hostOps4 (W8 m ρ c) (Proc.devRef .tc main_arg2) = W8 m ρ c (Proc.devRef .tc main_arg2)
    after_results) (keep4_2 m ρ c))

theorem keep0_3 : W0 m ρ c (Proc.devRef .tc main_arg3) = m ((c : Thread nD τ).loc main_arg3) := rfl

theorem keep0_4 : W0 m ρ c (Proc.devRef .tc main_arg4) = m ((c : Thread nD τ).loc main_arg4) := rfl

theorem keep0_5 : W0 m ρ c (Proc.devRef .tc main_arg5) = m ((c : Thread nD τ).loc main_arg5) := rfl
theorem keep1_5 : W2 m ρ c (Proc.devRef .tc main_arg5) = m ((c : Thread nD τ).loc main_arg5) :=
  (W2_of_ne m ρ c main_arg5 (by decide)).trans (Eq.trans (by
    show StableHlo.after hostOps0 (W0 m ρ c) (Proc.devRef .tc main_arg5) = W0 m ρ c (Proc.devRef .tc main_arg5)
    after_results) (keep0_5 m ρ c))

theorem keep0_6 : W0 m ρ c (Proc.devRef .tc main_arg6) = m ((c : Thread nD τ).loc main_arg6) := rfl
theorem keep1_6 : W2 m ρ c (Proc.devRef .tc main_arg6) = m ((c : Thread nD τ).loc main_arg6) :=
  (W2_of_ne m ρ c main_arg6 (by decide)).trans (Eq.trans (by
    show StableHlo.after hostOps0 (W0 m ρ c) (Proc.devRef .tc main_arg6) = W0 m ρ c (Proc.devRef .tc main_arg6)
    after_results) (keep0_6 m ρ c))

theorem keep0_7 : W0 m ρ c (Proc.devRef .tc main_arg7) = m ((c : Thread nD τ).loc main_arg7) := rfl
theorem keep1_7 : W2 m ρ c (Proc.devRef .tc main_arg7) = m ((c : Thread nD τ).loc main_arg7) :=
  (W2_of_ne m ρ c main_arg7 (by decide)).trans (Eq.trans (by
    show StableHlo.after hostOps0 (W0 m ρ c) (Proc.devRef .tc main_arg7) = W0 m ρ c (Proc.devRef .tc main_arg7)
    after_results) (keep0_7 m ρ c))
theorem keep2_7 : W4 m ρ c (Proc.devRef .tc main_arg7) = m ((c : Thread nD τ).loc main_arg7) :=
  (W4_of_ne m ρ c main_arg7 (by decide)).trans (Eq.trans (by
    show StableHlo.after hostOps1 (W2 m ρ c) (Proc.devRef .tc main_arg7) = W2 m ρ c (Proc.devRef .tc main_arg7)
    after_results) (keep1_7 m ρ c))

theorem keep0_8 : W0 m ρ c (Proc.devRef .tc main_arg8) = m ((c : Thread nD τ).loc main_arg8) := rfl
theorem keep1_8 : W2 m ρ c (Proc.devRef .tc main_arg8) = m ((c : Thread nD τ).loc main_arg8) :=
  (W2_of_ne m ρ c main_arg8 (by decide)).trans (Eq.trans (by
    show StableHlo.after hostOps0 (W0 m ρ c) (Proc.devRef .tc main_arg8) = W0 m ρ c (Proc.devRef .tc main_arg8)
    after_results) (keep0_8 m ρ c))
theorem keep2_8 : W4 m ρ c (Proc.devRef .tc main_arg8) = m ((c : Thread nD τ).loc main_arg8) :=
  (W4_of_ne m ρ c main_arg8 (by decide)).trans (Eq.trans (by
    show StableHlo.after hostOps1 (W2 m ρ c) (Proc.devRef .tc main_arg8) = W2 m ρ c (Proc.devRef .tc main_arg8)
    after_results) (keep1_8 m ρ c))

theorem keep0_9 : W0 m ρ c (Proc.devRef .tc main_arg9) = m ((c : Thread nD τ).loc main_arg9) := rfl
theorem keep1_9 : W2 m ρ c (Proc.devRef .tc main_arg9) = m ((c : Thread nD τ).loc main_arg9) :=
  (W2_of_ne m ρ c main_arg9 (by decide)).trans (Eq.trans (by
    show StableHlo.after hostOps0 (W0 m ρ c) (Proc.devRef .tc main_arg9) = W0 m ρ c (Proc.devRef .tc main_arg9)
    after_results) (keep0_9 m ρ c))
theorem keep2_9 : W4 m ρ c (Proc.devRef .tc main_arg9) = m ((c : Thread nD τ).loc main_arg9) :=
  (W4_of_ne m ρ c main_arg9 (by decide)).trans (Eq.trans (by
    show StableHlo.after hostOps1 (W2 m ρ c) (Proc.devRef .tc main_arg9) = W2 m ρ c (Proc.devRef .tc main_arg9)
    after_results) (keep1_9 m ρ c))
theorem keep3_9 : W6 m ρ c (Proc.devRef .tc main_arg9) = m ((c : Thread nD τ).loc main_arg9) :=
  (W6_of_ne m ρ c main_arg9 (by decide)).trans (Eq.trans (by
    show StableHlo.after hostOps2 (W4 m ρ c) (Proc.devRef .tc main_arg9) = W4 m ρ c (Proc.devRef .tc main_arg9)
    after_results) (keep2_9 m ρ c))

theorem keep0_10 : W0 m ρ c (Proc.devRef .tc main_arg10) = m ((c : Thread nD τ).loc main_arg10) := rfl
theorem keep1_10 : W2 m ρ c (Proc.devRef .tc main_arg10) = m ((c : Thread nD τ).loc main_arg10) :=
  (W2_of_ne m ρ c main_arg10 (by decide)).trans (Eq.trans (by
    show StableHlo.after hostOps0 (W0 m ρ c) (Proc.devRef .tc main_arg10) = W0 m ρ c (Proc.devRef .tc main_arg10)
    after_results) (keep0_10 m ρ c))
theorem keep2_10 : W4 m ρ c (Proc.devRef .tc main_arg10) = m ((c : Thread nD τ).loc main_arg10) :=
  (W4_of_ne m ρ c main_arg10 (by decide)).trans (Eq.trans (by
    show StableHlo.after hostOps1 (W2 m ρ c) (Proc.devRef .tc main_arg10) = W2 m ρ c (Proc.devRef .tc main_arg10)
    after_results) (keep1_10 m ρ c))
theorem keep3_10 : W6 m ρ c (Proc.devRef .tc main_arg10) = m ((c : Thread nD τ).loc main_arg10) :=
  (W6_of_ne m ρ c main_arg10 (by decide)).trans (Eq.trans (by
    show StableHlo.after hostOps2 (W4 m ρ c) (Proc.devRef .tc main_arg10) = W4 m ρ c (Proc.devRef .tc main_arg10)
    after_results) (keep2_10 m ρ c))

theorem keep0_11 : W0 m ρ c (Proc.devRef .tc main_arg11) = m ((c : Thread nD τ).loc main_arg11) := rfl
theorem keep1_11 : W2 m ρ c (Proc.devRef .tc main_arg11) = m ((c : Thread nD τ).loc main_arg11) :=
  (W2_of_ne m ρ c main_arg11 (by decide)).trans (Eq.trans (by
    show StableHlo.after hostOps0 (W0 m ρ c) (Proc.devRef .tc main_arg11) = W0 m ρ c (Proc.devRef .tc main_arg11)
    after_results) (keep0_11 m ρ c))
theorem keep2_11 : W4 m ρ c (Proc.devRef .tc main_arg11) = m ((c : Thread nD τ).loc main_arg11) :=
  (W4_of_ne m ρ c main_arg11 (by decide)).trans (Eq.trans (by
    show StableHlo.after hostOps1 (W2 m ρ c) (Proc.devRef .tc main_arg11) = W2 m ρ c (Proc.devRef .tc main_arg11)
    after_results) (keep1_11 m ρ c))
theorem keep3_11 : W6 m ρ c (Proc.devRef .tc main_arg11) = m ((c : Thread nD τ).loc main_arg11) :=
  (W6_of_ne m ρ c main_arg11 (by decide)).trans (Eq.trans (by
    show StableHlo.after hostOps2 (W4 m ρ c) (Proc.devRef .tc main_arg11) = W4 m ρ c (Proc.devRef .tc main_arg11)
    after_results) (keep2_11 m ρ c))
theorem keep4_11 : W8 m ρ c (Proc.devRef .tc main_arg11) = m ((c : Thread nD τ).loc main_arg11) :=
  (W8_of_ne m ρ c main_arg11 (by decide)).trans (Eq.trans (by
    show StableHlo.after hostOps3 (W6 m ρ c) (Proc.devRef .tc main_arg11) = W6 m ρ c (Proc.devRef .tc main_arg11)
    after_results) (keep3_11 m ρ c))

theorem keep0_12 : W0 m ρ c (Proc.devRef .tc main_arg12) = m ((c : Thread nD τ).loc main_arg12) := rfl
theorem keep1_12 : W2 m ρ c (Proc.devRef .tc main_arg12) = m ((c : Thread nD τ).loc main_arg12) :=
  (W2_of_ne m ρ c main_arg12 (by decide)).trans (Eq.trans (by
    show StableHlo.after hostOps0 (W0 m ρ c) (Proc.devRef .tc main_arg12) = W0 m ρ c (Proc.devRef .tc main_arg12)
    after_results) (keep0_12 m ρ c))
theorem keep2_12 : W4 m ρ c (Proc.devRef .tc main_arg12) = m ((c : Thread nD τ).loc main_arg12) :=
  (W4_of_ne m ρ c main_arg12 (by decide)).trans (Eq.trans (by
    show StableHlo.after hostOps1 (W2 m ρ c) (Proc.devRef .tc main_arg12) = W2 m ρ c (Proc.devRef .tc main_arg12)
    after_results) (keep1_12 m ρ c))
theorem keep3_12 : W6 m ρ c (Proc.devRef .tc main_arg12) = m ((c : Thread nD τ).loc main_arg12) :=
  (W6_of_ne m ρ c main_arg12 (by decide)).trans (Eq.trans (by
    show StableHlo.after hostOps2 (W4 m ρ c) (Proc.devRef .tc main_arg12) = W4 m ρ c (Proc.devRef .tc main_arg12)
    after_results) (keep2_12 m ρ c))
theorem keep4_12 : W8 m ρ c (Proc.devRef .tc main_arg12) = m ((c : Thread nD τ).loc main_arg12) :=
  (W8_of_ne m ρ c main_arg12 (by decide)).trans (Eq.trans (by
    show StableHlo.after hostOps3 (W6 m ρ c) (Proc.devRef .tc main_arg12) = W6 m ρ c (Proc.devRef .tc main_arg12)
    after_results) (keep3_12 m ρ c))

theorem keep0_13 : W0 m ρ c (Proc.devRef .tc main_arg13) = m ((c : Thread nD τ).loc main_arg13) := rfl
theorem keep1_13 : W2 m ρ c (Proc.devRef .tc main_arg13) = m ((c : Thread nD τ).loc main_arg13) :=
  (W2_of_ne m ρ c main_arg13 (by decide)).trans (Eq.trans (by
    show StableHlo.after hostOps0 (W0 m ρ c) (Proc.devRef .tc main_arg13) = W0 m ρ c (Proc.devRef .tc main_arg13)
    after_results) (keep0_13 m ρ c))
theorem keep2_13 : W4 m ρ c (Proc.devRef .tc main_arg13) = m ((c : Thread nD τ).loc main_arg13) :=
  (W4_of_ne m ρ c main_arg13 (by decide)).trans (Eq.trans (by
    show StableHlo.after hostOps1 (W2 m ρ c) (Proc.devRef .tc main_arg13) = W2 m ρ c (Proc.devRef .tc main_arg13)
    after_results) (keep1_13 m ρ c))
theorem keep3_13 : W6 m ρ c (Proc.devRef .tc main_arg13) = m ((c : Thread nD τ).loc main_arg13) :=
  (W6_of_ne m ρ c main_arg13 (by decide)).trans (Eq.trans (by
    show StableHlo.after hostOps2 (W4 m ρ c) (Proc.devRef .tc main_arg13) = W4 m ρ c (Proc.devRef .tc main_arg13)
    after_results) (keep2_13 m ρ c))
theorem keep4_13 : W8 m ρ c (Proc.devRef .tc main_arg13) = m ((c : Thread nD τ).loc main_arg13) :=
  (W8_of_ne m ρ c main_arg13 (by decide)).trans (Eq.trans (by
    show StableHlo.after hostOps3 (W6 m ρ c) (Proc.devRef .tc main_arg13) = W6 m ρ c (Proc.devRef .tc main_arg13)
    after_results) (keep3_13 m ρ c))
theorem keep5_13 : W10 m ρ c (Proc.devRef .tc main_arg13) = m ((c : Thread nD τ).loc main_arg13) :=
  (W10_of_ne m ρ c main_arg13 (by decide)).trans (Eq.trans (by
    show StableHlo.after hostOps4 (W8 m ρ c) (Proc.devRef .tc main_arg13) = W8 m ρ c (Proc.devRef .tc main_arg13)
    after_results) (keep4_13 m ρ c))

theorem keep0_14 : W0 m ρ c (Proc.devRef .tc main_arg14) = m ((c : Thread nD τ).loc main_arg14) := rfl
theorem keep1_14 : W2 m ρ c (Proc.devRef .tc main_arg14) = m ((c : Thread nD τ).loc main_arg14) :=
  (W2_of_ne m ρ c main_arg14 (by decide)).trans (Eq.trans (by
    show StableHlo.after hostOps0 (W0 m ρ c) (Proc.devRef .tc main_arg14) = W0 m ρ c (Proc.devRef .tc main_arg14)
    after_results) (keep0_14 m ρ c))
theorem keep2_14 : W4 m ρ c (Proc.devRef .tc main_arg14) = m ((c : Thread nD τ).loc main_arg14) :=
  (W4_of_ne m ρ c main_arg14 (by decide)).trans (Eq.trans (by
    show StableHlo.after hostOps1 (W2 m ρ c) (Proc.devRef .tc main_arg14) = W2 m ρ c (Proc.devRef .tc main_arg14)
    after_results) (keep1_14 m ρ c))
theorem keep3_14 : W6 m ρ c (Proc.devRef .tc main_arg14) = m ((c : Thread nD τ).loc main_arg14) :=
  (W6_of_ne m ρ c main_arg14 (by decide)).trans (Eq.trans (by
    show StableHlo.after hostOps2 (W4 m ρ c) (Proc.devRef .tc main_arg14) = W4 m ρ c (Proc.devRef .tc main_arg14)
    after_results) (keep2_14 m ρ c))
theorem keep4_14 : W8 m ρ c (Proc.devRef .tc main_arg14) = m ((c : Thread nD τ).loc main_arg14) :=
  (W8_of_ne m ρ c main_arg14 (by decide)).trans (Eq.trans (by
    show StableHlo.after hostOps3 (W6 m ρ c) (Proc.devRef .tc main_arg14) = W6 m ρ c (Proc.devRef .tc main_arg14)
    after_results) (keep3_14 m ρ c))
theorem keep5_14 : W10 m ρ c (Proc.devRef .tc main_arg14) = m ((c : Thread nD τ).loc main_arg14) :=
  (W10_of_ne m ρ c main_arg14 (by decide)).trans (Eq.trans (by
    show StableHlo.after hostOps4 (W8 m ρ c) (Proc.devRef .tc main_arg14) = W8 m ρ c (Proc.devRef .tc main_arg14)
    after_results) (keep4_14 m ρ c))

/-! ## One layer at a time -/

set_option maxHeartbeats 4000000 in
/-- Region 0's first input: the previous layer's output, gathered at the sources and summed into the destinations. -/
theorem x0 (P : FVec Ideal S50000x300 .f32) (prev : W0 m ρ c (Proc.devRef .tc main_arg0) = P) :
    V1 m ρ c main_v9 = Cert.Spec.agg300 P (m ((c : Thread nD τ).loc main_arg1)) (m ((c : Thread nD τ).loc main_arg2)) := by
  show StableHlo.after hostOps0 (W0 m ρ c) (Proc.devRef .tc main_v9) = _
  after_results
  refine (agg300_eq _ _ _).trans ?_
  exact congr (congr (congrArg Cert.Spec.agg300 prev) (keep0_1 m ρ c)) (keep0_2 m ρ c)

set_option maxHeartbeats 4000000 in
/-- Region 0's weight is the launch memory's. -/
theorem w0 : V1 m ρ c main_arg3 = m ((c : Thread nD τ).loc main_arg3) := by
  show StableHlo.after hostOps0 (W0 m ρ c) (Proc.devRef .tc main_arg3) = _
  after_results
  all_goals exact keep0_3 m ρ c

set_option maxHeartbeats 4000000 in
/-- Region 0's bias row is the launch memory's bias vector as a row. -/
theorem b0 : V1 m ρ c main_v10 = Cert.Spec.row0 (m ((c : Thread nD τ).loc main_arg4)) := by
  show StableHlo.after hostOps0 (W0 m ρ c) (Proc.devRef .tc main_v10) = _
  after_results
  refine (row_cast_eq (W0 m ρ c (Proc.devRef .tc main_arg4)) shapeCasts_S200_S1x200 Cert.ReferenceIdeal.Facts₀.bcast_S200_S1x200_1).trans ?_
  exact congrArg Cert.Spec.row0 (keep0_4 m ρ c)

set_option maxHeartbeats 4000000 in
/-- After region 0 its output array holds layer 1 of the specification. -/
theorem out0 (P : FVec Ideal S50000x300 .f32)
    (h0 : ∀ (V : (c : Dev nD) → (b : Ref sig .tc) → Buf (Elt Ideal) ((c : Thread nD τ).loc b)) (c : Dev nD),
      (dat0 (F := Ideal) V c).arrAt 3 cfg0.N = Cert.Spec.layer0 (V c main_v9) (V c main_arg3) (V c main_v10))
    (prev : W0 m ρ c (Proc.devRef .tc main_arg0) = P) :
    W2 m ρ c (Proc.devRef .tc main_v11) = Cert.Spec.layer0 (Cert.Spec.agg300 P (m ((c : Thread nD τ).loc main_arg1)) (m ((c : Thread nD τ).loc main_arg2)))
      (m ((c : Thread nD τ).loc main_arg3)) (Cert.Spec.row0 (m ((c : Thread nD τ).loc main_arg4))) :=
  calc W2 m ρ c (Proc.devRef .tc main_v11)
      = (dat0 (V1 m ρ) c).arrAt 3 cfg0.N := W2_arr m ρ c 3
    _ = Cert.Spec.layer0 (V1 m ρ c main_v9) (V1 m ρ c main_arg3) (V1 m ρ c main_v10) := h0 (V1 m ρ) c
    _ = _ := congr (congr (congrArg Cert.Spec.layer0 (x0 m ρ c P prev)) (w0 m ρ c)) (b0 m ρ c)

set_option maxHeartbeats 4000000 in
/-- Region 1's first input: the previous layer's output, gathered at the sources and summed into the destinations. -/
theorem x1 (P : FVec Ideal S50000x200 .f32) (prev : W2 m ρ c (Proc.devRef .tc main_v11) = P) :
    V3 m ρ c main_v21 = Cert.Spec.agg200 P (m ((c : Thread nD τ).loc main_arg1)) (m ((c : Thread nD τ).loc main_arg2)) := by
  show StableHlo.after hostOps1 (W2 m ρ c) (Proc.devRef .tc main_v21) = _
  after_results
  refine (agg200_eq _ _ _).trans ?_
  exact congr (congr (congrArg Cert.Spec.agg200 prev) (keep1_1 m ρ c)) (keep1_2 m ρ c)

set_option maxHeartbeats 4000000 in
/-- Region 1's weight is the launch memory's. -/
theorem w1 : V3 m ρ c main_arg5 = m ((c : Thread nD τ).loc main_arg5) := by
  show StableHlo.after hostOps1 (W2 m ρ c) (Proc.devRef .tc main_arg5) = _
  after_results
  all_goals exact keep1_5 m ρ c

set_option maxHeartbeats 4000000 in
/-- Region 1's bias row is the launch memory's bias vector as a row. -/
theorem b1 : V3 m ρ c main_v22 = Cert.Spec.row1 (m ((c : Thread nD τ).loc main_arg6)) := by
  show StableHlo.after hostOps1 (W2 m ρ c) (Proc.devRef .tc main_v22) = _
  after_results
  refine (row_cast_eq (W2 m ρ c (Proc.devRef .tc main_arg6)) shapeCasts_S150_S1x150 Cert.ReferenceIdeal.Facts₀.bcast_S150_S1x150_1).trans ?_
  exact congrArg Cert.Spec.row1 (keep1_6 m ρ c)

set_option maxHeartbeats 4000000 in
/-- After region 1 its output array holds layer 2 of the specification. -/
theorem out1 (P : FVec Ideal S50000x200 .f32)
    (h1 : ∀ (V : (c : Dev nD) → (b : Ref sig .tc) → Buf (Elt Ideal) ((c : Thread nD τ).loc b)) (c : Dev nD),
      (dat1 (F := Ideal) V c).arrAt 3 cfg1.N = Cert.Spec.layer1 (V c main_v21) (V c main_arg5) (V c main_v22))
    (prev : W2 m ρ c (Proc.devRef .tc main_v11) = P) :
    W4 m ρ c (Proc.devRef .tc main_v23) = Cert.Spec.layer1 (Cert.Spec.agg200 P (m ((c : Thread nD τ).loc main_arg1)) (m ((c : Thread nD τ).loc main_arg2)))
      (m ((c : Thread nD τ).loc main_arg5)) (Cert.Spec.row1 (m ((c : Thread nD τ).loc main_arg6))) :=
  calc W4 m ρ c (Proc.devRef .tc main_v23)
      = (dat1 (V3 m ρ) c).arrAt 3 cfg1.N := W4_arr m ρ c 3
    _ = Cert.Spec.layer1 (V3 m ρ c main_v21) (V3 m ρ c main_arg5) (V3 m ρ c main_v22) := h1 (V3 m ρ) c
    _ = _ := congr (congr (congrArg Cert.Spec.layer1 (x1 m ρ c P prev)) (w1 m ρ c)) (b1 m ρ c)

set_option maxHeartbeats 4000000 in
/-- Region 2's first input: the previous layer's output, gathered at the sources and summed into the destinations. -/
theorem x2 (P : FVec Ideal S50000x150 .f32) (prev : W4 m ρ c (Proc.devRef .tc main_v23) = P) :
    V5 m ρ c main_v33 = Cert.Spec.agg150 P (m ((c : Thread nD τ).loc main_arg1)) (m ((c : Thread nD τ).loc main_arg2)) := by
  show StableHlo.after hostOps2 (W4 m ρ c) (Proc.devRef .tc main_v33) = _
  after_results
  refine (agg150_eq _ _ _).trans ?_
  exact congr (congr (congrArg Cert.Spec.agg150 prev) (keep2_1 m ρ c)) (keep2_2 m ρ c)

set_option maxHeartbeats 4000000 in
/-- Region 2's weight is the launch memory's. -/
theorem w2 : V5 m ρ c main_arg7 = m ((c : Thread nD τ).loc main_arg7) := by
  show StableHlo.after hostOps2 (W4 m ρ c) (Proc.devRef .tc main_arg7) = _
  after_results
  all_goals exact keep2_7 m ρ c

set_option maxHeartbeats 4000000 in
/-- Region 2's bias row is the launch memory's bias vector as a row. -/
theorem b2 : V5 m ρ c main_v34 = Cert.Spec.row2 (m ((c : Thread nD τ).loc main_arg8)) := by
  show StableHlo.after hostOps2 (W4 m ρ c) (Proc.devRef .tc main_v34) = _
  after_results
  refine (row_cast_eq (W4 m ρ c (Proc.devRef .tc main_arg8)) shapeCasts_S100_S1x100 Cert.ReferenceIdeal.Facts₀.bcast_S100_S1x100_1).trans ?_
  exact congrArg Cert.Spec.row2 (keep2_8 m ρ c)

set_option maxHeartbeats 4000000 in
/-- After region 2 its output array holds layer 3 of the specification. -/
theorem out2 (P : FVec Ideal S50000x150 .f32)
    (h2 : ∀ (V : (c : Dev nD) → (b : Ref sig .tc) → Buf (Elt Ideal) ((c : Thread nD τ).loc b)) (c : Dev nD),
      (dat2 (F := Ideal) V c).arrAt 3 cfg2.N = Cert.Spec.layer2 (V c main_v33) (V c main_arg7) (V c main_v34))
    (prev : W4 m ρ c (Proc.devRef .tc main_v23) = P) :
    W6 m ρ c (Proc.devRef .tc main_v35) = Cert.Spec.layer2 (Cert.Spec.agg150 P (m ((c : Thread nD τ).loc main_arg1)) (m ((c : Thread nD τ).loc main_arg2)))
      (m ((c : Thread nD τ).loc main_arg7)) (Cert.Spec.row2 (m ((c : Thread nD τ).loc main_arg8))) :=
  calc W6 m ρ c (Proc.devRef .tc main_v35)
      = (dat2 (V5 m ρ) c).arrAt 3 cfg2.N := W6_arr m ρ c 3
    _ = Cert.Spec.layer2 (V5 m ρ c main_v33) (V5 m ρ c main_arg7) (V5 m ρ c main_v34) := h2 (V5 m ρ) c
    _ = _ := congr (congr (congrArg Cert.Spec.layer2 (x2 m ρ c P prev)) (w2 m ρ c)) (b2 m ρ c)

set_option maxHeartbeats 4000000 in
/-- Region 3's first input: the previous layer's output, gathered at the sources and summed into the destinations. -/
theorem x3 (P : FVec Ideal S50000x100 .f32) (prev : W6 m ρ c (Proc.devRef .tc main_v35) = P) :
    V7 m ρ c main_v45 = Cert.Spec.agg100 P (m ((c : Thread nD τ).loc main_arg1)) (m ((c : Thread nD τ).loc main_arg2)) := by
  show StableHlo.after hostOps3 (W6 m ρ c) (Proc.devRef .tc main_v45) = _
  after_results
  refine (agg100_eq _ _ _).trans ?_
  exact congr (congr (congrArg Cert.Spec.agg100 prev) (keep3_1 m ρ c)) (keep3_2 m ρ c)

set_option maxHeartbeats 4000000 in
/-- Region 3's weight is the launch memory's. -/
theorem w3 : V7 m ρ c main_arg9 = m ((c : Thread nD τ).loc main_arg9) := by
  show StableHlo.after hostOps3 (W6 m ρ c) (Proc.devRef .tc main_arg9) = _
  after_results
  all_goals exact keep3_9 m ρ c

set_option maxHeartbeats 4000000 in
/-- Region 3's bias row is the launch memory's bias vector as a row. -/
theorem b3 : V7 m ρ c main_v46 = Cert.Spec.row3 (m ((c : Thread nD τ).loc main_arg10)) := by
  show StableHlo.after hostOps3 (W6 m ρ c) (Proc.devRef .tc main_v46) = _
  after_results
  refine (row_cast_eq (W6 m ρ c (Proc.devRef .tc main_arg10)) shapeCasts_S50_S1x50 Cert.ReferenceIdeal.Facts₀.bcast_S50_S1x50_1).trans ?_
  exact congrArg Cert.Spec.row3 (keep3_10 m ρ c)

set_option maxHeartbeats 4000000 in
/-- After region 3 its output array holds layer 4 of the specification. -/
theorem out3 (P : FVec Ideal S50000x100 .f32)
    (h3 : ∀ (V : (c : Dev nD) → (b : Ref sig .tc) → Buf (Elt Ideal) ((c : Thread nD τ).loc b)) (c : Dev nD),
      (dat3 (F := Ideal) V c).arrAt 3 cfg3.N = Cert.Spec.layer3 (V c main_v45) (V c main_arg9) (V c main_v46))
    (prev : W6 m ρ c (Proc.devRef .tc main_v35) = P) :
    W8 m ρ c (Proc.devRef .tc main_v47) = Cert.Spec.layer3 (Cert.Spec.agg100 P (m ((c : Thread nD τ).loc main_arg1)) (m ((c : Thread nD τ).loc main_arg2)))
      (m ((c : Thread nD τ).loc main_arg9)) (Cert.Spec.row3 (m ((c : Thread nD τ).loc main_arg10))) :=
  calc W8 m ρ c (Proc.devRef .tc main_v47)
      = (dat3 (V7 m ρ) c).arrAt 3 cfg3.N := W8_arr m ρ c 3
    _ = Cert.Spec.layer3 (V7 m ρ c main_v45) (V7 m ρ c main_arg9) (V7 m ρ c main_v46) := h3 (V7 m ρ) c
    _ = _ := congr (congr (congrArg Cert.Spec.layer3 (x3 m ρ c P prev)) (w3 m ρ c)) (b3 m ρ c)

set_option maxHeartbeats 4000000 in
/-- Region 4's first input: the previous layer's output, gathered at the sources and summed into the destinations. -/
theorem x4 (P : FVec Ideal S50000x50 .f32) (prev : W8 m ρ c (Proc.devRef .tc main_v47) = P) :
    V9 m ρ c main_v57 = Cert.Spec.agg50 P (m ((c : Thread nD τ).loc main_arg1)) (m ((c : Thread nD τ).loc main_arg2)) := by
  show StableHlo.after hostOps4 (W8 m ρ c) (Proc.devRef .tc main_v57) = _
  after_results
  refine (agg50_eq _ _ _).trans ?_
  exact congr (congr (congrArg Cert.Spec.agg50 prev) (keep4_1 m ρ c)) (keep4_2 m ρ c)

set_option maxHeartbeats 4000000 in
/-- Region 4's weight is the launch memory's. -/
theorem w4 : V9 m ρ c main_arg11 = m ((c : Thread nD τ).loc main_arg11) := by
  show StableHlo.after hostOps4 (W8 m ρ c) (Proc.devRef .tc main_arg11) = _
  after_results
  all_goals exact keep4_11 m ρ c

set_option maxHeartbeats 4000000 in
/-- Region 4's bias row is the launch memory's bias vector as a row. -/
theorem b4 : V9 m ρ c main_v58 = Cert.Spec.row4 (m ((c : Thread nD τ).loc main_arg12)) := by
  show StableHlo.after hostOps4 (W8 m ρ c) (Proc.devRef .tc main_v58) = _
  after_results
  refine (row_cast_eq (W8 m ρ c (Proc.devRef .tc main_arg12)) shapeCasts_S25_S1x25 Cert.ReferenceIdeal.Facts₀.bcast_S25_S1x25_1).trans ?_
  exact congrArg Cert.Spec.row4 (keep4_12 m ρ c)

set_option maxHeartbeats 4000000 in
/-- After region 4 its output array holds layer 5 of the specification. -/
theorem out4 (P : FVec Ideal S50000x50 .f32)
    (h4 : ∀ (V : (c : Dev nD) → (b : Ref sig .tc) → Buf (Elt Ideal) ((c : Thread nD τ).loc b)) (c : Dev nD),
      (dat4 (F := Ideal) V c).arrAt 3 cfg4.N = Cert.Spec.layer4 (V c main_v57) (V c main_arg11) (V c main_v58))
    (prev : W8 m ρ c (Proc.devRef .tc main_v47) = P) :
    W10 m ρ c (Proc.devRef .tc main_v59) = Cert.Spec.layer4 (Cert.Spec.agg50 P (m ((c : Thread nD τ).loc main_arg1)) (m ((c : Thread nD τ).loc main_arg2)))
      (m ((c : Thread nD τ).loc main_arg11)) (Cert.Spec.row4 (m ((c : Thread nD τ).loc main_arg12))) :=
  calc W10 m ρ c (Proc.devRef .tc main_v59)
      = (dat4 (V9 m ρ) c).arrAt 3 cfg4.N := W10_arr m ρ c 3
    _ = Cert.Spec.layer4 (V9 m ρ c main_v57) (V9 m ρ c main_arg11) (V9 m ρ c main_v58) := h4 (V9 m ρ) c
    _ = _ := congr (congr (congrArg Cert.Spec.layer4 (x4 m ρ c P prev)) (w4 m ρ c)) (b4 m ρ c)

set_option maxHeartbeats 4000000 in
/-- Region 5's first input: the previous layer's output, gathered at the sources and summed into the destinations. -/
theorem x5 (P : FVec Ideal S50000x25 .f32) (prev : W10 m ρ c (Proc.devRef .tc main_v59) = P) :
    V11 m ρ c main_v69 = Cert.Spec.agg25 P (m ((c : Thread nD τ).loc main_arg1)) (m ((c : Thread nD τ).loc main_arg2)) := by
  show StableHlo.after hostOps5 (W10 m ρ c) (Proc.devRef .tc main_v69) = _
  after_results
  refine (agg25_eq _ _ _).trans ?_
  exact congr (congr (congrArg Cert.Spec.agg25 prev) (keep5_1 m ρ c)) (keep5_2 m ρ c)

set_option maxHeartbeats 4000000 in
/-- Region 5's weight is the launch memory's. -/
theorem w5 : V11 m ρ c main_arg13 = m ((c : Thread nD τ).loc main_arg13) := by
  show StableHlo.after hostOps5 (W10 m ρ c) (Proc.devRef .tc main_arg13) = _
  after_results
  all_goals exact keep5_13 m ρ c

set_option maxHeartbeats 4000000 in
/-- Region 5's bias row is the launch memory's bias vector as a row. -/
theorem b5 : V11 m ρ c main_v70 = Cert.Spec.row5 (m ((c : Thread nD τ).loc main_arg14)) := by
  show StableHlo.after hostOps5 (W10 m ρ c) (Proc.devRef .tc main_v70) = _
  after_results
  refine (row_cast_eq (W10 m ρ c (Proc.devRef .tc main_arg14)) shapeCasts_S3_S1x3 Cert.ReferenceIdeal.Facts₀.bcast_S3_S1x3_1).trans ?_
  exact congrArg Cert.Spec.row5 (keep5_14 m ρ c)

set_option maxHeartbeats 4000000 in
/-- After region 5 its output array holds layer 6 of the specification. -/
theorem out5 (P : FVec Ideal S50000x25 .f32)
    (h5 : ∀ (V : (c : Dev nD) → (b : Ref sig .tc) → Buf (Elt Ideal) ((c : Thread nD τ).loc b)) (c : Dev nD),
      (dat5 (F := Ideal) V c).arrAt 3 cfg5.N = Cert.Spec.layer5 (V c main_v69) (V c main_arg13) (V c main_v70))
    (prev : W10 m ρ c (Proc.devRef .tc main_v59) = P) :
    W12 m ρ c (Proc.devRef .tc main_v71) = Cert.Spec.layer5 (Cert.Spec.agg25 P (m ((c : Thread nD τ).loc main_arg1)) (m ((c : Thread nD τ).loc main_arg2)))
      (m ((c : Thread nD τ).loc main_arg13)) (Cert.Spec.row5 (m ((c : Thread nD τ).loc main_arg14))) :=
  calc W12 m ρ c (Proc.devRef .tc main_v71)
      = (dat5 (V11 m ρ) c).arrAt 3 cfg5.N := W12_arr m ρ c 3
    _ = Cert.Spec.layer5 (V11 m ρ c main_v69) (V11 m ρ c main_arg13) (V11 m ρ c main_v70) := h5 (V11 m ρ) c
    _ = _ := congr (congr (congrArg Cert.Spec.layer5 (x5 m ρ c P prev)) (w5 m ρ c)) (b5 m ρ c)

/-! ## The whole network -/

set_option maxHeartbeats 4000000 in
/-- The last boundary's contents at the result buffer: the network of the argument arrays. -/
theorem value
    (h0 : ∀ (V : (c : Dev nD) → (b : Ref sig .tc) → Buf (Elt Ideal) ((c : Thread nD τ).loc b)) (c : Dev nD),
      (dat0 (F := Ideal) V c).arrAt 3 cfg0.N = Cert.Spec.layer0 (V c main_v9) (V c main_arg3) (V c main_v10))
    (h1 : ∀ (V : (c : Dev nD) → (b : Ref sig .tc) → Buf (Elt Ideal) ((c : Thread nD τ).loc b)) (c : Dev nD),
      (dat1 (F := Ideal) V c).arrAt 3 cfg1.N = Cert.Spec.layer1 (V c main_v21) (V c main_arg5) (V c main_v22))
    (h2 : ∀ (V : (c : Dev nD) → (b : Ref sig .tc) → Buf (Elt Ideal) ((c : Thread nD τ).loc b)) (c : Dev nD),
      (dat2 (F := Ideal) V c).arrAt 3 cfg2.N = Cert.Spec.layer2 (V c main_v33) (V c main_arg7) (V c main_v34))
    (h3 : ∀ (V : (c : Dev nD) → (b : Ref sig .tc) → Buf (Elt Ideal) ((c : Thread nD τ).loc b)) (c : Dev nD),
      (dat3 (F := Ideal) V c).arrAt 3 cfg3.N = Cert.Spec.layer3 (V c main_v45) (V c main_arg9) (V c main_v46))
    (h4 : ∀ (V : (c : Dev nD) → (b : Ref sig .tc) → Buf (Elt Ideal) ((c : Thread nD τ).loc b)) (c : Dev nD),
      (dat4 (F := Ideal) V c).arrAt 3 cfg4.N = Cert.Spec.layer4 (V c main_v57) (V c main_arg11) (V c main_v58))
    (h5 : ∀ (V : (c : Dev nD) → (b : Ref sig .tc) → Buf (Elt Ideal) ((c : Thread nD τ).loc b)) (c : Dev nD),
      (dat5 (F := Ideal) V c).arrAt 3 cfg5.N = Cert.Spec.layer5 (V c main_v69) (V c main_arg13) (V c main_v70)) :
    W12 m ρ c (Proc.devRef .tc main_v71) = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (out5 m ρ c _ h5 (out4 m ρ c _ h4 (out3 m ρ c _ h3 (out2 m ρ c _ h2 (out1 m ρ c _ h1 (out0 m ρ c _ h0 rfl))))))

/-- Every weakly fair execution of the kernel program terminates without a fault, its result buffer holding the network
    of the argument arrays, the arguments unchanged. -/
theorem run_of
    (h0 : ∀ (V : (c : Dev nD) → (b : Ref sig .tc) → Buf (Elt Ideal) ((c : Thread nD τ).loc b)) (c : Dev nD),
      (dat0 (F := Ideal) V c).arrAt 3 cfg0.N = Cert.Spec.layer0 (V c main_v9) (V c main_arg3) (V c main_v10))
    (h1 : ∀ (V : (c : Dev nD) → (b : Ref sig .tc) → Buf (Elt Ideal) ((c : Thread nD τ).loc b)) (c : Dev nD),
      (dat1 (F := Ideal) V c).arrAt 3 cfg1.N = Cert.Spec.layer1 (V c main_v21) (V c main_arg5) (V c main_v22))
    (h2 : ∀ (V : (c : Dev nD) → (b : Ref sig .tc) → Buf (Elt Ideal) ((c : Thread nD τ).loc b)) (c : Dev nD),
      (dat2 (F := Ideal) V c).arrAt 3 cfg2.N = Cert.Spec.layer2 (V c main_v33) (V c main_arg7) (V c main_v34))
    (h3 : ∀ (V : (c : Dev nD) → (b : Ref sig .tc) → Buf (Elt Ideal) ((c : Thread nD τ).loc b)) (c : Dev nD),
      (dat3 (F := Ideal) V c).arrAt 3 cfg3.N = Cert.Spec.layer3 (V c main_v45) (V c main_arg9) (V c main_v46))
    (h4 : ∀ (V : (c : Dev nD) → (b : Ref sig .tc) → Buf (Elt Ideal) ((c : Thread nD τ).loc b)) (c : Dev nD),
      (dat4 (F := Ideal) V c).arrAt 3 cfg4.N = Cert.Spec.layer4 (V c main_v57) (V c main_arg11) (V c main_v58))
    (h5 : ∀ (V : (c : Dev nD) → (b : Ref sig .tc) → Buf (Elt Ideal) ((c : Thread nD τ).loc b)) (c : Dev nD),
      (dat5 (F := Ideal) V c).arrAt 3 cfg5.N = Cert.Spec.layer5 (V c main_v69) (V c main_arg13) (V c main_v70))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c => ⟨(h c).1.trans (value m ρ c h0 h1 h2 h3 h4 h5), (h c).2⟩)
    (Cert.KernelIdeal.KRun.run_named (F := Ideal) m ρ)

end Cert.KernelIdeal.KValue

end
-- ==== Proof.Assemble.lean ====
/-
  The certificate's claims from its parts.

  Both idealized programs end with their result buffer holding ONE function of the argument arrays, the six-layer
  network of the specification: the kernel program because each of its regions leaves a layer of the specification in
  its output array (six hypotheses here, one per region) and the host operations between the regions are the
  specification's message passing; the reference program by reading its straight-line run back (a hypothesis here).
  From memories that agree on the arguments the two results are therefore equal, entry by entry. The three frames are
  the runs with the result forgotten; the idealization rewrote nothing, so there is nothing to preserve.
-/
import proofs.«103496_j8332236554735_1_alg».proof.Defs
import proofs.«103496_j8332236554735_1_alg».proof.Proof.Gen.Kernel.Frame
import proofs.«103496_j8332236554735_1_alg».proof.Proof.Gen.KernelIdeal.Frame
import proofs.«103496_j8332236554735_1_alg».proof.Proof.Gen.ReferenceIdeal
import proofs.«103496_j8332236554735_1_alg».proof.Proof.Gen.Pre_finite_inputs
import proofs.«103496_j8332236554735_1_alg».proof.Proof.Spec
import proofs.«103496_j8332236554735_1_alg».proof.Proof.KValue

set_option maxRecDepth 16384

noncomputable section

namespace Cert.Proof.Assemble

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_reference
    (hR : ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v109) = Cert.Spec.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))) : Cert.frame_ReferenceIdeal := fun m ρ _ =>
  (θ_run (Cert.ReferenceIdeal.defs (F := Ideal)) _ _).mono (fun _ h c => (h c).2) (hR m ρ)

theorem preserves : Cert.preserves_Kernel_KernelIdeal := trivial

/-- Run from memories that agree on the arguments, the two idealized programs end with the same result: the network
    of the specification of the arguments. -/
theorem algebraic
    (h0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat0 (F := Ideal) V c).arrAt 3 Cert.KernelIdeal.cfg0.N = Cert.Spec.layer0 (V c Cert.KernelIdeal.main_v9) (V c Cert.KernelIdeal.main_arg3) (V c Cert.KernelIdeal.main_v10))
    (h1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat1 (F := Ideal) V c).arrAt 3 Cert.KernelIdeal.cfg1.N = Cert.Spec.layer1 (V c Cert.KernelIdeal.main_v21) (V c Cert.KernelIdeal.main_arg5) (V c Cert.KernelIdeal.main_v22))
    (h2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat2 (F := Ideal) V c).arrAt 3 Cert.KernelIdeal.cfg2.N = Cert.Spec.layer2 (V c Cert.KernelIdeal.main_v33) (V c Cert.KernelIdeal.main_arg7) (V c Cert.KernelIdeal.main_v34))
    (h3 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat3 (F := Ideal) V c).arrAt 3 Cert.KernelIdeal.cfg3.N = Cert.Spec.layer3 (V c Cert.KernelIdeal.main_v45) (V c Cert.KernelIdeal.main_arg9) (V c Cert.KernelIdeal.main_v46))
    (h4 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat4 (F := Ideal) V c).arrAt 3 Cert.KernelIdeal.cfg4.N = Cert.Spec.layer4 (V c Cert.KernelIdeal.main_v57) (V c Cert.KernelIdeal.main_arg11) (V c Cert.KernelIdeal.main_v58))
    (h5 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat5 (F := Ideal) V c).arrAt 3 Cert.KernelIdeal.cfg5.N = Cert.Spec.layer5 (V c Cert.KernelIdeal.main_v69) (V c Cert.KernelIdeal.main_arg13) (V c Cert.KernelIdeal.main_v70))
    (hR : ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v109) = Cert.Spec.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))) : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.KValue.run_of h0 h1 h2 h3 h4 h5 m ρ, ?_⟩
  refine (θ_run (Cert.ReferenceIdeal.defs (F := Ideal)) _ _).mono (fun _ h c => ⟨(h c).1.trans ?_, (h c).2⟩) (hR m' ρ')
  obtain ⟨e0, e1, e2, e3, e4, e5, e6, e7, e8, e9, e10, e11, e12, e13, e14⟩ := hagree c
  exact congr (congr (congr (congr (congr (congr (congr (congr (congr (congr (congr (congr (congr (congr (congrArg Cert.Spec.net e0) e1) e2) e3) e4) e5) e6) e7) e8) e9) e10) e11) e12) e13) e14

/-- Everything the certificate claims. -/
theorem claim
    (h0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat0 (F := Ideal) V c).arrAt 3 Cert.KernelIdeal.cfg0.N = Cert.Spec.layer0 (V c Cert.KernelIdeal.main_v9) (V c Cert.KernelIdeal.main_arg3) (V c Cert.KernelIdeal.main_v10))
    (h1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat1 (F := Ideal) V c).arrAt 3 Cert.KernelIdeal.cfg1.N = Cert.Spec.layer1 (V c Cert.KernelIdeal.main_v21) (V c Cert.KernelIdeal.main_arg5) (V c Cert.KernelIdeal.main_v22))
    (h2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat2 (F := Ideal) V c).arrAt 3 Cert.KernelIdeal.cfg2.N = Cert.Spec.layer2 (V c Cert.KernelIdeal.main_v33) (V c Cert.KernelIdeal.main_arg7) (V c Cert.KernelIdeal.main_v34))
    (h3 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat3 (F := Ideal) V c).arrAt 3 Cert.KernelIdeal.cfg3.N = Cert.Spec.layer3 (V c Cert.KernelIdeal.main_v45) (V c Cert.KernelIdeal.main_arg9) (V c Cert.KernelIdeal.main_v46))
    (h4 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat4 (F := Ideal) V c).arrAt 3 Cert.KernelIdeal.cfg4.N = Cert.Spec.layer4 (V c Cert.KernelIdeal.main_v57) (V c Cert.KernelIdeal.main_arg11) (V c Cert.KernelIdeal.main_v58))
    (h5 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat5 (F := Ideal) V c).arrAt 3 Cert.KernelIdeal.cfg5.N = Cert.Spec.layer5 (V c Cert.KernelIdeal.main_v69) (V c Cert.KernelIdeal.main_arg13) (V c Cert.KernelIdeal.main_v70))
    (hR : ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v109) = Cert.Spec.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))) : Cert.Claim :=
  ⟨Cert.Kernel.Gen.facts, Cert.KernelIdeal.Gen.facts, Cert.ReferenceIdeal.Gen.facts, Cert.Pre_finite_inputs.Gen.facts,
    frame_kernel, frame_kernelIdeal, frame_reference hR, preserves, algebraic h0 h1 h2 h3 h4 h5 hR⟩

end Cert.Proof.Assemble

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Region0.lean ====
/-
  Layer 1 of the network, as the tiled kernel region computes it, is the whole-array layer function.

  The layer maps a 50000 × 300 array x, a 300 × 200 weight W and a 1 × 200 bias row b to the 50000 × 200 array

      out(r, q) = leaky (∑ k < 300, x(r, k) · W(k, q) + b(0, q)),     leaky y = y if y ≥ 0, else 0.01 · y,

  so row r of the result depends on row r of x only. The region cuts the 50000 rows into 10 tiles of 5000
  consecutive rows: at tile t it holds rows 5000·t … 5000·t + 4999 of x, all of W and all of b, computes the
  same expression on the tile (a matrix product into a zero accumulator after casts to a narrower format, which
  change nothing at the ideal values, then the bias row repeated down the tile's rows, then the rectifier), and
  writes the result to the same rows of the output. Entry (p, q) of tile t is therefore out(5000·t + p, q), and
  the ten tiles cover every row, so the array the region leaves is the layer function of its three inputs.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators
open Idealize.ShloMosaic Idealize.ShloMosaic.TcCoe Idealize.SL.Sem
open Idealize.ShloMosaic.ValueIdx

namespace Cert.KernelIdeal.Region0

open Cert.KernelIdeal

/-! ## One entry of the layer -/

/-- The leaky rectifier on one value: y where y ≥ 0, else the slope (the f32 nearest 0.01) times y. -/
def leaky (y : Ideal .f32) : Ideal .f32 :=
  Scalar.select (FloatOps.cmpf .oge y (Ideal.ofBits .f32 0x00000000#32)) y (Ideal.ofBits .f32 0x3C23D70A#32 * y)

/-- The affine value of one entry: a row of x against a column of W, plus the bias of that column. -/
def affine (xr wc : Fin 300 → Ideal .f32) (b : Ideal .f32) : Ideal .f32 := (∑ k : Fin 300, xr k * wc k) + b

/-! ## The tile's computation at an entry -/

/-- The tile's matrix product at (p, q): the casts to the narrower format are the identity at the ideal values and the
    accumulator starts at zero, so it is the sum over the 300 columns of row p of the tile against column q of W. -/
theorem tile_dot (xb : FVec Ideal S5000x300 .f32) (W : FVec Ideal S300x200 .f32)
    (hc : S5000x300.ShapeCasts S5000x300) (ht : FTy.bf16.bits < FTy.f32.bits) (p : Fin 5000) (q : Fin 200) :
    matmul (F := Ideal) dot_S5000x300_S300x200_S5000x200_1_0_0_1_n_n none
      (truncf .bf16 (shapeCast S5000x300 xb hc) ht) (truncf .bf16 W ht) (constant (F := Ideal) S5000x200 .f32 0x00000000#32) (ix2 p q)
      = ∑ k : Fin 300, xb (ix2 p k) * W (ix2 k q) := by
  rw [shapeCast_self]
  refine (Ideal.matmul_constant_zero_apply dot_S5000x300_S300x200_S5000x200_1_0_0_1_n_n none _ _ (ix2 p q)).trans ?_
  exact Cert.LibPlainDot.sum_contr xb W p q

/-- The bias row repeated down the tile's 5000 rows reads, at (p, q), the row's entry q. -/
theorem tile_bias (b2 : FVec Ideal S1x200 .f32) (hc : S1x200.ShapeCasts S1x200) (hb : S1x200.Broadcasts S5000x200)
    (p : Fin 5000) (q : Fin 200) :
    broadcastTo S5000x200 (shapeCast S1x200 b2 hc) hb (ix2 p q) = b2 (ix2 (0 : Fin 1) q) := by
  rw [shapeCast_self]
  exact broadcastTo_1b_ab_apply b2 _ p q

/-- Entry (p, q) of what a tile computes from its 5000 rows xb, the weight and the bias row: the rectifier of the affine
    value of row p of xb against column q of W. -/
theorem tile_entry (xb : Vec Ideal S5000x300 .f32) (W : Vec Ideal S300x200 .f32) (b2 : Vec Ideal S1x200 .f32)
    (p : Fin 5000) (q : Fin 200) :
    Gen.k0_pay1 (F := Ideal) xb W b2 (ix2 p q)
      = leaky (affine (fun k => xb (ix2 p k)) (fun k => W (ix2 k q)) (b2 (ix2 (0 : Fin 1) q))) := by
  unfold Gen.k0_pay1
  simp only [select_apply, cmpf_apply, mulf_apply, addf_apply, broadcast_apply]
  rw [tile_dot, tile_bias]
  rfl

/-! ## The whole-array layer at an entry -/

/-- The whole-array matrix product at (r, q): the sum over the 300 columns of row r of x against column q of W. -/
theorem layer_dot (X : FVec Ideal S50000x300 .f32) (W : FVec Ideal S300x200 .f32) (r : Fin 50000) (q : Fin 200) :
    Host.dotGeneral (F := Ideal) Cert.ReferenceIdeal.dot_S50000x300_S300x200_S50000x200_1_0_0_1_n_n none X W (ix2 r q)
      = ∑ k : Fin 300, X (ix2 r k) * W (ix2 k q) :=
  Cert.LibPlainDot.dotGeneral_apply none X W r q

/-- The bias row repeated down the 50000 rows reads, at (r, q), the row's entry q. -/
theorem layer_bias (b2 : FVec Ideal S1x200 .f32) (h : S1x200.BroadcastsInDim S50000x200 ![0, 1]) (r : Fin 50000) (q : Fin 200) :
    broadcastInDim S50000x200 ![0, 1] h b2 (ix2 r q) = b2 (ix2 (0 : Fin 1) q) :=
  broadcastInDim_apply _ h b2 (ix2 r q) (ix2 (0 : Fin 1) q) fun a => by
    match a with
    | ⟨0, _⟩ => rfl
    | ⟨1, _⟩ => rfl

/-- A scalar constant spread over the array reads the constant's value at every entry. -/
theorem layer_splat (w : BitVec 32) (h : Cert.ReferenceIdeal.S_.BroadcastsInDim S50000x200 ![]) (j : S50000x200.Idx) :
    broadcastInDim S50000x200 ![] h (constant (F := Ideal) Cert.ReferenceIdeal.S_ .f32 w) j = Ideal.ofBits .f32 w := rfl

/-- Entry (r, q) of the whole-array layer: the rectifier of the affine value of row r of x against column q of W. -/
theorem layer_entry (X : FVec Ideal S50000x300 .f32) (W : FVec Ideal S300x200 .f32) (b2 : FVec Ideal S1x200 .f32)
    (r : Fin 50000) (q : Fin 200) :
    Cert.Spec.layer0 X W b2 (ix2 r q)
      = leaky (affine (fun k => X (ix2 r k)) (fun k => W (ix2 k q)) (b2 (ix2 (0 : Fin 1) q))) := by
  unfold Cert.Spec.layer0 Cert.Spec.act0 Cert.Spec.lin0
  simp only [select_apply, cmpf_apply, mulf_apply, addf_apply]
  rw [layer_dot, layer_bias, layer_splat, layer_splat]
  rfl

/-! ## From the tiles to the array -/

/-- The two zero offsets of a whole-buffer access, as the constant zero function. -/
theorem origin : (![0, 0] : Fin 2 → Nat) = fun _ => 0 := funext fun a => by fin_cases a <;> rfl

/-- Where each tile sits: at point t the rows of x and of the output are block t along the rows and block 0 along the
    columns; the weight and the bias row are always their one block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows are cut into ten tiles. -/
theorem points : cfg0.N = 10 := rfl

/-- What tile t writes back is rows 5000·t … 5000·t + 4999 of the layer function of the three input arrays: entry (p, q)
    of the tile is computed from row p of the tile of x, which is row 5000·t + p of x, and from the whole weight and
    bias row. -/
theorem flushed (V : (c : Dev nD) → (b : Ref sig .tc) → Buf (Elt Ideal) ((c : Thread nD τ).loc b)) (c : Dev nD)
    (t : Fin cfg0.N) :
    (Gen.dat0 (F := Ideal) V c).flushed 3 t
      = ((cfg0.win 3).blk t).view.read (Elt Ideal) (Cert.Spec.layer0 (V c main_v9) (V c main_arg3) (V c main_v10)) := by
  show (cfg0.win 3).cut (grid0.coords t) ((Gen.dat0 V c).after 3 t) = _
  rw [Gen.after0_3]
  unfold Gen.out0_3
  rw [View.canon_unit_zero origin]
  simp only [View.ld_unit_zero (S := S5000x300) origin, View.ld_unit_zero (S := S300x200) origin, View.ld_unit_zero (S := S1x200) origin]
  obtain ⟨e00, e01, e10, e11, e20, e21, e30, e31⟩ := block_index t
  funext j
  obtain ⟨p, q, rfl⟩ : ∃ (p : Fin 5000) (q : Fin 200), j = ix2 p q := ⟨j 0, j 1, eq_ix2 j⟩
  have hr : t.val * 5000 + p.val < 50000 := by
    have h1 : t.val < 10 := points ▸ t.isLt
    have h2 := p.isLt
    omega
  show Gen.k0_pay1 (Gen.iblk0 V c 0 t) (Gen.iblk0 V c 1 t) (Gen.iblk0 V c 2 t) (ix2 p q)
    = Cert.Spec.layer0 (V c main_v9) (V c main_arg3) (V c main_v10) (((cfg0.win 3).blk t).view.emb (ix2 p q))
  -- entry (p, q) of the output tile is entry (5000·t + p, q) of the output array
  have hemb : ((cfg0.win 3).blk t).view.emb (ix2 p q) = (ix2 (⟨t.val * 5000 + p.val, hr⟩ : Fin 50000) q : S50000x200.Idx) := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 200 + 1 * q.val = q.val; rw [e31]; omega
  -- row p of the tile of x is row 5000·t + p of x
  have hx : (fun k : Fin 300 => (Gen.iblk0 V c 0 t : Vec Ideal S5000x300 .f32) (ix2 p k))
      = fun k => (V c main_v9 : FVec Ideal S50000x300 .f32) (ix2 (⟨t.val * 5000 + p.val, hr⟩ : Fin 50000) k) := funext fun k => by
    show V c main_v9 (((cfg0.win 0).blk t).view.emb (ix2 p k)) = V c main_v9 _
    refine congrArg (V c main_v9) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 300 + 1 * k.val = k.val; rw [e01]; omega
  -- the weight's one block is the weight
  have hw : (fun k : Fin 300 => (Gen.iblk0 V c 1 t : Vec Ideal S300x200 .f32) (ix2 k q))
      = fun k => (V c main_arg3 : FVec Ideal S300x200 .f32) (ix2 k q) := funext fun k => by
    show V c main_arg3 (((cfg0.win 1).blk t).view.emb (ix2 k q)) = V c main_arg3 _
    refine congrArg (V c main_arg3) (funext fun a => Fin.ext ?_)
    match a with
    | ⟨0, _⟩ => show win0_1.index t (0 : Fin 2) * 300 + 1 * k.val = k.val; rw [e10]; omega
    | ⟨1, _⟩ => show win0_1.index t (1 : Fin 2) * 200 + 1 * q.val = q.val; rw [e11]; omega
  -- the bias row's one block is the bias row
  have hb : (Gen.iblk0 V c 2 t : Vec Ideal S1x200 .f32) (ix2 (0 : Fin 1) q)
      = (V c main_v10 : FVec Ideal S1x200 .f32) (ix2 (0 : Fin 1) q) := by
    show V c main_v10 (((cfg0.win 2).blk t).view.emb (ix2 (0 : Fin 1) q)) = V c main_v10 _
    refine congrArg (V c main_v10) (funext fun a => Fin.ext ?_)
    match a with
    | ⟨0, _⟩ => show win0_2.index t (0 : Fin 2) * 1 + 1 * (0 : Fin 1).val = (0 : Fin 1).val; rw [e20]; omega
    | ⟨1, _⟩ => show win0_2.index t (1 : Fin 2) * 200 + 1 * q.val = q.val; rw [e21]; omega
  refine (tile_entry _ _ _ p q).trans ?_
  refine Eq.trans ?_ ((congrArg (Cert.Spec.layer0 (V c main_v9) (V c main_arg3) (V c main_v10)) hemb).trans
    (layer_entry (V c main_v9) (V c main_arg3) (V c main_v10) ⟨_, hr⟩ q)).symm
  exact congrArg leaky (congr (congr (congrArg affine hx) hw) hb)

/-- An entry of the output array lies in tile t iff, on each axis, its coordinate is in the tile's range. -/
theorem mem_tile (t : Fin cfg0.N) (i : S50000x200.Idx) :
    i ∈ ((cfg0.win 3).blk t).view.set ↔ ∀ a : Fin 2, win0_3.index t a * S5000x200.size a ≤ (i a).val
      ∧ (i a).val < win0_3.index t a * S5000x200.size a + S5000x200.size a := by
  show i ∈ ((View.whole main_v11).slice (win0_3.rect t)).set ↔ _
  rw [View.set_slice_whole, Rect.mem_set_unit]
  exact Iff.rfl

/-- Every entry (r, q) of the output array lies in a tile that is written back: tile r / 5000. -/
theorem cover (i : S50000x200.Idx) :
    ∃ t : Fin cfg0.N, (cfg0.win 3).flush t = true ∧ i ∈ ((cfg0.win 3).blk t).view.set := by
  have hi0 : (i 0).val < 50000 := (i 0).isLt
  have hi1 : (i 1).val < 200 := (i 1).isLt
  have ht : (i 0).val / 5000 < cfg0.N := by rw [points]; omega
  obtain ⟨-, -, -, -, -, -, e30, e31⟩ := block_index ⟨(i 0).val / 5000, ht⟩
  refine ⟨⟨(i 0).val / 5000, ht⟩, Gen.flush0_3 _, ?_⟩
  rw [mem_tile]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 200 ≤ (i 1).val
      ∧ (i 1).val < win0_3.index ⟨(i 0).val / 5000, ht⟩ (1 : Fin 2) * 200 + 200
    rw [e31]
    omega

/-- The array the region leaves is the layer function of the three arrays it found: each tile writes its rows of
    that function, and the tiles cover the array. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat0 (F := Ideal) V c).arrAt 3 Cert.KernelIdeal.cfg0.N = Cert.Spec.layer0 (V c Cert.KernelIdeal.main_v9) (V c Cert.KernelIdeal.main_arg3) (V c Cert.KernelIdeal.main_v10) :=
  (Gen.dat0 (F := Ideal) V c).arrAt_eq_of_cover 3 _ (fun t _ => flushed V c t) cover

end Cert.KernelIdeal.Region0

end
-- ==== Proof.Region1.lean ====
/-
  Region 1 — the network's second layer on row tiles — leaves in its output array the reference's layer 2 applied
  to the region's three input arrays.

  The layer sends a feature row xr (200 entries) to the softmax of the affine row y = xr · W + b (150 entries):
  exp (y(q) − max y) / Σₖ exp (y(k) − max y), the maximum folded from −∞. Every output row depends on the same row of
  the features only, and on all of W and b. The region cuts the 50000 rows into ten tiles of 5000 rows; at grid point t
  it loads rows 5000·t … 5000·t + 4999 of the features, the whole weight and the whole bias row, and stores one value:
  the tile times the weight accumulated from zero (the casts to bf16 are the identity at the ideal values) plus the bias
  row repeated down the rows, then the softmax along each row.

  The proof reads both sides at an entry as that ONE row function: the stored value at (p, q) is the row function of
  the tile's row p, the reference's layer at (r, q) the row function of the array's row r. Row p of tile t is row
  5000·t + p of the array, so what point t writes back is tile t of the layer of the whole arrays; the ten tiles cover
  the output array, every point writes back, and so the array ends holding the layer.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.KernelIdeal.Gen

/-! ## One row of the layer

Every output row depends on the same row of the features only: with `xr` that row, the layer's row is the
softmax of the affine row `xr · W + b`. -/

/-- Entry `q` of the affine row `xr · W + b`, the bias a `1 × b` row. -/
def affineRow {a b : ℕ} (xr : Fin a → Ideal .f32) (W : FVec Ideal ⟨2, ![a, b]⟩ .f32) (bias : FVec Ideal ⟨2, ![1, b]⟩ .f32)
    (q : Fin b) : Ideal .f32 :=
  (∑ k : Fin a, xr k * W (ix2 k q)) + bias (ix2 (0 : Fin 1) q)

/-- The maximum of a row, folded from −∞ and taken once more against −∞. -/
def rowMax {b : ℕ} (y : Fin b → Ideal .f32) : Ideal .f32 :=
  max (Ideal.ofBits .f32 0xFF800000#32) ((Finset.univ : Finset (Fin b)).fold max (Ideal.ofBits .f32 0xFF800000#32) y)

/-- Entry `q` of the softmax of a row: the exponential of the entry shifted by the row's maximum, over the sum of the
    exponentials of the shifted row. -/
def softmaxRow {b : ℕ} (y : Fin b → Ideal .f32) (q : Fin b) : Ideal .f32 :=
  Ideal.div (Ideal.exp (y q - rowMax y)) (∑ k : Fin b, Ideal.exp (y k - rowMax y))

/-! ## Reductions along a row, read at the row -/

/-- The index of row `p` with the column `k` inserted is `(p, k)`. -/
theorem lift_row {n b : ℕ} (h : (⟨2, ![n, b]⟩ : Shape).Reduces [1] ⟨1, ![n]⟩) (p : Fin n) (k : Fin b) :
    h.lift (ix1 p) k = ix2 p k :=
  funext fun c => Fin.ext (by
    match c with
    | ⟨0, _⟩ => rfl
    | ⟨1, _⟩ => rfl)

/-- A sum along the rows of a tile, at row `p`: the sum of the row's entries. -/
theorem tile_rowSum {n b : ℕ} (src : FVec Ideal ⟨2, ![n, b]⟩ .f32) (h : (⟨2, ![n, b]⟩ : Shape).Reduces [1] ⟨1, ![n]⟩)
    (hφ : FKind.Formats .f32) (hacc : (0x00000000#32 : BitVec 32) = FKind.add.neutral .f32 hφ) (p : Fin n) :
    multiReduction (F := Ideal) .add [1] ⟨1, ![n]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A maximum along the rows of a tile, at row `p`: the fold of `max` over the row's entries from −∞. -/
theorem tile_rowMax {n b : ℕ} (src : FVec Ideal ⟨2, ![n, b]⟩ .f32) (h : (⟨2, ![n, b]⟩ : Shape).Reduces [1] ⟨1, ![n]⟩)
    (hφ : FKind.Formats .f32) (hacc : (0xFF800000#32 : BitVec 32) = FKind.maximumf.neutral .f32 hφ) (p : Fin n) :
    multiReduction (F := Ideal) .maximumf [1] ⟨1, ![n]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg (fun f => (Finset.univ : Finset (Fin b)).fold max (Ideal.ofBits .f32 0xFF800000#32) f)
      (funext fun k => congrArg src (lift_row h p k)))

/-- The host's maximum along the rows of an array from the scalar −∞, at row `r`. -/
theorem host_rowMax {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduce (FloatOps.maximumf (F := Ideal)) y (constant (F := Ideal) ⟨0, ![]⟩ .f32 0xFF800000#32) h' hu (ix1 r)
      = (Finset.univ : Finset (Fin b)).fold max (Ideal.ofBits .f32 0xFF800000#32) (fun k => y (ix2 r k)) :=
  (Host.reduce_eq_fold_single (FloatOps.maximumf (F := Ideal)) y _ h' h hu (ix1 r)).trans
    (congrArg (fun f => (Finset.univ : Finset (Fin b)).fold max (Ideal.ofBits .f32 0xFF800000#32) f)
      (funext fun k => congrArg y (lift_row h r k)))

/-- The host's sum along the rows of an array from the scalar zero, at row `r`. -/
theorem host_rowSum {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduceAdd (F := Ideal) y (constant (F := Ideal) ⟨0, ![]⟩ .f32 0x00000000#32) h' hu (ix1 r)
      = ∑ k : Fin b, y (ix2 r k) := by
  refine (hostReduceAdd_apply y _ h' hu (ix1 r)).trans ?_
  refine (Ideal.hostReduceAdd_single h' h y _ (ix1 r)).trans ?_
  rw [constant_apply, Ideal.ofBits_zero_f32, zero_add]
  exact Finset.sum_congr rfl fun k _ => congrArg y (lift_row h r k)

/-! ## The exponential, read at an index -/

section Pointwise
variable {s : Shape}

/-- The body's exponential at an index is the exponential of the element, -/
theorem exp_apply (v : FVec Ideal s .f32) (i : s.Idx) : exp v i = Ideal.exp (v i) := rfl
/-- and the host's exponential is the same function of the element. -/
theorem hostExp_apply (v : FVec Ideal s .f32) (i : s.Idx) : Host.exp (F := Ideal) v i = Ideal.exp (v i) := rfl

end Pointwise

/-! ## The host's broadcasts, read at an index -/

section HostLayout
variable {α : Type}

/-- A `1 × b` row repeated down `n` rows reads, at `(r, q)`, the row's entry `q`. -/
theorem hostRow_apply {n b : ℕ} (v : (⟨2, ![1, b]⟩ : Shape).Idx → α)
    (h : (⟨2, ![1, b]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

/-- An `n × 1` column repeated along `b` columns reads, at `(r, q)`, the column's entry `r`. -/
theorem hostCol_apply {n b : ℕ} (v : (⟨2, ![n, 1]⟩ : Shape).Idx → α)
    (h : (⟨2, ![n, 1]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 r (0 : Fin 1)) := by
  refine broadcastInDim_apply _ h v (ix2 r q) (ix2 r (0 : Fin 1)) fun ax => ?_
  match ax with
  | ⟨0, _⟩ =>
    show r.val = if n = 1 then 0 else r.val
    split
    · have := r.isLt; omega
    · rfl
  | ⟨1, _⟩ => rfl

/-- A vector of length `n` set as an `n × 1` column reads, at `(r, u)`, the vector's entry `r`. -/
theorem hostVecCol_apply {n : ℕ} (v : (⟨1, ![n]⟩ : Shape).Idx → α)
    (h : (⟨1, ![n]⟩ : Shape).BroadcastsInDim ⟨2, ![n, 1]⟩ (![0] : Fin 1 → Fin (⟨2, ![n, 1]⟩ : Shape).rank))
    (r : Fin n) (u : Fin 1) : broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

end HostLayout

/-! ## The body's arithmetic on one tile of 5000 rows -/

/-- The tile's affine map: the tile times the weight, accumulated from zero, plus the bias row repeated down the rows. -/
def tileLin (x : Vec Ideal S5000x200 .f32) (W : Vec Ideal S200x150 .f32) (b2 : Vec Ideal S1x150 .f32) : FVec Ideal S5000x150 .f32 :=
  addf (F := Ideal)
    (matmul dot_S5000x200_S200x150_S5000x150_1_0_0_1_n_n none
      (truncf .bf16 (shapeCast S5000x200 x shapeCasts_S5000x200_S5000x200) bitsLt_bf16_f32) (truncf .bf16 W bitsLt_bf16_f32)
      (constant S5000x150 .f32 0x00000000#32))
    (broadcastTo S5000x150 (shapeCast S1x150 b2 shapeCasts_S1x150_S1x150) broadcasts_S1x150_S5000x150)

/-- The exponentials of the tile's rows shifted by their maxima. -/
def tileExpShift (y : FVec Ideal S5000x150 .f32) : FVec Ideal S5000x150 .f32 :=
  exp (subf y (broadcastTo S5000x150 (shapeCast S5000x1
    (maximumf (broadcast S5000 (Scalar.ofBits .f32 0xFF800000#32))
      (multiReduction .maximumf [1] S5000 y 0xFF800000#32 reduces_S5000x150_S5000 (.inl rfl) rfl))
    shapeCasts_S5000_S5000x1) broadcasts_S5000x1_S5000x150))

/-- The softmax along each row of the tile. -/
def tileAct (y : FVec Ideal S5000x150 .f32) : FVec Ideal S5000x150 .f32 :=
  divf (tileExpShift y) (broadcastTo S5000x150 (shapeCast S5000x1
    (multiReduction .add [1] S5000 (tileExpShift y) 0x00000000#32 reduces_S5000x150_S5000 (.inl rfl) rfl)
    shapeCasts_S5000_S5000x1) broadcasts_S5000x1_S5000x150)

/-- The body's stored value is the softmax of the affine map of its three loaded blocks. -/
theorem pay_eq (x : Vec Ideal S5000x200 .f32) (W : Vec Ideal S200x150 .f32) (b2 : Vec Ideal S1x150 .f32) :
    k1_pay1 x W b2 = tileAct (tileLin x W b2) := rfl

/-- The tile's affine map at `(p, q)`: the affine row of the tile's row `p`. The casts to bf16 change nothing at the
    ideal values, and the product accumulated from zero is the sum over the contraction index. -/
theorem tileLin_apply (x : Vec Ideal S5000x200 .f32) (W : Vec Ideal S200x150 .f32) (b2 : Vec Ideal S1x150 .f32)
    (p : Fin 5000) (q : Fin 150) : tileLin x W b2 (ix2 p q) = affineRow (fun k => x (ix2 p k)) W b2 q := by
  unfold tileLin affineRow
  rw [addf_apply, shapeCast_self, shapeCast_self, broadcastTo_1b_ab_apply]
  refine congrArg (· + b2 (ix2 (0 : Fin 1) q)) ?_
  exact (Ideal.matmul_constant_zero_apply dot_S5000x200_S200x150_S5000x150_1_0_0_1_n_n none _ _ (ix2 p q)).trans
    (Cert.LibPlainDot.sum_contr (n := 5000) (a := 200) (b := 150) x W p q)

/-- The exponentiated shifted tile at `(p, q)`: the exponential of the entry minus the maximum of row `p`. -/
theorem tileExpShift_apply (y : FVec Ideal S5000x150 .f32) (p : Fin 5000) (q : Fin 150) :
    tileExpShift y (ix2 p q) = Ideal.exp (y (ix2 p q) - rowMax (fun k => y (ix2 p k))) := by
  unfold tileExpShift rowMax
  rw [exp_apply, subf_apply, Cert.Lib.KeepDims.broadcastTo_a1_ab_apply, Cert.Lib.KeepDims.shapeCast_a_a1_apply,
    maximumf_apply, broadcast_apply]
  exact congrArg (fun m => Ideal.exp (y (ix2 p q) - max (Ideal.ofBits .f32 0xFF800000#32) m)) (tile_rowMax y _ _ _ p)

/-- The tile's softmax at `(p, q)`: the softmax of row `p`, at `q`. -/
theorem tileAct_apply (y : FVec Ideal S5000x150 .f32) (p : Fin 5000) (q : Fin 150) :
    tileAct y (ix2 p q) = softmaxRow (fun k => y (ix2 p k)) q := by
  unfold tileAct softmaxRow
  rw [divf_apply, Cert.Lib.KeepDims.broadcastTo_a1_ab_apply, Cert.Lib.KeepDims.shapeCast_a_a1_apply, tileExpShift_apply]
  refine congrArg (fun s => Ideal.div (Ideal.exp (y (ix2 p q) - rowMax fun k => y (ix2 p k))) s) ?_
  refine (tile_rowSum (tileExpShift y) _ _ _ p).trans (Finset.sum_congr rfl fun k _ => ?_)
  rw [tileExpShift_apply]

/-- THE BODY'S STORED VALUE at `(p, q)`: the softmax of the affine row of the feature tile's row `p`. -/
theorem pay_apply (x : Vec Ideal S5000x200 .f32) (W : Vec Ideal S200x150 .f32) (b2 : Vec Ideal S1x150 .f32)
    (p : Fin 5000) (q : Fin 150) :
    k1_pay1 x W b2 (ix2 p q) = softmaxRow (affineRow (fun k => x (ix2 p k)) W b2) q := by
  rw [pay_eq, tileAct_apply]
  exact congrArg (fun f => softmaxRow f q) (funext fun k => tileLin_apply x W b2 p k)

/-! ## The reference's layer on the whole array of 50000 rows -/

/-- The whole array's rows reduce to a vector of its row count. -/
theorem reduces_rows : (⟨2, ![50000, 150]⟩ : Shape).Reduces [1] ⟨1, ![50000]⟩ := by decide

/-- The reference's affine map at `(r, q)`: the affine row of the features' row `r`. -/
theorem lin_apply (X : FVec Ideal S50000x200 .f32) (W : FVec Ideal S200x150 .f32) (b2 : FVec Ideal S1x150 .f32)
    (r : Fin 50000) (q : Fin 150) : Cert.Spec.lin1 X W b2 (ix2 r q) = affineRow (fun k => X (ix2 r k)) W b2 q := by
  unfold Cert.Spec.lin1 affineRow
  rw [addf_apply, hostRow_apply]
  refine congrArg (· + b2 (ix2 (0 : Fin 1) q)) ?_
  exact Cert.LibPlainDot.dotGeneral_apply (n := 50000) (a := 200) (b := 150) none X W r q

/-- The reference's exponentiated shifted array at `(r, q)`: the exponential of the entry minus the maximum of row `r`. -/
theorem expShift_apply (y : FVec Ideal S50000x150 .f32) (r : Fin 50000) (q : Fin 150) :
    Cert.Spec.expShift1 y (ix2 r q) = Ideal.exp (y (ix2 r q) - rowMax (fun k => y (ix2 r k))) := by
  unfold Cert.Spec.expShift1 rowMax
  rw [hostExp_apply, subf_apply, hostCol_apply, hostVecCol_apply, maximumf_apply, broadcastInDim_scalar_apply,
    constant_apply]
  exact congrArg (fun m => Ideal.exp (y (ix2 r q) - max (Ideal.ofBits .f32 0xFF800000#32) m))
    (host_rowMax y _ reduces_rows _ r)

/-- The reference's softmax at `(r, q)`: the softmax of row `r`, at `q`. -/
theorem act_apply (y : FVec Ideal S50000x150 .f32) (r : Fin 50000) (q : Fin 150) :
    Cert.Spec.act1 y (ix2 r q) = softmaxRow (fun k => y (ix2 r k)) q := by
  unfold Cert.Spec.act1 softmaxRow
  rw [hostDivf_apply, hostCol_apply, hostVecCol_apply, expShift_apply]
  refine congrArg (fun s => Ideal.div (Ideal.exp (y (ix2 r q) - rowMax fun k => y (ix2 r k))) s) ?_
  refine (host_rowSum (Cert.Spec.expShift1 y) _ reduces_rows _ r).trans (Finset.sum_congr rfl fun k _ => ?_)
  rw [expShift_apply]

/-- THE REFERENCE'S LAYER at `(r, q)`: the softmax of the affine row of the features' row `r`. -/
theorem layer_apply (X : FVec Ideal S50000x200 .f32) (W : FVec Ideal S200x150 .f32) (b2 : FVec Ideal S1x150 .f32)
    (r : Fin 50000) (q : Fin 150) :
    Cert.Spec.layer1 X W b2 (ix2 r q) = softmaxRow (affineRow (fun k => X (ix2 r k)) W b2) q := by
  unfold Cert.Spec.layer1
  rw [act_apply]
  exact congrArg (fun f => softmaxRow f q) (funext fun k => lin_apply X W b2 r k)

/-- The body's stored value and the reference's layer agree at an entry whose feature rows agree, the weight and the
    bias row being the same arrays: both are the one row function of that row. -/
theorem pay_eq_layer (x : Vec Ideal S5000x200 .f32) (w : Vec Ideal S200x150 .f32) (b : Vec Ideal S1x150 .f32)
    (X : FVec Ideal S50000x200 .f32) (W : FVec Ideal S200x150 .f32) (B : FVec Ideal S1x150 .f32)
    (p : Fin 5000) (r : Fin 50000) (q : Fin 150)
    (hx : ∀ k : Fin 200, x (ix2 p k) = X (ix2 r k)) (hw : w = W) (hb : b = B) :
    k1_pay1 x w b (ix2 p q) = Cert.Spec.layer1 X W B (ix2 r q) := by
  subst hw hb
  rw [pay_apply, layer_apply]
  exact congrArg (fun f => softmaxRow (affineRow f w b) q) (funext hx)

/-! ## From the tiles to the array

The grid has ten points; at point `t` the features' and the output's blocks are rows `5000·t … 5000·t + 4999`, the
weight's and the bias row's blocks the whole arrays. So what point `t` writes back is rows `5000·t …` of the layer
applied to the arrays as the region finds them, and the ten tiles cover the output array. -/

section Array

variable (V : (c : Dev nD) → (b : Ref sig .tc) → Buf (Elt Ideal) ((c : Thread nD τ).loc b))

/-- A whole-buffer access starts at the zero offsets. -/
theorem zero_offsets : (![0, 0] : Fin 2 → Nat) = fun _ => 0 := funext fun a => by fin_cases a <;> rfl

/-- The printed index maps over the grid: the features' and the output's block index at point `t` is `(t, 0)`, the
    weight's and the bias row's `(0, 0)`; and there are ten points. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- WHAT POINT `t` WRITES BACK is tile `t` of the layer of the arrays as the region finds them. -/
theorem flushed_eq (c : Dev nD) (t : Fin cfg1.N) :
    (Gen.dat1 (F := Ideal) V c).flushed 3 t
      = ((cfg1.win 3).blk t).view.read (Elt Ideal) (Cert.Spec.layer1 (V c main_v21) (V c main_arg5) (V c main_v22)) := by
  show (cfg1.win 3).cut (grid1.coords t) ((Gen.dat1 V c).after 3 t) = _
  rw [Gen.after1_3]
  unfold Gen.out1_3
  rw [View.canon_unit_zero zero_offsets]
  simp only [View.ld_unit_zero (S := S5000x200) zero_offsets, View.ld_unit_zero (S := S200x150) zero_offsets,
    View.ld_unit_zero (S := S1x150) zero_offsets]
  obtain ⟨e00, e01, e10, e11, e20, e21, e30, e31, ht⟩ := block_indices t
  funext j
  obtain ⟨p, q, rfl⟩ : ∃ (p : Fin 5000) (q : Fin 150), j = ix2 p q := ⟨j 0, j 1, eq_ix2 j⟩
  have hp : p.val < 5000 := p.isLt
  have hrow : t.val * 5000 + p.val < 50000 := by omega
  -- the entry's place in the output array: row 5000·t + p, column q
  have hplace : ((cfg1.win 3).blk t).view.emb (ix2 p q) = ix2 (⟨t.val * 5000 + p.val, hrow⟩ : Fin 50000) q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 150 + 1 * q.val = q.val; rw [e31]; omega
  show k1_pay1 (Gen.iblk1 V c 0 t) (Gen.iblk1 V c 1 t) (Gen.iblk1 V c 2 t) (ix2 p q)
    = Cert.Spec.layer1 (V c main_v21) (V c main_arg5) (V c main_v22) (((cfg1.win 3).blk t).view.emb (ix2 p q))
  refine (pay_eq_layer _ _ _ (V c main_v21) (V c main_arg5) (V c main_v22) p ⟨t.val * 5000 + p.val, hrow⟩ q
    (fun k => ?_) ?_ ?_).trans (congrArg (Cert.Spec.layer1 (V c main_v21) (V c main_arg5) (V c main_v22)) hplace.symm)
  · -- the features' tile: row p of the tile is row 5000·t + p of the array
    show V c main_v21 (((cfg1.win 0).blk t).view.emb (ix2 p k)) = V c main_v21 (ix2 ⟨t.val * 5000 + p.val, hrow⟩ k)
    refine congrArg (V c main_v21) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 200 + 1 * k.val = k.val; rw [e01]; omega
  · -- the weight's block is the whole weight
    funext i
    show V c main_arg5 (((cfg1.win 1).blk t).view.emb i) = V c main_arg5 i
    refine congrArg (V c main_arg5) (funext fun a => Fin.ext ?_)
    match a with
    | ⟨0, _⟩ => show win1_1.index t (0 : Fin 2) * 200 + 1 * (i 0).val = (i 0).val; rw [e10]; omega
    | ⟨1, _⟩ => show win1_1.index t (1 : Fin 2) * 150 + 1 * (i 1).val = (i 1).val; rw [e11]; omega
  · -- the bias row's block is the whole row
    funext i
    show V c main_v22 (((cfg1.win 2).blk t).view.emb i) = V c main_v22 i
    refine congrArg (V c main_v22) (funext fun a => Fin.ext ?_)
    match a with
    | ⟨0, _⟩ => show win1_2.index t (0 : Fin 2) * 1 + 1 * (i 0).val = (i 0).val; rw [e20]; omega
    | ⟨1, _⟩ => show win1_2.index t (1 : Fin 2) * 150 + 1 * (i 1).val = (i 1).val; rw [e21]; omega

/-- An index of the output array is in point `t`'s tile iff each coordinate is in the tile's range on its axis. -/
theorem mem_tile (t : Fin cfg1.N) (i : S50000x150.Idx) :
    i ∈ ((cfg1.win 3).blk t).view.set
      ↔ ∀ a : Fin 2, win1_3.index t a * S5000x150.size a ≤ (i a).val
          ∧ (i a).val < win1_3.index t a * S5000x150.size a + S5000x150.size a := by
  show i ∈ ((View.whole main_v23).slice (win1_3.rect t)).set ↔ _
  rw [View.set_slice_whole, Rect.mem_set_unit]
  exact Iff.rfl

/-- THE TILES COVER THE ARRAY: row `r` lies in the tile of point `r / 5000`, and every point writes back. -/
theorem cover (i : S50000x150.Idx) :
    ∃ t : Fin cfg1.N, (cfg1.win 3).flush t = true ∧ i ∈ ((cfg1.win 3).blk t).view.set := by
  have hi0 : (i 0).val < 50000 := (i 0).isLt
  have hi1 : (i 1).val < 150 := (i 1).isLt
  have hN : grid1.N = 10 := Gen.N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, e30, e31, -⟩ := block_indices t
  refine ⟨t, Gen.flush1_3 t, ?_⟩
  rw [mem_tile]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 150 ≤ (i 1).val ∧ (i 1).val < win1_3.index t (1 : Fin 2) * 150 + 150
    rw [e31]; omega

end Array

/-- THE ARRAY REGION 1 LEAVES: the layer of the reference — the softmax along each row of the features times the
    weight plus the bias row — applied to the region's three input arrays as the region finds them. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat1 (F := Ideal) V c).arrAt 3 Cert.KernelIdeal.cfg1.N = Cert.Spec.layer1 (V c Cert.KernelIdeal.main_v21) (V c Cert.KernelIdeal.main_arg5) (V c Cert.KernelIdeal.main_v22) :=
  (Gen.dat1 (F := Ideal) V c).arrAt_eq_of_cover 3 (Cert.Spec.layer1 (V c main_v21) (V c main_arg5) (V c main_v22))
    (fun t _ => flushed_eq V c t) cover

end Cert.KernelIdeal.Region1

end
-- ==== Proof.Region2.lean ====
/-
  Layer 3 of the network, as the tiled kernel region computes it, is the whole-array layer function.

  The layer maps a 50000 × 150 array x, a 150 × 100 weight W and a 1 × 100 bias row b to the 50000 × 100 array

      out(r, q) = leaky (∑ k < 150, x(r, k) · W(k, q) + b(0, q)),     leaky y = y if y ≥ 0, else 0.01 · y,

  so row r of the result depends on row r of x only. The region cuts the 50000 rows into 10 tiles of 5000
  consecutive rows: at tile t it holds rows 5000·t … 5000·t + 4999 of x, all of W and all of b, computes the
  same expression on the tile (a matrix product into a zero accumulator after casts to a narrower format, which
  change nothing at the ideal values, then the bias row repeated down the tile's rows, then the rectifier), and
  writes the result to the same rows of the output. Entry (p, q) of tile t is therefore out(5000·t + p, q), and
  the ten tiles cover every row, so the array the region leaves is the layer function of its three inputs.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators
open Idealize.ShloMosaic Idealize.ShloMosaic.TcCoe Idealize.SL.Sem
open Idealize.ShloMosaic.ValueIdx

namespace Cert.KernelIdeal.Region2

open Cert.KernelIdeal

/-! ## One entry of the layer -/

/-- The leaky rectifier on one value: y where y ≥ 0, else the slope (the f32 nearest 0.01) times y. -/
def leaky (y : Ideal .f32) : Ideal .f32 :=
  Scalar.select (FloatOps.cmpf .oge y (Ideal.ofBits .f32 0x00000000#32)) y (Ideal.ofBits .f32 0x3C23D70A#32 * y)

/-- The affine value of one entry: a row of x against a column of W, plus the bias of that column. -/
def affine (xr wc : Fin 150 → Ideal .f32) (b : Ideal .f32) : Ideal .f32 := (∑ k : Fin 150, xr k * wc k) + b

/-! ## The tile's computation at an entry -/

/-- The tile's matrix product at (p, q): the casts to the narrower format are the identity at the ideal values and the
    accumulator starts at zero, so it is the sum over the 150 columns of row p of the tile against column q of W. -/
theorem tile_dot (xb : FVec Ideal S5000x150 .f32) (W : FVec Ideal S150x100 .f32)
    (hc : S5000x150.ShapeCasts S5000x150) (ht : FTy.bf16.bits < FTy.f32.bits) (p : Fin 5000) (q : Fin 100) :
    matmul (F := Ideal) dot_S5000x150_S150x100_S5000x100_1_0_0_1_n_n none
      (truncf .bf16 (shapeCast S5000x150 xb hc) ht) (truncf .bf16 W ht) (constant (F := Ideal) S5000x100 .f32 0x00000000#32) (ix2 p q)
      = ∑ k : Fin 150, xb (ix2 p k) * W (ix2 k q) := by
  rw [shapeCast_self]
  refine (Ideal.matmul_constant_zero_apply dot_S5000x150_S150x100_S5000x100_1_0_0_1_n_n none _ _ (ix2 p q)).trans ?_
  exact Cert.LibPlainDot.sum_contr xb W p q

/-- The bias row repeated down the tile's 5000 rows reads, at (p, q), the row's entry q. -/
theorem tile_bias (b2 : FVec Ideal S1x100 .f32) (hc : S1x100.ShapeCasts S1x100) (hb : S1x100.Broadcasts S5000x100)
    (p : Fin 5000) (q : Fin 100) :
    broadcastTo S5000x100 (shapeCast S1x100 b2 hc) hb (ix2 p q) = b2 (ix2 (0 : Fin 1) q) := by
  rw [shapeCast_self]
  exact broadcastTo_1b_ab_apply b2 _ p q

/-- Entry (p, q) of what a tile computes from its 5000 rows xb, the weight and the bias row: the rectifier of the affine
    value of row p of xb against column q of W. -/
theorem tile_entry (xb : Vec Ideal S5000x150 .f32) (W : Vec Ideal S150x100 .f32) (b2 : Vec Ideal S1x100 .f32)
    (p : Fin 5000) (q : Fin 100) :
    Gen.k2_pay1 (F := Ideal) xb W b2 (ix2 p q)
      = leaky (affine (fun k => xb (ix2 p k)) (fun k => W (ix2 k q)) (b2 (ix2 (0 : Fin 1) q))) := by
  unfold Gen.k2_pay1
  simp only [select_apply, cmpf_apply, mulf_apply, addf_apply, broadcast_apply]
  rw [tile_dot, tile_bias]
  rfl

/-! ## The whole-array layer at an entry -/

/-- The whole-array matrix product at (r, q): the sum over the 150 columns of row r of x against column q of W. -/
theorem layer_dot (X : FVec Ideal S50000x150 .f32) (W : FVec Ideal S150x100 .f32) (r : Fin 50000) (q : Fin 100) :
    Host.dotGeneral (F := Ideal) Cert.ReferenceIdeal.dot_S50000x150_S150x100_S50000x100_1_0_0_1_n_n none X W (ix2 r q)
      = ∑ k : Fin 150, X (ix2 r k) * W (ix2 k q) :=
  Cert.LibPlainDot.dotGeneral_apply none X W r q

/-- The bias row repeated down the 50000 rows reads, at (r, q), the row's entry q. -/
theorem layer_bias (b2 : FVec Ideal S1x100 .f32) (h : S1x100.BroadcastsInDim S50000x100 ![0, 1]) (r : Fin 50000) (q : Fin 100) :
    broadcastInDim S50000x100 ![0, 1] h b2 (ix2 r q) = b2 (ix2 (0 : Fin 1) q) :=
  broadcastInDim_apply _ h b2 (ix2 r q) (ix2 (0 : Fin 1) q) fun a => by
    match a with
    | ⟨0, _⟩ => rfl
    | ⟨1, _⟩ => rfl

/-- A scalar constant spread over the array reads the constant's value at every entry. -/
theorem layer_splat (w : BitVec 32) (h : Cert.ReferenceIdeal.S_.BroadcastsInDim S50000x100 ![]) (j : S50000x100.Idx) :
    broadcastInDim S50000x100 ![] h (constant (F := Ideal) Cert.ReferenceIdeal.S_ .f32 w) j = Ideal.ofBits .f32 w := rfl

/-- Entry (r, q) of the whole-array layer: the rectifier of the affine value of row r of x against column q of W. -/
theorem layer_entry (X : FVec Ideal S50000x150 .f32) (W : FVec Ideal S150x100 .f32) (b2 : FVec Ideal S1x100 .f32)
    (r : Fin 50000) (q : Fin 100) :
    Cert.Spec.layer2 X W b2 (ix2 r q)
      = leaky (affine (fun k => X (ix2 r k)) (fun k => W (ix2 k q)) (b2 (ix2 (0 : Fin 1) q))) := by
  unfold Cert.Spec.layer2 Cert.Spec.act2 Cert.Spec.lin2
  simp only [select_apply, cmpf_apply, mulf_apply, addf_apply]
  rw [layer_dot, layer_bias, layer_splat, layer_splat]
  rfl

/-! ## From the tiles to the array -/

/-- The two zero offsets of a whole-buffer access, as the constant zero function. -/
theorem origin : (![0, 0] : Fin 2 → Nat) = fun _ => 0 := funext fun a => by fin_cases a <;> rfl

/-- Where each tile sits: at point t the rows of x and of the output are block t along the rows and block 0 along the
    columns; the weight and the bias row are always their one block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows are cut into ten tiles. -/
theorem points : cfg2.N = 10 := rfl

/-- What tile t writes back is rows 5000·t … 5000·t + 4999 of the layer function of the three input arrays: entry (p, q)
    of the tile is computed from row p of the tile of x, which is row 5000·t + p of x, and from the whole weight and
    bias row. -/
theorem flushed (V : (c : Dev nD) → (b : Ref sig .tc) → Buf (Elt Ideal) ((c : Thread nD τ).loc b)) (c : Dev nD)
    (t : Fin cfg2.N) :
    (Gen.dat2 (F := Ideal) V c).flushed 3 t
      = ((cfg2.win 3).blk t).view.read (Elt Ideal) (Cert.Spec.layer2 (V c main_v33) (V c main_arg7) (V c main_v34)) := by
  show (cfg2.win 3).cut (grid2.coords t) ((Gen.dat2 V c).after 3 t) = _
  rw [Gen.after2_3]
  unfold Gen.out2_3
  rw [View.canon_unit_zero origin]
  simp only [View.ld_unit_zero (S := S5000x150) origin, View.ld_unit_zero (S := S150x100) origin, View.ld_unit_zero (S := S1x100) origin]
  obtain ⟨e00, e01, e10, e11, e20, e21, e30, e31⟩ := block_index t
  funext j
  obtain ⟨p, q, rfl⟩ : ∃ (p : Fin 5000) (q : Fin 100), j = ix2 p q := ⟨j 0, j 1, eq_ix2 j⟩
  have hr : t.val * 5000 + p.val < 50000 := by
    have h1 : t.val < 10 := points ▸ t.isLt
    have h2 := p.isLt
    omega
  show Gen.k2_pay1 (Gen.iblk2 V c 0 t) (Gen.iblk2 V c 1 t) (Gen.iblk2 V c 2 t) (ix2 p q)
    = Cert.Spec.layer2 (V c main_v33) (V c main_arg7) (V c main_v34) (((cfg2.win 3).blk t).view.emb (ix2 p q))
  -- entry (p, q) of the output tile is entry (5000·t + p, q) of the output array
  have hemb : ((cfg2.win 3).blk t).view.emb (ix2 p q) = (ix2 (⟨t.val * 5000 + p.val, hr⟩ : Fin 50000) q : S50000x100.Idx) := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 100 + 1 * q.val = q.val; rw [e31]; omega
  -- row p of the tile of x is row 5000·t + p of x
  have hx : (fun k : Fin 150 => (Gen.iblk2 V c 0 t : Vec Ideal S5000x150 .f32) (ix2 p k))
      = fun k => (V c main_v33 : FVec Ideal S50000x150 .f32) (ix2 (⟨t.val * 5000 + p.val, hr⟩ : Fin 50000) k) := funext fun k => by
    show V c main_v33 (((cfg2.win 0).blk t).view.emb (ix2 p k)) = V c main_v33 _
    refine congrArg (V c main_v33) (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 150 + 1 * k.val = k.val; rw [e01]; omega
  -- the weight's one block is the weight
  have hw : (fun k : Fin 150 => (Gen.iblk2 V c 1 t : Vec Ideal S150x100 .f32) (ix2 k q))
      = fun k => (V c main_arg7 : FVec Ideal S150x100 .f32) (ix2 k q) := funext fun k => by
    show V c main_arg7 (((cfg2.win 1).blk t).view.emb (ix2 k q)) = V c main_arg7 _
    refine congrArg (V c main_arg7) (funext fun a => Fin.ext ?_)
    match a with
    | ⟨0, _⟩ => show win2_1.index t (0 : Fin 2) * 150 + 1 * k.val = k.val; rw [e10]; omega
    | ⟨1, _⟩ => show win2_1.index t (1 : Fin 2) * 100 + 1 * q.val = q.val; rw [e11]; omega
  -- the bias row's one block is the bias row
  have hb : (Gen.iblk2 V c 2 t : Vec Ideal S1x100 .f32) (ix2 (0 : Fin 1) q)
      = (V c main_v34 : FVec Ideal S1x100 .f32) (ix2 (0 : Fin 1) q) := by
    show V c main_v34 (((cfg2.win 2).blk t).view.emb (ix2 (0 : Fin 1) q)) = V c main_v34 _
    refine congrArg (V c main_v34) (funext fun a => Fin.ext ?_)
    match a with
    | ⟨0, _⟩ => show win2_2.index t (0 : Fin 2) * 1 + 1 * (0 : Fin 1).val = (0 : Fin 1).val; rw [e20]; omega
    | ⟨1, _⟩ => show win2_2.index t (1 : Fin 2) * 100 + 1 * q.val = q.val; rw [e21]; omega
  refine (tile_entry _ _ _ p q).trans ?_
  refine Eq.trans ?_ ((congrArg (Cert.Spec.layer2 (V c main_v33) (V c main_arg7) (V c main_v34)) hemb).trans
    (layer_entry (V c main_v33) (V c main_arg7) (V c main_v34) ⟨_, hr⟩ q)).symm
  exact congrArg leaky (congr (congr (congrArg affine hx) hw) hb)

/-- An entry of the output array lies in tile t iff, on each axis, its coordinate is in the tile's range. -/
theorem mem_tile (t : Fin cfg2.N) (i : S50000x100.Idx) :
    i ∈ ((cfg2.win 3).blk t).view.set ↔ ∀ a : Fin 2, win2_3.index t a * S5000x100.size a ≤ (i a).val
      ∧ (i a).val < win2_3.index t a * S5000x100.size a + S5000x100.size a := by
  show i ∈ ((View.whole main_v35).slice (win2_3.rect t)).set ↔ _
  rw [View.set_slice_whole, Rect.mem_set_unit]
  exact Iff.rfl

/-- Every entry (r, q) of the output array lies in a tile that is written back: tile r / 5000. -/
theorem cover (i : S50000x100.Idx) :
    ∃ t : Fin cfg2.N, (cfg2.win 3).flush t = true ∧ i ∈ ((cfg2.win 3).blk t).view.set := by
  have hi0 : (i 0).val < 50000 := (i 0).isLt
  have hi1 : (i 1).val < 100 := (i 1).isLt
  have ht : (i 0).val / 5000 < cfg2.N := by rw [points]; omega
  obtain ⟨-, -, -, -, -, -, e30, e31⟩ := block_index ⟨(i 0).val / 5000, ht⟩
  refine ⟨⟨(i 0).val / 5000, ht⟩, Gen.flush2_3 _, ?_⟩
  rw [mem_tile]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 100 ≤ (i 1).val
      ∧ (i 1).val < win2_3.index ⟨(i 0).val / 5000, ht⟩ (1 : Fin 2) * 100 + 100
    rw [e31]
    omega

/-- The array the region leaves is the layer function of the three arrays it found: each tile writes its rows of
    that function, and the tiles cover the array. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat2 (F := Ideal) V c).arrAt 3 Cert.KernelIdeal.cfg2.N = Cert.Spec.layer2 (V c Cert.KernelIdeal.main_v33) (V c Cert.KernelIdeal.main_arg7) (V c Cert.KernelIdeal.main_v34) :=
  (Gen.dat2 (F := Ideal) V c).arrAt_eq_of_cover 3 _ (fun t _ => flushed V c t) cover

end Cert.KernelIdeal.Region2

end
-- ==== Proof.Region3.lean ====
/-
  Region 3 — the network's fourth layer on row tiles — leaves in its output array the reference's layer 4 applied
  to the region's three input arrays.

  The layer sends a feature row xr (100 entries) to the softmax of the affine row y = xr · W + b (50 entries):
  exp (y(q) − max y) / Σₖ exp (y(k) − max y), the maximum folded from −∞. Every output row depends on the same row of
  the features only, and on all of W and b. The region cuts the 50000 rows into ten tiles of 5000 rows; at grid point t
  it loads rows 5000·t … 5000·t + 4999 of the features, the whole weight and the whole bias row, and stores one value:
  the tile times the weight accumulated from zero (the casts to bf16 are the identity at the ideal values) plus the bias
  row repeated down the rows, then the softmax along each row.

  The proof reads both sides at an entry as that ONE row function: the stored value at (p, q) is the row function of
  the tile's row p, the reference's layer at (r, q) the row function of the array's row r. Row p of tile t is row
  5000·t + p of the array, so what point t writes back is tile t of the layer of the whole arrays; the ten tiles cover
  the output array, every point writes back, and so the array ends holding the layer.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Region3

open Idealize.ShloMosaic Idealize.ShloMosaic.TcCoe Idealize.SL.Sem Idealize.ShloMosaic.ValueIdx
open Cert.KernelIdeal Cert.KernelIdeal.Gen

/-! ## One row of the layer

Every output row depends on the same row of the features only: with `xr` that row, the layer's row is the
softmax of the affine row `xr · W + b`. -/

/-- Entry `q` of the affine row `xr · W + b`, the bias a `1 × b` row. -/
def affineRow {a b : ℕ} (xr : Fin a → Ideal .f32) (W : FVec Ideal ⟨2, ![a, b]⟩ .f32) (bias : FVec Ideal ⟨2, ![1, b]⟩ .f32)
    (q : Fin b) : Ideal .f32 :=
  (∑ k : Fin a, xr k * W (ix2 k q)) + bias (ix2 (0 : Fin 1) q)

/-- The maximum of a row, folded from −∞ and taken once more against −∞. -/
def rowMax {b : ℕ} (y : Fin b → Ideal .f32) : Ideal .f32 :=
  max (Ideal.ofBits .f32 0xFF800000#32) ((Finset.univ : Finset (Fin b)).fold max (Ideal.ofBits .f32 0xFF800000#32) y)

/-- Entry `q` of the softmax of a row: the exponential of the entry shifted by the row's maximum, over the sum of the
    exponentials of the shifted row. -/
def softmaxRow {b : ℕ} (y : Fin b → Ideal .f32) (q : Fin b) : Ideal .f32 :=
  Ideal.div (Ideal.exp (y q - rowMax y)) (∑ k : Fin b, Ideal.exp (y k - rowMax y))

/-! ## Reductions along a row, read at the row -/

/-- The index of row `p` with the column `k` inserted is `(p, k)`. -/
theorem lift_row {n b : ℕ} (h : (⟨2, ![n, b]⟩ : Shape).Reduces [1] ⟨1, ![n]⟩) (p : Fin n) (k : Fin b) :
    h.lift (ix1 p) k = ix2 p k :=
  funext fun c => Fin.ext (by
    match c with
    | ⟨0, _⟩ => rfl
    | ⟨1, _⟩ => rfl)

/-- A sum along the rows of a tile, at row `p`: the sum of the row's entries. -/
theorem tile_rowSum {n b : ℕ} (src : FVec Ideal ⟨2, ![n, b]⟩ .f32) (h : (⟨2, ![n, b]⟩ : Shape).Reduces [1] ⟨1, ![n]⟩)
    (hφ : FKind.Formats .f32) (hacc : (0x00000000#32 : BitVec 32) = FKind.add.neutral .f32 hφ) (p : Fin n) :
    multiReduction (F := Ideal) .add [1] ⟨1, ![n]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A maximum along the rows of a tile, at row `p`: the fold of `max` over the row's entries from −∞. -/
theorem tile_rowMax {n b : ℕ} (src : FVec Ideal ⟨2, ![n, b]⟩ .f32) (h : (⟨2, ![n, b]⟩ : Shape).Reduces [1] ⟨1, ![n]⟩)
    (hφ : FKind.Formats .f32) (hacc : (0xFF800000#32 : BitVec 32) = FKind.maximumf.neutral .f32 hφ) (p : Fin n) :
    multiReduction (F := Ideal) .maximumf [1] ⟨1, ![n]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg (fun f => (Finset.univ : Finset (Fin b)).fold max (Ideal.ofBits .f32 0xFF800000#32) f)
      (funext fun k => congrArg src (lift_row h p k)))

/-- The host's maximum along the rows of an array from the scalar −∞, at row `r`. -/
theorem host_rowMax {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduce (FloatOps.maximumf (F := Ideal)) y (constant (F := Ideal) ⟨0, ![]⟩ .f32 0xFF800000#32) h' hu (ix1 r)
      = (Finset.univ : Finset (Fin b)).fold max (Ideal.ofBits .f32 0xFF800000#32) (fun k => y (ix2 r k)) :=
  (Host.reduce_eq_fold_single (FloatOps.maximumf (F := Ideal)) y _ h' h hu (ix1 r)).trans
    (congrArg (fun f => (Finset.univ : Finset (Fin b)).fold max (Ideal.ofBits .f32 0xFF800000#32) f)
      (funext fun k => congrArg y (lift_row h r k)))

/-- The host's sum along the rows of an array from the scalar zero, at row `r`. -/
theorem host_rowSum {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduceAdd (F := Ideal) y (constant (F := Ideal) ⟨0, ![]⟩ .f32 0x00000000#32) h' hu (ix1 r)
      = ∑ k : Fin b, y (ix2 r k) := by
  refine (hostReduceAdd_apply y _ h' hu (ix1 r)).trans ?_
  refine (Ideal.hostReduceAdd_single h' h y _ (ix1 r)).trans ?_
  rw [constant_apply, Ideal.ofBits_zero_f32, zero_add]
  exact Finset.sum_congr rfl fun k _ => congrArg y (lift_row h r k)

/-! ## The exponential, read at an index -/

section Pointwise
variable {s : Shape}

/-- The body's exponential at an index is the exponential of the element, -/
theorem exp_apply (v : FVec Ideal s .f32) (i : s.Idx) : exp v i = Ideal.exp (v i) := rfl
/-- and the host's exponential is the same function of the element. -/
theorem hostExp_apply (v : FVec Ideal s .f32) (i : s.Idx) : Host.exp (F := Ideal) v i = Ideal.exp (v i) := rfl

end Pointwise

/-! ## The host's broadcasts, read at an index -/

section HostLayout
variable {α : Type}

/-- A `1 × b` row repeated down `n` rows reads, at `(r, q)`, the row's entry `q`. -/
theorem hostRow_apply {n b : ℕ} (v : (⟨2, ![1, b]⟩ : Shape).Idx → α)
    (h : (⟨2, ![1, b]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

/-- An `n × 1` column repeated along `b` columns reads, at `(r, q)`, the column's entry `r`. -/
theorem hostCol_apply {n b : ℕ} (v : (⟨2, ![n, 1]⟩ : Shape).Idx → α)
    (h : (⟨2, ![n, 1]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 r (0 : Fin 1)) := by
  refine broadcastInDim_apply _ h v (ix2 r q) (ix2 r (0 : Fin 1)) fun ax => ?_
  match ax with
  | ⟨0, _⟩ =>
    show r.val = if n = 1 then 0 else r.val
    split
    · have := r.isLt; omega
    · rfl
  | ⟨1, _⟩ => rfl

/-- A vector of length `n` set as an `n × 1` column reads, at `(r, u)`, the vector's entry `r`. -/
theorem hostVecCol_apply {n : ℕ} (v : (⟨1, ![n]⟩ : Shape).Idx → α)
    (h : (⟨1, ![n]⟩ : Shape).BroadcastsInDim ⟨2, ![n, 1]⟩ (![0] : Fin 1 → Fin (⟨2, ![n, 1]⟩ : Shape).rank))
    (r : Fin n) (u : Fin 1) : broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

end HostLayout

/-! ## The body's arithmetic on one tile of 5000 rows -/

/-- The tile's affine map: the tile times the weight, accumulated from zero, plus the bias row repeated down the rows. -/
def tileLin (x : Vec Ideal S5000x100 .f32) (W : Vec Ideal S100x50 .f32) (b2 : Vec Ideal S1x50 .f32) : FVec Ideal S5000x50 .f32 :=
  addf (F := Ideal)
    (matmul dot_S5000x100_S100x50_S5000x50_1_0_0_1_n_n none
      (truncf .bf16 (shapeCast S5000x100 x shapeCasts_S5000x100_S5000x100) bitsLt_bf16_f32) (truncf .bf16 W bitsLt_bf16_f32)
      (constant S5000x50 .f32 0x00000000#32))
    (broadcastTo S5000x50 (shapeCast S1x50 b2 shapeCasts_S1x50_S1x50) broadcasts_S1x50_S5000x50)

/-- The exponentials of the tile's rows shifted by their maxima. -/
def tileExpShift (y : FVec Ideal S5000x50 .f32) : FVec Ideal S5000x50 .f32 :=
  exp (subf y (broadcastTo S5000x50 (shapeCast S5000x1
    (maximumf (broadcast S5000 (Scalar.ofBits .f32 0xFF800000#32))
      (multiReduction .maximumf [1] S5000 y 0xFF800000#32 reduces_S5000x50_S5000 (.inl rfl) rfl))
    shapeCasts_S5000_S5000x1) broadcasts_S5000x1_S5000x50))

/-- The softmax along each row of the tile. -/
def tileAct (y : FVec Ideal S5000x50 .f32) : FVec Ideal S5000x50 .f32 :=
  divf (tileExpShift y) (broadcastTo S5000x50 (shapeCast S5000x1
    (multiReduction .add [1] S5000 (tileExpShift y) 0x00000000#32 reduces_S5000x50_S5000 (.inl rfl) rfl)
    shapeCasts_S5000_S5000x1) broadcasts_S5000x1_S5000x50)

/-- The body's stored value is the softmax of the affine map of its three loaded blocks. -/
theorem pay_eq (x : Vec Ideal S5000x100 .f32) (W : Vec Ideal S100x50 .f32) (b2 : Vec Ideal S1x50 .f32) :
    k3_pay1 x W b2 = tileAct (tileLin x W b2) := rfl

/-- The tile's affine map at `(p, q)`: the affine row of the tile's row `p`. The casts to bf16 change nothing at the
    ideal values, and the product accumulated from zero is the sum over the contraction index. -/
theorem tileLin_apply (x : Vec Ideal S5000x100 .f32) (W : Vec Ideal S100x50 .f32) (b2 : Vec Ideal S1x50 .f32)
    (p : Fin 5000) (q : Fin 50) : tileLin x W b2 (ix2 p q) = affineRow (fun k => x (ix2 p k)) W b2 q := by
  unfold tileLin affineRow
  rw [addf_apply, shapeCast_self, shapeCast_self, broadcastTo_1b_ab_apply]
  refine congrArg (· + b2 (ix2 (0 : Fin 1) q)) ?_
  exact (Ideal.matmul_constant_zero_apply dot_S5000x100_S100x50_S5000x50_1_0_0_1_n_n none _ _ (ix2 p q)).trans
    (Cert.LibPlainDot.sum_contr (n := 5000) (a := 100) (b := 50) x W p q)

/-- The exponentiated shifted tile at `(p, q)`: the exponential of the entry minus the maximum of row `p`. -/
theorem tileExpShift_apply (y : FVec Ideal S5000x50 .f32) (p : Fin 5000) (q : Fin 50) :
    tileExpShift y (ix2 p q) = Ideal.exp (y (ix2 p q) - rowMax (fun k => y (ix2 p k))) := by
  unfold tileExpShift rowMax
  rw [exp_apply, subf_apply, Cert.Lib.KeepDims.broadcastTo_a1_ab_apply, Cert.Lib.KeepDims.shapeCast_a_a1_apply,
    maximumf_apply, broadcast_apply]
  exact congrArg (fun m => Ideal.exp (y (ix2 p q) - max (Ideal.ofBits .f32 0xFF800000#32) m)) (tile_rowMax y _ _ _ p)

/-- The tile's softmax at `(p, q)`: the softmax of row `p`, at `q`. -/
theorem tileAct_apply (y : FVec Ideal S5000x50 .f32) (p : Fin 5000) (q : Fin 50) :
    tileAct y (ix2 p q) = softmaxRow (fun k => y (ix2 p k)) q := by
  unfold tileAct softmaxRow
  rw [divf_apply, Cert.Lib.KeepDims.broadcastTo_a1_ab_apply, Cert.Lib.KeepDims.shapeCast_a_a1_apply, tileExpShift_apply]
  refine congrArg (fun s => Ideal.div (Ideal.exp (y (ix2 p q) - rowMax fun k => y (ix2 p k))) s) ?_
  refine (tile_rowSum (tileExpShift y) _ _ _ p).trans (Finset.sum_congr rfl fun k _ => ?_)
  rw [tileExpShift_apply]

/-- THE BODY'S STORED VALUE at `(p, q)`: the softmax of the affine row of the feature tile's row `p`. -/
theorem pay_apply (x : Vec Ideal S5000x100 .f32) (W : Vec Ideal S100x50 .f32) (b2 : Vec Ideal S1x50 .f32)
    (p : Fin 5000) (q : Fin 50) :
    k3_pay1 x W b2 (ix2 p q) = softmaxRow (affineRow (fun k => x (ix2 p k)) W b2) q := by
  rw [pay_eq, tileAct_apply]
  exact congrArg (fun f => softmaxRow f q) (funext fun k => tileLin_apply x W b2 p k)

/-! ## The reference's layer on the whole array of 50000 rows -/

/-- The whole array's rows reduce to a vector of its row count. -/
theorem reduces_rows : (⟨2, ![50000, 50]⟩ : Shape).Reduces [1] ⟨1, ![50000]⟩ := by decide

/-- The reference's affine map at `(r, q)`: the affine row of the features' row `r`. -/
theorem lin_apply (X : FVec Ideal S50000x100 .f32) (W : FVec Ideal S100x50 .f32) (b2 : FVec Ideal S1x50 .f32)
    (r : Fin 50000) (q : Fin 50) : Cert.Spec.lin3 X W b2 (ix2 r q) = affineRow (fun k => X (ix2 r k)) W b2 q := by
  unfold Cert.Spec.lin3 affineRow
  rw [addf_apply, hostRow_apply]
  refine congrArg (· + b2 (ix2 (0 : Fin 1) q)) ?_
  exact Cert.LibPlainDot.dotGeneral_apply (n := 50000) (a := 100) (b := 50) none X W r q

/-- The reference's exponentiated shifted array at `(r, q)`: the exponential of the entry minus the maximum of row `r`. -/
theorem expShift_apply (y : FVec Ideal S50000x50 .f32) (r : Fin 50000) (q : Fin 50) :
    Cert.Spec.expShift3 y (ix2 r q) = Ideal.exp (y (ix2 r q) - rowMax (fun k => y (ix2 r k))) := by
  unfold Cert.Spec.expShift3 rowMax
  rw [hostExp_apply, subf_apply, hostCol_apply, hostVecCol_apply, maximumf_apply, broadcastInDim_scalar_apply,
    constant_apply]
  exact congrArg (fun m => Ideal.exp (y (ix2 r q) - max (Ideal.ofBits .f32 0xFF800000#32) m))
    (host_rowMax y _ reduces_rows _ r)

/-- The reference's softmax at `(r, q)`: the softmax of row `r`, at `q`. -/
theorem act_apply (y : FVec Ideal S50000x50 .f32) (r : Fin 50000) (q : Fin 50) :
    Cert.Spec.act3 y (ix2 r q) = softmaxRow (fun k => y (ix2 r k)) q := by
  unfold Cert.Spec.act3 softmaxRow
  rw [hostDivf_apply, hostCol_apply, hostVecCol_apply, expShift_apply]
  refine congrArg (fun s => Ideal.div (Ideal.exp (y (ix2 r q) - rowMax fun k => y (ix2 r k))) s) ?_
  refine (host_rowSum (Cert.Spec.expShift3 y) _ reduces_rows _ r).trans (Finset.sum_congr rfl fun k _ => ?_)
  rw [expShift_apply]

/-- THE REFERENCE'S LAYER at `(r, q)`: the softmax of the affine row of the features' row `r`. -/
theorem layer_apply (X : FVec Ideal S50000x100 .f32) (W : FVec Ideal S100x50 .f32) (b2 : FVec Ideal S1x50 .f32)
    (r : Fin 50000) (q : Fin 50) :
    Cert.Spec.layer3 X W b2 (ix2 r q) = softmaxRow (affineRow (fun k => X (ix2 r k)) W b2) q := by
  unfold Cert.Spec.layer3
  rw [act_apply]
  exact congrArg (fun f => softmaxRow f q) (funext fun k => lin_apply X W b2 r k)

/-- The body's stored value and the reference's layer agree at an entry whose feature rows agree, the weight and the
    bias row being the same arrays: both are the one row function of that row. -/
theorem pay_eq_layer (x : Vec Ideal S5000x100 .f32) (w : Vec Ideal S100x50 .f32) (b : Vec Ideal S1x50 .f32)
    (X : FVec Ideal S50000x100 .f32) (W : FVec Ideal S100x50 .f32) (B : FVec Ideal S1x50 .f32)
    (p : Fin 5000) (r : Fin 50000) (q : Fin 50)
    (hx : ∀ k : Fin 100, x (ix2 p k) = X (ix2 r k)) (hw : w = W) (hb : b = B) :
    k3_pay1 x w b (ix2 p q) = Cert.Spec.layer3 X W B (ix2 r q) := by
  subst hw hb
  rw [pay_apply, layer_apply]
  exact congrArg (fun f => softmaxRow (affineRow f w b) q) (funext hx)

/-! ## From the tiles to the array

The grid has ten points; at point `t` the features' and the output's blocks are rows `5000·t … 5000·t + 4999`, the
weight's and the bias row's blocks the whole arrays. So what point `t` writes back is rows `5000·t …` of the layer
applied to the arrays as the region finds them, and the ten tiles cover the output array. -/

section Array

variable (V : (c : Dev nD) → (b : Ref sig .tc) → Buf (Elt Ideal) ((c : Thread nD τ).loc b))

/-- A whole-buffer access starts at the zero offsets. -/
theorem zero_offsets : (![0, 0] : Fin 2 → Nat) = fun _ => 0 := funext fun a => by fin_cases a <;> rfl

/-- The printed index maps over the grid: the features' and the output's block index at point `t` is `(t, 0)`, the
    weight's and the bias row's `(0, 0)`; and there are ten points. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- WHAT POINT `t` WRITES BACK is tile `t` of the layer of the arrays as the region finds them. -/
theorem flushed_eq (c : Dev nD) (t : Fin cfg3.N) :
    (Gen.dat3 (F := Ideal) V c).flushed 3 t
      = ((cfg3.win 3).blk t).view.read (Elt Ideal) (Cert.Spec.layer3 (V c main_v45) (V c main_arg9) (V c main_v46)) := by
  show (cfg3.win 3).cut (grid3.coords t) ((Gen.dat3 V c).after 3 t) = _
  rw [Gen.after3_3]
  unfold Gen.out3_3
  rw [View.canon_unit_zero zero_offsets]
  simp only [View.ld_unit_zero (S := S5000x100) zero_offsets, View.ld_unit_zero (S := S100x50) zero_offsets,
    View.ld_unit_zero (S := S1x50) zero_offsets]
  obtain ⟨e00, e01, e10, e11, e20, e21, e30, e31, ht⟩ := block_indices t
  funext j
  obtain ⟨p, q, rfl⟩ : ∃ (p : Fin 5000) (q : Fin 50), j = ix2 p q := ⟨j 0, j 1, eq_ix2 j⟩
  have hp : p.val < 5000 := p.isLt
  have hrow : t.val * 5000 + p.val < 50000 := by omega
  -- the entry's place in the output array: row 5000·t + p, column q
  have hplace : ((cfg3.win 3).blk t).view.emb (ix2 p q) = ix2 (⟨t.val * 5000 + p.val, hrow⟩ : Fin 50000) q := by
    funext a; apply Fin.ext
    match a with
    | ⟨0, _⟩ => show win3_3.index t (0 : Fin 2) * 5000 + 1 * p.val = t.val * 5000 + p.val; rw [e30]; omega
    | ⟨1, _⟩ => show win3_3.index t (1 : Fin 2) * 50 + 1 * q.val = q.val; rw [e31]; omega
  show k3_pay1 (Gen.iblk3 V c 0 t) (Gen.iblk3 V c 1 t) (Gen.iblk3 V c 2 t) (ix2 p q)
    = Cert.Spec.layer3 (V c main_v45) (V c main_arg9) (V c main_v46) (((cfg3.win 3).blk t).view.emb (ix2 p q))
  refine (pay_eq_layer _ _ _ (V c main_v45) (V c main_arg9) (V c main_v46) p ⟨t.val * 5000 + p.val, hrow⟩ q
    (fun k => ?_) ?_ ?_).trans (congrArg (Cert.Spec.layer3 (V c main_v45) (V c main_arg9) (V c main_v46)) hplace.symm)
  · -- the features' tile: row p of the tile is row 5000·t + p of the array
    show V c main_v45 (((cfg3.win 0).blk t).view.emb (ix2 p k)) = V c main_v45 (ix2 ⟨t.val * 5000 + p.val, hrow⟩ k)
    refine congrArg (V c main_v45) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 100 + 1 * k.val = k.val; rw [e01]; omega
  · -- the weight's block is the whole weight
    funext i
    show V c main_arg9 (((cfg3.win 1).blk t).view.emb i) = V c main_arg9 i
    refine congrArg (V c main_arg9) (funext fun a => Fin.ext ?_)
    match a with
    | ⟨0, _⟩ => show win3_1.index t (0 : Fin 2) * 100 + 1 * (i 0).val = (i 0).val; rw [e10]; omega
    | ⟨1, _⟩ => show win3_1.index t (1 : Fin 2) * 50 + 1 * (i 1).val = (i 1).val; rw [e11]; omega
  · -- the bias row's block is the whole row
    funext i
    show V c main_v46 (((cfg3.win 2).blk t).view.emb i) = V c main_v46 i
    refine congrArg (V c main_v46) (funext fun a => Fin.ext ?_)
    match a with
    | ⟨0, _⟩ => show win3_2.index t (0 : Fin 2) * 1 + 1 * (i 0).val = (i 0).val; rw [e20]; omega
    | ⟨1, _⟩ => show win3_2.index t (1 : Fin 2) * 50 + 1 * (i 1).val = (i 1).val; rw [e21]; omega

/-- An index of the output array is in point `t`'s tile iff each coordinate is in the tile's range on its axis. -/
theorem mem_tile (t : Fin cfg3.N) (i : S50000x50.Idx) :
    i ∈ ((cfg3.win 3).blk t).view.set
      ↔ ∀ a : Fin 2, win3_3.index t a * S5000x50.size a ≤ (i a).val
          ∧ (i a).val < win3_3.index t a * S5000x50.size a + S5000x50.size a := by
  show i ∈ ((View.whole main_v47).slice (win3_3.rect t)).set ↔ _
  rw [View.set_slice_whole, Rect.mem_set_unit]
  exact Iff.rfl

/-- THE TILES COVER THE ARRAY: row `r` lies in the tile of point `r / 5000`, and every point writes back. -/
theorem cover (i : S50000x50.Idx) :
    ∃ t : Fin cfg3.N, (cfg3.win 3).flush t = true ∧ i ∈ ((cfg3.win 3).blk t).view.set := by
  have hi0 : (i 0).val < 50000 := (i 0).isLt
  have hi1 : (i 1).val < 50 := (i 1).isLt
  have hN : grid3.N = 10 := Gen.N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, e30, e31, -⟩ := block_indices t
  refine ⟨t, Gen.flush3_3 t, ?_⟩
  rw [mem_tile]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 50 ≤ (i 1).val ∧ (i 1).val < win3_3.index t (1 : Fin 2) * 50 + 50
    rw [e31]; omega

end Array

/-- THE ARRAY REGION 3 LEAVES: the layer of the reference — the softmax along each row of the features times the
    weight plus the bias row — applied to the region's three input arrays as the region finds them. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat3 (F := Ideal) V c).arrAt 3 Cert.KernelIdeal.cfg3.N = Cert.Spec.layer3 (V c Cert.KernelIdeal.main_v45) (V c Cert.KernelIdeal.main_arg9) (V c Cert.KernelIdeal.main_v46) :=
  (Gen.dat3 (F := Ideal) V c).arrAt_eq_of_cover 3 (Cert.Spec.layer3 (V c main_v45) (V c main_arg9) (V c main_v46))
    (fun t _ => flushed_eq V c t) cover

end Cert.KernelIdeal.Region3

end
-- ==== Proof.Region4.lean ====
/-
  Layer 5 of the network, as the tiled kernel region computes it, is the whole-array layer function.

  The layer maps a 50000 × 50 array x, a 50 × 25 weight W and a 1 × 25 bias row b to the 50000 × 25 array

      out(r, q) = leaky (∑ k < 50, x(r, k) · W(k, q) + b(0, q)),     leaky y = y if y ≥ 0, else 0.01 · y,

  so row r of the result depends on row r of x only. The region cuts the 50000 rows into 10 tiles of 5000
  consecutive rows: at tile t it holds rows 5000·t … 5000·t + 4999 of x, all of W and all of b, computes the
  same expression on the tile (a matrix product into a zero accumulator after casts to a narrower format, which
  change nothing at the ideal values, then the bias row repeated down the tile's rows, then the rectifier), and
  writes the result to the same rows of the output. Entry (p, q) of tile t is therefore out(5000·t + p, q), and
  the ten tiles cover every row, so the array the region leaves is the layer function of its three inputs.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators
open Idealize.ShloMosaic Idealize.ShloMosaic.TcCoe Idealize.SL.Sem
open Idealize.ShloMosaic.ValueIdx

namespace Cert.KernelIdeal.Region4

open Cert.KernelIdeal

/-! ## One entry of the layer -/

/-- The leaky rectifier on one value: y where y ≥ 0, else the slope (the f32 nearest 0.01) times y. -/
def leaky (y : Ideal .f32) : Ideal .f32 :=
  Scalar.select (FloatOps.cmpf .oge y (Ideal.ofBits .f32 0x00000000#32)) y (Ideal.ofBits .f32 0x3C23D70A#32 * y)

/-- The affine value of one entry: a row of x against a column of W, plus the bias of that column. -/
def affine (xr wc : Fin 50 → Ideal .f32) (b : Ideal .f32) : Ideal .f32 := (∑ k : Fin 50, xr k * wc k) + b

/-! ## The tile's computation at an entry -/

/-- The tile's matrix product at (p, q): the casts to the narrower format are the identity at the ideal values and the
    accumulator starts at zero, so it is the sum over the 50 columns of row p of the tile against column q of W. -/
theorem tile_dot (xb : FVec Ideal S5000x50 .f32) (W : FVec Ideal S50x25 .f32)
    (hc : S5000x50.ShapeCasts S5000x50) (ht : FTy.bf16.bits < FTy.f32.bits) (p : Fin 5000) (q : Fin 25) :
    matmul (F := Ideal) dot_S5000x50_S50x25_S5000x25_1_0_0_1_n_n none
      (truncf .bf16 (shapeCast S5000x50 xb hc) ht) (truncf .bf16 W ht) (constant (F := Ideal) S5000x25 .f32 0x00000000#32) (ix2 p q)
      = ∑ k : Fin 50, xb (ix2 p k) * W (ix2 k q) := by
  rw [shapeCast_self]
  refine (Ideal.matmul_constant_zero_apply dot_S5000x50_S50x25_S5000x25_1_0_0_1_n_n none _ _ (ix2 p q)).trans ?_
  exact Cert.LibPlainDot.sum_contr xb W p q

/-- The bias row repeated down the tile's 5000 rows reads, at (p, q), the row's entry q. -/
theorem tile_bias (b2 : FVec Ideal S1x25 .f32) (hc : S1x25.ShapeCasts S1x25) (hb : S1x25.Broadcasts S5000x25)
    (p : Fin 5000) (q : Fin 25) :
    broadcastTo S5000x25 (shapeCast S1x25 b2 hc) hb (ix2 p q) = b2 (ix2 (0 : Fin 1) q) := by
  rw [shapeCast_self]
  exact broadcastTo_1b_ab_apply b2 _ p q

/-- Entry (p, q) of what a tile computes from its 5000 rows xb, the weight and the bias row: the rectifier of the affine
    value of row p of xb against column q of W. -/
theorem tile_entry (xb : Vec Ideal S5000x50 .f32) (W : Vec Ideal S50x25 .f32) (b2 : Vec Ideal S1x25 .f32)
    (p : Fin 5000) (q : Fin 25) :
    Gen.k4_pay1 (F := Ideal) xb W b2 (ix2 p q)
      = leaky (affine (fun k => xb (ix2 p k)) (fun k => W (ix2 k q)) (b2 (ix2 (0 : Fin 1) q))) := by
  unfold Gen.k4_pay1
  simp only [select_apply, cmpf_apply, mulf_apply, addf_apply, broadcast_apply]
  rw [tile_dot, tile_bias]
  rfl

/-! ## The whole-array layer at an entry -/

/-- The whole-array matrix product at (r, q): the sum over the 50 columns of row r of x against column q of W. -/
theorem layer_dot (X : FVec Ideal S50000x50 .f32) (W : FVec Ideal S50x25 .f32) (r : Fin 50000) (q : Fin 25) :
    Host.dotGeneral (F := Ideal) Cert.ReferenceIdeal.dot_S50000x50_S50x25_S50000x25_1_0_0_1_n_n none X W (ix2 r q)
      = ∑ k : Fin 50, X (ix2 r k) * W (ix2 k q) :=
  Cert.LibPlainDot.dotGeneral_apply none X W r q

/-- The bias row repeated down the 50000 rows reads, at (r, q), the row's entry q. -/
theorem layer_bias (b2 : FVec Ideal S1x25 .f32) (h : S1x25.BroadcastsInDim S50000x25 ![0, 1]) (r : Fin 50000) (q : Fin 25) :
    broadcastInDim S50000x25 ![0, 1] h b2 (ix2 r q) = b2 (ix2 (0 : Fin 1) q) :=
  broadcastInDim_apply _ h b2 (ix2 r q) (ix2 (0 : Fin 1) q) fun a => by
    match a with
    | ⟨0, _⟩ => rfl
    | ⟨1, _⟩ => rfl

/-- A scalar constant spread over the array reads the constant's value at every entry. -/
theorem layer_splat (w : BitVec 32) (h : Cert.ReferenceIdeal.S_.BroadcastsInDim S50000x25 ![]) (j : S50000x25.Idx) :
    broadcastInDim S50000x25 ![] h (constant (F := Ideal) Cert.ReferenceIdeal.S_ .f32 w) j = Ideal.ofBits .f32 w := rfl

/-- Entry (r, q) of the whole-array layer: the rectifier of the affine value of row r of x against column q of W. -/
theorem layer_entry (X : FVec Ideal S50000x50 .f32) (W : FVec Ideal S50x25 .f32) (b2 : FVec Ideal S1x25 .f32)
    (r : Fin 50000) (q : Fin 25) :
    Cert.Spec.layer4 X W b2 (ix2 r q)
      = leaky (affine (fun k => X (ix2 r k)) (fun k => W (ix2 k q)) (b2 (ix2 (0 : Fin 1) q))) := by
  unfold Cert.Spec.layer4 Cert.Spec.act4 Cert.Spec.lin4
  simp only [select_apply, cmpf_apply, mulf_apply, addf_apply]
  rw [layer_dot, layer_bias, layer_splat, layer_splat]
  rfl

/-! ## From the tiles to the array -/

/-- The two zero offsets of a whole-buffer access, as the constant zero function. -/
theorem origin : (![0, 0] : Fin 2 → Nat) = fun _ => 0 := funext fun a => by fin_cases a <;> rfl

/-- Where each tile sits: at point t the rows of x and of the output are block t along the rows and block 0 along the
    columns; the weight and the bias row are always their one block (0, 0). -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The rows are cut into ten tiles. -/
theorem points : cfg4.N = 10 := rfl

/-- What tile t writes back is rows 5000·t … 5000·t + 4999 of the layer function of the three input arrays: entry (p, q)
    of the tile is computed from row p of the tile of x, which is row 5000·t + p of x, and from the whole weight and
    bias row. -/
theorem flushed (V : (c : Dev nD) → (b : Ref sig .tc) → Buf (Elt Ideal) ((c : Thread nD τ).loc b)) (c : Dev nD)
    (t : Fin cfg4.N) :
    (Gen.dat4 (F := Ideal) V c).flushed 3 t
      = ((cfg4.win 3).blk t).view.read (Elt Ideal) (Cert.Spec.layer4 (V c main_v57) (V c main_arg11) (V c main_v58)) := by
  show (cfg4.win 3).cut (grid4.coords t) ((Gen.dat4 V c).after 3 t) = _
  rw [Gen.after4_3]
  unfold Gen.out4_3
  rw [View.canon_unit_zero origin]
  simp only [View.ld_unit_zero (S := S5000x50) origin, View.ld_unit_zero (S := S50x25) origin, View.ld_unit_zero (S := S1x25) origin]
  obtain ⟨e00, e01, e10, e11, e20, e21, e30, e31⟩ := block_index t
  funext j
  obtain ⟨p, q, rfl⟩ : ∃ (p : Fin 5000) (q : Fin 25), j = ix2 p q := ⟨j 0, j 1, eq_ix2 j⟩
  have hr : t.val * 5000 + p.val < 50000 := by
    have h1 : t.val < 10 := points ▸ t.isLt
    have h2 := p.isLt
    omega
  show Gen.k4_pay1 (Gen.iblk4 V c 0 t) (Gen.iblk4 V c 1 t) (Gen.iblk4 V c 2 t) (ix2 p q)
    = Cert.Spec.layer4 (V c main_v57) (V c main_arg11) (V c main_v58) (((cfg4.win 3).blk t).view.emb (ix2 p q))
  -- entry (p, q) of the output tile is entry (5000·t + p, q) of the output array
  have hemb : ((cfg4.win 3).blk t).view.emb (ix2 p q) = (ix2 (⟨t.val * 5000 + p.val, hr⟩ : Fin 50000) q : S50000x25.Idx) := by
    funext a; apply Fin.ext
    match a with
    | ⟨0, _⟩ => show win4_3.index t (0 : Fin 2) * 5000 + 1 * p.val = t.val * 5000 + p.val; rw [e30]; omega
    | ⟨1, _⟩ => show win4_3.index t (1 : Fin 2) * 25 + 1 * q.val = q.val; rw [e31]; omega
  -- row p of the tile of x is row 5000·t + p of x
  have hx : (fun k : Fin 50 => (Gen.iblk4 V c 0 t : Vec Ideal S5000x50 .f32) (ix2 p k))
      = fun k => (V c main_v57 : FVec Ideal S50000x50 .f32) (ix2 (⟨t.val * 5000 + p.val, hr⟩ : Fin 50000) k) := funext fun k => by
    show V c main_v57 (((cfg4.win 0).blk t).view.emb (ix2 p k)) = V c main_v57 _
    refine congrArg (V c main_v57) (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 50 + 1 * k.val = k.val; rw [e01]; omega
  -- the weight's one block is the weight
  have hw : (fun k : Fin 50 => (Gen.iblk4 V c 1 t : Vec Ideal S50x25 .f32) (ix2 k q))
      = fun k => (V c main_arg11 : FVec Ideal S50x25 .f32) (ix2 k q) := funext fun k => by
    show V c main_arg11 (((cfg4.win 1).blk t).view.emb (ix2 k q)) = V c main_arg11 _
    refine congrArg (V c main_arg11) (funext fun a => Fin.ext ?_)
    match a with
    | ⟨0, _⟩ => show win4_1.index t (0 : Fin 2) * 50 + 1 * k.val = k.val; rw [e10]; omega
    | ⟨1, _⟩ => show win4_1.index t (1 : Fin 2) * 25 + 1 * q.val = q.val; rw [e11]; omega
  -- the bias row's one block is the bias row
  have hb : (Gen.iblk4 V c 2 t : Vec Ideal S1x25 .f32) (ix2 (0 : Fin 1) q)
      = (V c main_v58 : FVec Ideal S1x25 .f32) (ix2 (0 : Fin 1) q) := by
    show V c main_v58 (((cfg4.win 2).blk t).view.emb (ix2 (0 : Fin 1) q)) = V c main_v58 _
    refine congrArg (V c main_v58) (funext fun a => Fin.ext ?_)
    match a with
    | ⟨0, _⟩ => show win4_2.index t (0 : Fin 2) * 1 + 1 * (0 : Fin 1).val = (0 : Fin 1).val; rw [e20]; omega
    | ⟨1, _⟩ => show win4_2.index t (1 : Fin 2) * 25 + 1 * q.val = q.val; rw [e21]; omega
  refine (tile_entry _ _ _ p q).trans ?_
  refine Eq.trans ?_ ((congrArg (Cert.Spec.layer4 (V c main_v57) (V c main_arg11) (V c main_v58)) hemb).trans
    (layer_entry (V c main_v57) (V c main_arg11) (V c main_v58) ⟨_, hr⟩ q)).symm
  exact congrArg leaky (congr (congr (congrArg affine hx) hw) hb)

/-- An entry of the output array lies in tile t iff, on each axis, its coordinate is in the tile's range. -/
theorem mem_tile (t : Fin cfg4.N) (i : S50000x25.Idx) :
    i ∈ ((cfg4.win 3).blk t).view.set ↔ ∀ a : Fin 2, win4_3.index t a * S5000x25.size a ≤ (i a).val
      ∧ (i a).val < win4_3.index t a * S5000x25.size a + S5000x25.size a := by
  show i ∈ ((View.whole main_v59).slice (win4_3.rect t)).set ↔ _
  rw [View.set_slice_whole, Rect.mem_set_unit]
  exact Iff.rfl

/-- Every entry (r, q) of the output array lies in a tile that is written back: tile r / 5000. -/
theorem cover (i : S50000x25.Idx) :
    ∃ t : Fin cfg4.N, (cfg4.win 3).flush t = true ∧ i ∈ ((cfg4.win 3).blk t).view.set := by
  have hi0 : (i 0).val < 50000 := (i 0).isLt
  have hi1 : (i 1).val < 25 := (i 1).isLt
  have ht : (i 0).val / 5000 < cfg4.N := by rw [points]; omega
  obtain ⟨-, -, -, -, -, -, e30, e31⟩ := block_index ⟨(i 0).val / 5000, ht⟩
  refine ⟨⟨(i 0).val / 5000, ht⟩, Gen.flush4_3 _, ?_⟩
  rw [mem_tile]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win4_3.index ⟨(i 0).val / 5000, ht⟩ (1 : Fin 2) * 25 ≤ (i 1).val
      ∧ (i 1).val < win4_3.index ⟨(i 0).val / 5000, ht⟩ (1 : Fin 2) * 25 + 25
    rw [e31]
    omega

/-- The array the region leaves is the layer function of the three arrays it found: each tile writes its rows of
    that function, and the tiles cover the array. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat4 (F := Ideal) V c).arrAt 3 Cert.KernelIdeal.cfg4.N = Cert.Spec.layer4 (V c Cert.KernelIdeal.main_v57) (V c Cert.KernelIdeal.main_arg11) (V c Cert.KernelIdeal.main_v58) :=
  (Gen.dat4 (F := Ideal) V c).arrAt_eq_of_cover 3 _ (fun t _ => flushed V c t) cover

end Cert.KernelIdeal.Region4

end
-- ==== Proof.Region5.lean ====
/-
  Region 5 — the network's last layer on row tiles — leaves in its output array the reference's layer 6 applied to the
  region's three input arrays.

  The layer sends a feature row xr (25 entries) to the log-softmax of the affine row y = xr · W + b (3 entries):
  y(q) − max y − log Σₖ exp (y(k) − max y), the maximum folded from −∞. Every output row depends on the same row of
  the features only, and on all of W and b. The region cuts the 50000 rows into ten tiles of 5000 rows; at grid point t
  it loads rows 5000·t … 5000·t + 4999 of the features, the whole weight and the whole bias row, and stores one value:
  the tile times the weight accumulated from zero (the casts to bf16 are the identity at the ideal values) plus the bias
  row repeated down the rows, then the log-softmax along each row.

  The proof reads both sides at an entry as that ONE row function: the stored value at (p, q) is the row function of
  the tile's row p, the reference's layer at (r, q) the row function of the array's row r. Row p of tile t is row
  5000·t + p of the array, so what point t writes back is tile t of the layer of the whole arrays; the ten tiles cover
  the output array, every point writes back, and so the array ends holding the layer.
-/
import proofs.«103496_j8332236554735_1_alg».proof.Proof.Spec
import proofs.«103496_j8332236554735_1_alg».proof.Proof.Gen.KernelIdeal.Frame
import proofs.«103496_j8332236554735_1_alg».proof.Proof.LibPlainDot
import proofs.«103496_j8332236554735_1_alg».proof.Proof.LibKeepDims
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Region5

open Idealize.ShloMosaic Idealize.ShloMosaic.TcCoe Idealize.SL.Sem Idealize.ShloMosaic.ValueIdx
open Cert.KernelIdeal Cert.KernelIdeal.Gen

/-! ## One row of the layer

Every output row depends on the same row of the features only: with `xr` that row, the layer's row is the
log-softmax of the affine row `xr · W + b`. -/

/-- Entry `q` of the affine row `xr · W + b`, the bias a `1 × b` row. -/
def affineRow {a b : ℕ} (xr : Fin a → Ideal .f32) (W : FVec Ideal ⟨2, ![a, b]⟩ .f32) (bias : FVec Ideal ⟨2, ![1, b]⟩ .f32)
    (q : Fin b) : Ideal .f32 :=
  (∑ k : Fin a, xr k * W (ix2 k q)) + bias (ix2 (0 : Fin 1) q)

/-- The maximum of a row, folded from −∞ and taken once more against −∞. -/
def rowMax {b : ℕ} (y : Fin b → Ideal .f32) : Ideal .f32 :=
  max (Ideal.ofBits .f32 0xFF800000#32) ((Finset.univ : Finset (Fin b)).fold max (Ideal.ofBits .f32 0xFF800000#32) y)

/-- Entry `q` of the log-softmax of a row: the entry shifted by the row's maximum, minus the logarithm of the sum of
    the exponentials of the shifted row. -/
def logSoftmaxRow {b : ℕ} (y : Fin b → Ideal .f32) (q : Fin b) : Ideal .f32 :=
  (y q - rowMax y) - Ideal.log (∑ k : Fin b, Ideal.exp (y k - rowMax y))

/-! ## Reductions along a row, read at the row -/

/-- The index of row `p` with the column `k` inserted is `(p, k)`. -/
theorem lift_row {n b : ℕ} (h : (⟨2, ![n, b]⟩ : Shape).Reduces [1] ⟨1, ![n]⟩) (p : Fin n) (k : Fin b) :
    h.lift (ix1 p) k = ix2 p k :=
  funext fun c => Fin.ext (by
    match c with
    | ⟨0, _⟩ => rfl
    | ⟨1, _⟩ => rfl)

/-- A sum along the rows of a tile, at row `p`: the sum of the row's entries. -/
theorem tile_rowSum {n b : ℕ} (src : FVec Ideal ⟨2, ![n, b]⟩ .f32) (h : (⟨2, ![n, b]⟩ : Shape).Reduces [1] ⟨1, ![n]⟩)
    (hφ : FKind.Formats .f32) (hacc : (0x00000000#32 : BitVec 32) = FKind.add.neutral .f32 hφ) (p : Fin n) :
    multiReduction (F := Ideal) .add [1] ⟨1, ![n]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A maximum along the rows of a tile, at row `p`: the fold of `max` over the row's entries from −∞. -/
theorem tile_rowMax {n b : ℕ} (src : FVec Ideal ⟨2, ![n, b]⟩ .f32) (h : (⟨2, ![n, b]⟩ : Shape).Reduces [1] ⟨1, ![n]⟩)
    (hφ : FKind.Formats .f32) (hacc : (0xFF800000#32 : BitVec 32) = FKind.maximumf.neutral .f32 hφ) (p : Fin n) :
    multiReduction (F := Ideal) .maximumf [1] ⟨1, ![n]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg (fun f => (Finset.univ : Finset (Fin b)).fold max (Ideal.ofBits .f32 0xFF800000#32) f)
      (funext fun k => congrArg src (lift_row h p k)))

/-- The host's maximum along the rows of an array from the scalar −∞, at row `r`. -/
theorem host_rowMax {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduce (FloatOps.maximumf (F := Ideal)) y (constant (F := Ideal) ⟨0, ![]⟩ .f32 0xFF800000#32) h' hu (ix1 r)
      = (Finset.univ : Finset (Fin b)).fold max (Ideal.ofBits .f32 0xFF800000#32) (fun k => y (ix2 r k)) :=
  (Host.reduce_eq_fold_single (FloatOps.maximumf (F := Ideal)) y _ h' h hu (ix1 r)).trans
    (congrArg (fun f => (Finset.univ : Finset (Fin b)).fold max (Ideal.ofBits .f32 0xFF800000#32) f)
      (funext fun k => congrArg y (lift_row h r k)))

/-- The host's sum along the rows of an array from the scalar zero, at row `r`. -/
theorem host_rowSum {n b : ℕ} (y : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduceAdd (F := Ideal) y (constant (F := Ideal) ⟨0, ![]⟩ .f32 0x00000000#32) h' hu (ix1 r)
      = ∑ k : Fin b, y (ix2 r k) := by
  refine (hostReduceAdd_apply y _ h' hu (ix1 r)).trans ?_
  refine (Ideal.hostReduceAdd_single h' h y _ (ix1 r)).trans ?_
  rw [constant_apply, Ideal.ofBits_zero_f32, zero_add]
  exact Finset.sum_congr rfl fun k _ => congrArg y (lift_row h r k)

/-! ## The exponential and the logarithm, read at an index -/

section Pointwise
variable {s : Shape}

/-- The body's exponential at an index is the exponential of the element … -/
theorem exp_apply (v : FVec Ideal s .f32) (i : s.Idx) : exp v i = Ideal.exp (v i) := rfl
/-- … and its logarithm the logarithm of the element; -/
theorem log_apply (v : FVec Ideal s .f32) (i : s.Idx) : log v i = Ideal.log (v i) := rfl
/-- the host's exponential and logarithm are the same functions of the element. -/
theorem hostExp_apply (v : FVec Ideal s .f32) (i : s.Idx) : Host.exp (F := Ideal) v i = Ideal.exp (v i) := rfl
theorem hostLog_apply (v : FVec Ideal s .f32) (i : s.Idx) : Host.log (F := Ideal) v i = Ideal.log (v i) := rfl

end Pointwise

/-! ## The host's broadcasts, read at an index -/

section HostLayout
variable {α : Type}

/-- A `1 × b` row repeated down `n` rows reads, at `(r, q)`, the row's entry `q`. -/
theorem hostRow_apply {n b : ℕ} (v : (⟨2, ![1, b]⟩ : Shape).Idx → α)
    (h : (⟨2, ![1, b]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

/-- An `n × 1` column repeated along `b` columns reads, at `(r, q)`, the column's entry `r`. -/
theorem hostCol_apply {n b : ℕ} (v : (⟨2, ![n, 1]⟩ : Shape).Idx → α)
    (h : (⟨2, ![n, 1]⟩ : Shape).BroadcastsInDim ⟨2, ![n, b]⟩ (![0, 1] : Fin 2 → Fin (⟨2, ![n, b]⟩ : Shape).rank))
    (r : Fin n) (q : Fin b) : broadcastInDim ⟨2, ![n, b]⟩ ![0, 1] h v (ix2 r q) = v (ix2 r (0 : Fin 1)) := by
  refine broadcastInDim_apply _ h v (ix2 r q) (ix2 r (0 : Fin 1)) fun ax => ?_
  match ax with
  | ⟨0, _⟩ =>
    show r.val = if n = 1 then 0 else r.val
    split
    · have := r.isLt; omega
    · rfl
  | ⟨1, _⟩ => rfl

/-- A vector of length `n` set as an `n × 1` column reads, at `(r, u)`, the vector's entry `r`. -/
theorem hostVecCol_apply {n : ℕ} (v : (⟨1, ![n]⟩ : Shape).Idx → α)
    (h : (⟨1, ![n]⟩ : Shape).BroadcastsInDim ⟨2, ![n, 1]⟩ (![0] : Fin 1 → Fin (⟨2, ![n, 1]⟩ : Shape).rank))
    (r : Fin n) (u : Fin 1) : broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

end HostLayout

/-! ## The body's arithmetic on one tile of 5000 rows -/

/-- The tile's affine map: the tile times the weight, accumulated from zero, plus the bias row repeated down the rows. -/
def tileLin (x : Vec Ideal S5000x25 .f32) (W : Vec Ideal S25x3 .f32) (b2 : Vec Ideal S1x3 .f32) : FVec Ideal S5000x3 .f32 :=
  addf (F := Ideal)
    (matmul dot_S5000x25_S25x3_S5000x3_1_0_0_1_n_n none
      (truncf .bf16 (shapeCast S5000x25 x shapeCasts_S5000x25_S5000x25) bitsLt_bf16_f32) (truncf .bf16 W bitsLt_bf16_f32)
      (constant S5000x3 .f32 0x00000000#32))
    (broadcastTo S5000x3 (shapeCast S1x3 b2 shapeCasts_S1x3_S1x3) broadcasts_S1x3_S5000x3)

/-- The tile's rows shifted by their maxima. -/
def tileShift (y : FVec Ideal S5000x3 .f32) : FVec Ideal S5000x3 .f32 :=
  subf y (broadcastTo S5000x3 (shapeCast S5000x1
    (maximumf (broadcast S5000 (Scalar.ofBits .f32 0xFF800000#32))
      (multiReduction .maximumf [1] S5000 y 0xFF800000#32 reduces_S5000x3_S5000 (.inl rfl) rfl))
    shapeCasts_S5000_S5000x1) broadcasts_S5000x1_S5000x3)

/-- The log-softmax along each row of the tile. -/
def tileAct (y : FVec Ideal S5000x3 .f32) : FVec Ideal S5000x3 .f32 :=
  subf (tileShift y) (broadcastTo S5000x3 (log (shapeCast S5000x1
    (multiReduction .add [1] S5000 (exp (tileShift y)) 0x00000000#32 reduces_S5000x3_S5000 (.inl rfl) rfl)
    shapeCasts_S5000_S5000x1)) broadcasts_S5000x1_S5000x3)

/-- The body's stored value is the log-softmax of the affine map of its three loaded blocks. -/
theorem pay_eq (x : Vec Ideal S5000x25 .f32) (W : Vec Ideal S25x3 .f32) (b2 : Vec Ideal S1x3 .f32) :
    k5_pay1 x W b2 = tileAct (tileLin x W b2) := rfl

/-- The tile's affine map at `(p, q)`: the affine row of the tile's row `p`. The casts to bf16 change nothing at the
    ideal values, and the product accumulated from zero is the sum over the contraction index. -/
theorem tileLin_apply (x : Vec Ideal S5000x25 .f32) (W : Vec Ideal S25x3 .f32) (b2 : Vec Ideal S1x3 .f32)
    (p : Fin 5000) (q : Fin 3) : tileLin x W b2 (ix2 p q) = affineRow (fun k => x (ix2 p k)) W b2 q := by
  unfold tileLin affineRow
  rw [addf_apply, shapeCast_self, shapeCast_self, broadcastTo_1b_ab_apply]
  refine congrArg (· + b2 (ix2 (0 : Fin 1) q)) ?_
  exact (Ideal.matmul_constant_zero_apply dot_S5000x25_S25x3_S5000x3_1_0_0_1_n_n none _ _ (ix2 p q)).trans
    (Cert.LibPlainDot.sum_contr (n := 5000) (a := 25) (b := 3) x W p q)

/-- The shifted tile at `(p, q)`: the entry minus the maximum of row `p`. -/
theorem tileShift_apply (y : FVec Ideal S5000x3 .f32) (p : Fin 5000) (q : Fin 3) :
    tileShift y (ix2 p q) = y (ix2 p q) - rowMax (fun k => y (ix2 p k)) := by
  unfold tileShift rowMax
  rw [subf_apply, Cert.Lib.KeepDims.broadcastTo_a1_ab_apply, Cert.Lib.KeepDims.shapeCast_a_a1_apply, maximumf_apply,
    broadcast_apply]
  exact congrArg (fun m => y (ix2 p q) - max (Ideal.ofBits .f32 0xFF800000#32) m) (tile_rowMax y _ _ _ p)

/-- The tile's log-softmax at `(p, q)`: the log-softmax of row `p`, at `q`. -/
theorem tileAct_apply (y : FVec Ideal S5000x3 .f32) (p : Fin 5000) (q : Fin 3) :
    tileAct y (ix2 p q) = logSoftmaxRow (fun k => y (ix2 p k)) q := by
  unfold tileAct logSoftmaxRow
  rw [subf_apply, Cert.Lib.KeepDims.broadcastTo_a1_ab_apply, tileShift_apply, log_apply,
    Cert.Lib.KeepDims.shapeCast_a_a1_apply]
  refine congrArg (fun s => (y (ix2 p q) - rowMax fun k => y (ix2 p k)) - Ideal.log s) ?_
  refine (tile_rowSum (exp (tileShift y)) _ _ _ p).trans (Finset.sum_congr rfl fun k _ => ?_)
  rw [exp_apply, tileShift_apply]

/-- THE BODY'S STORED VALUE at `(p, q)`: the log-softmax of the affine row of the feature tile's row `p`. -/
theorem pay_apply (x : Vec Ideal S5000x25 .f32) (W : Vec Ideal S25x3 .f32) (b2 : Vec Ideal S1x3 .f32)
    (p : Fin 5000) (q : Fin 3) :
    k5_pay1 x W b2 (ix2 p q) = logSoftmaxRow (affineRow (fun k => x (ix2 p k)) W b2) q := by
  rw [pay_eq, tileAct_apply]
  exact congrArg (fun f => logSoftmaxRow f q) (funext fun k => tileLin_apply x W b2 p k)

/-! ## The reference's layer on the whole array of 50000 rows -/

/-- The whole array's rows reduce to a vector of its row count. -/
theorem reduces_rows : (⟨2, ![50000, 3]⟩ : Shape).Reduces [1] ⟨1, ![50000]⟩ := by decide

/-- The reference's affine map at `(r, q)`: the affine row of the features' row `r`. -/
theorem lin5_apply (X : FVec Ideal S50000x25 .f32) (W : FVec Ideal S25x3 .f32) (b2 : FVec Ideal S1x3 .f32)
    (r : Fin 50000) (q : Fin 3) : Cert.Spec.lin5 X W b2 (ix2 r q) = affineRow (fun k => X (ix2 r k)) W b2 q := by
  unfold Cert.Spec.lin5 affineRow
  rw [addf_apply, hostRow_apply]
  refine congrArg (· + b2 (ix2 (0 : Fin 1) q)) ?_
  exact Cert.LibPlainDot.dotGeneral_apply (n := 50000) (a := 25) (b := 3) none X W r q

/-- The reference's shifted array at `(r, q)`: the entry minus the maximum of row `r`. -/
theorem shift5_apply (y : FVec Ideal S50000x3 .f32) (r : Fin 50000) (q : Fin 3) :
    Cert.Spec.shift5 y (ix2 r q) = y (ix2 r q) - rowMax (fun k => y (ix2 r k)) := by
  unfold Cert.Spec.shift5 rowMax
  rw [subf_apply, hostCol_apply, hostVecCol_apply, maximumf_apply, broadcastInDim_scalar_apply, constant_apply]
  exact congrArg (fun m => y (ix2 r q) - max (Ideal.ofBits .f32 0xFF800000#32) m) (host_rowMax y _ reduces_rows _ r)

/-- The reference's log-softmax at `(r, q)`: the log-softmax of row `r`, at `q`. -/
theorem act5_apply (y : FVec Ideal S50000x3 .f32) (r : Fin 50000) (q : Fin 3) :
    Cert.Spec.act5 y (ix2 r q) = logSoftmaxRow (fun k => y (ix2 r k)) q := by
  unfold Cert.Spec.act5 logSoftmaxRow
  rw [subf_apply, hostCol_apply, shift5_apply, hostLog_apply, hostVecCol_apply]
  refine congrArg (fun s => (y (ix2 r q) - rowMax fun k => y (ix2 r k)) - Ideal.log s) ?_
  refine (host_rowSum (Host.exp (F := Ideal) (Cert.Spec.shift5 y)) _ reduces_rows _ r).trans
    (Finset.sum_congr rfl fun k _ => ?_)
  rw [hostExp_apply, shift5_apply]

/-- THE REFERENCE'S LAYER at `(r, q)`: the log-softmax of the affine row of the features' row `r`. -/
theorem layer_apply (X : FVec Ideal S50000x25 .f32) (W : FVec Ideal S25x3 .f32) (b2 : FVec Ideal S1x3 .f32)
    (r : Fin 50000) (q : Fin 3) :
    Cert.Spec.layer5 X W b2 (ix2 r q) = logSoftmaxRow (affineRow (fun k => X (ix2 r k)) W b2) q := by
  unfold Cert.Spec.layer5
  rw [act5_apply]
  exact congrArg (fun f => logSoftmaxRow f q) (funext fun k => lin5_apply X W b2 r k)

/-- The body's stored value and the reference's layer agree at an entry whose feature rows agree, the weight and the
    bias row being the same arrays: both are the one row function of that row. -/
theorem pay_eq_layer (x : Vec Ideal S5000x25 .f32) (w : Vec Ideal S25x3 .f32) (b : Vec Ideal S1x3 .f32)
    (X : FVec Ideal S50000x25 .f32) (W : FVec Ideal S25x3 .f32) (B : FVec Ideal S1x3 .f32)
    (p : Fin 5000) (r : Fin 50000) (q : Fin 3)
    (hx : ∀ k : Fin 25, x (ix2 p k) = X (ix2 r k)) (hw : w = W) (hb : b = B) :
    k5_pay1 x w b (ix2 p q) = Cert.Spec.layer5 X W B (ix2 r q) := by
  subst hw hb
  rw [pay_apply, layer_apply]
  exact congrArg (fun f => logSoftmaxRow (affineRow f w b) q) (funext hx)

/-! ## From the tiles to the array

The grid has ten points; at point `t` the features' and the output's blocks are rows `5000·t … 5000·t + 4999`, the
weight's and the bias row's blocks the whole arrays. So what point `t` writes back is rows `5000·t …` of the layer
applied to the arrays as the region finds them, and the ten tiles cover the output array. -/

section Array

variable (V : (c : Dev nD) → (b : Ref sig .tc) → Buf (Elt Ideal) ((c : Thread nD τ).loc b))

/-- A whole-buffer access starts at the zero offsets. -/
theorem zero_offsets : (![0, 0] : Fin 2 → Nat) = fun _ => 0 := funext fun a => by fin_cases a <;> rfl

/-- The printed index maps over the grid: the features' and the output's block index at point `t` is `(t, 0)`, the
    weight's and the bias row's `(0, 0)`; and there are ten points. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

/-- WHAT POINT `t` WRITES BACK is tile `t` of the layer of the arrays as the region finds them. -/
theorem flushed_eq (c : Dev nD) (t : Fin cfg5.N) :
    (Gen.dat5 (F := Ideal) V c).flushed 3 t
      = ((cfg5.win 3).blk t).view.read (Elt Ideal) (Cert.Spec.layer5 (V c main_v69) (V c main_arg13) (V c main_v70)) := by
  show (cfg5.win 3).cut (grid5.coords t) ((Gen.dat5 V c).after 3 t) = _
  rw [Gen.after5_3]
  unfold Gen.out5_3
  rw [View.canon_unit_zero zero_offsets]
  simp only [View.ld_unit_zero (S := S5000x25) zero_offsets, View.ld_unit_zero (S := S25x3) zero_offsets,
    View.ld_unit_zero (S := S1x3) zero_offsets]
  obtain ⟨e00, e01, e10, e11, e20, e21, e30, e31, ht⟩ := block_indices t
  funext j
  obtain ⟨p, q, rfl⟩ : ∃ (p : Fin 5000) (q : Fin 3), j = ix2 p q := ⟨j 0, j 1, eq_ix2 j⟩
  have hp : p.val < 5000 := p.isLt
  have hrow : t.val * 5000 + p.val < 50000 := by omega
  -- the entry's place in the output array: row 5000·t + p, column q
  have hplace : ((cfg5.win 3).blk t).view.emb (ix2 p q) = ix2 (⟨t.val * 5000 + p.val, hrow⟩ : Fin 50000) q := by
    funext a; apply Fin.ext
    match a with
    | ⟨0, _⟩ => show win5_3.index t (0 : Fin 2) * 5000 + 1 * p.val = t.val * 5000 + p.val; rw [e30]; omega
    | ⟨1, _⟩ => show win5_3.index t (1 : Fin 2) * 3 + 1 * q.val = q.val; rw [e31]; omega
  show k5_pay1 (Gen.iblk5 V c 0 t) (Gen.iblk5 V c 1 t) (Gen.iblk5 V c 2 t) (ix2 p q)
    = Cert.Spec.layer5 (V c main_v69) (V c main_arg13) (V c main_v70) (((cfg5.win 3).blk t).view.emb (ix2 p q))
  refine (pay_eq_layer _ _ _ (V c main_v69) (V c main_arg13) (V c main_v70) p ⟨t.val * 5000 + p.val, hrow⟩ q
    (fun k => ?_) ?_ ?_).trans (congrArg (Cert.Spec.layer5 (V c main_v69) (V c main_arg13) (V c main_v70)) hplace.symm)
  · -- the features' tile: row p of the tile is row 5000·t + p of the array
    show V c main_v69 (((cfg5.win 0).blk t).view.emb (ix2 p k)) = V c main_v69 (ix2 ⟨t.val * 5000 + p.val, hrow⟩ k)
    refine congrArg (V c main_v69) (funext fun a => Fin.ext ?_)
    match a with
    | ⟨0, _⟩ => show win5_0.index t (0 : Fin 2) * 5000 + 1 * p.val = t.val * 5000 + p.val; rw [e00]; omega
    | ⟨1, _⟩ => show win5_0.index t (1 : Fin 2) * 25 + 1 * k.val = k.val; rw [e01]; omega
  · -- the weight's block is the whole weight
    funext i
    show V c main_arg13 (((cfg5.win 1).blk t).view.emb i) = V c main_arg13 i
    refine congrArg (V c main_arg13) (funext fun a => Fin.ext ?_)
    match a with
    | ⟨0, _⟩ => show win5_1.index t (0 : Fin 2) * 25 + 1 * (i 0).val = (i 0).val; rw [e10]; omega
    | ⟨1, _⟩ => show win5_1.index t (1 : Fin 2) * 3 + 1 * (i 1).val = (i 1).val; rw [e11]; omega
  · -- the bias row's block is the whole row
    funext i
    show V c main_v70 (((cfg5.win 2).blk t).view.emb i) = V c main_v70 i
    refine congrArg (V c main_v70) (funext fun a => Fin.ext ?_)
    match a with
    | ⟨0, _⟩ => show win5_2.index t (0 : Fin 2) * 1 + 1 * (i 0).val = (i 0).val; rw [e20]; omega
    | ⟨1, _⟩ => show win5_2.index t (1 : Fin 2) * 3 + 1 * (i 1).val = (i 1).val; rw [e21]; omega

/-- An index of the output array is in point `t`'s tile iff each coordinate is in the tile's range on its axis. -/
theorem mem_tile (t : Fin cfg5.N) (i : S50000x3.Idx) :
    i ∈ ((cfg5.win 3).blk t).view.set
      ↔ ∀ a : Fin 2, win5_3.index t a * S5000x3.size a ≤ (i a).val
          ∧ (i a).val < win5_3.index t a * S5000x3.size a + S5000x3.size a := by
  show i ∈ ((View.whole main_v71).slice (win5_3.rect t)).set ↔ _
  rw [View.set_slice_whole, Rect.mem_set_unit]
  exact Iff.rfl

/-- THE TILES COVER THE ARRAY: row `r` lies in the tile of point `r / 5000`, and every point writes back. -/
theorem cover (i : S50000x3.Idx) :
    ∃ t : Fin cfg5.N, (cfg5.win 3).flush t = true ∧ i ∈ ((cfg5.win 3).blk t).view.set := by
  have hi0 : (i 0).val < 50000 := (i 0).isLt
  have hi1 : (i 1).val < 3 := (i 1).isLt
  have hN : grid5.N = 10 := Gen.N_5
  obtain ⟨t, ht⟩ : ∃ t : Fin cfg5.N, t.val = (i 0).val / 5000 :=
    ⟨⟨(i 0).val / 5000, by show (i 0).val / 5000 < grid5.N; rw [hN]; omega⟩, rfl⟩
  obtain ⟨-, -, -, -, -, -, e30, e31, -⟩ := block_indices t
  refine ⟨t, Gen.flush5_3 t, ?_⟩
  rw [mem_tile]
  intro a
  match a with
  | ⟨0, _⟩ =>
    show win5_3.index t (0 : Fin 2) * 5000 ≤ (i 0).val ∧ (i 0).val < win5_3.index t (0 : Fin 2) * 5000 + 5000
    rw [e30, ht]; omega
  | ⟨1, _⟩ =>
    show win5_3.index t (1 : Fin 2) * 3 ≤ (i 1).val ∧ (i 1).val < win5_3.index t (1 : Fin 2) * 3 + 3
    rw [e31]; omega

end Array

/-- THE ARRAY REGION 5 LEAVES: the layer of the reference — the log-softmax along each row of the features times the
    weight plus the bias row — applied to the region's three input arrays as the region finds them. -/
theorem arr (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat5 (F := Ideal) V c).arrAt 3 Cert.KernelIdeal.cfg5.N = Cert.Spec.layer5 (V c Cert.KernelIdeal.main_v69) (V c Cert.KernelIdeal.main_arg13) (V c Cert.KernelIdeal.main_v70) :=
  (Gen.dat5 (F := Ideal) V c).arrAt_eq_of_cover 3 (Cert.Spec.layer5 (V c main_v69) (V c main_arg13) (V c main_v70))
    (fun t _ => flushed_eq V c t) cover

end Cert.KernelIdeal.Region5

end
-- ==== Proof.RefRun.lean ====
/-
  The reference's @main read as a function of its argument arrays.

  The program is a straight line of host operations on whole arrays, its four calls (the three leaky rectifiers and
  the log-softmax) being their callees' operations on the buffers the call's record names. It is cut here at the six
  layer outputs: each stretch gathers the source rows of the previous layer's output, sums them into the destination
  rows, multiplies by the layer's weight, adds the bias row and applies the layer's activation. Read back one stretch
  at a time over an arbitrary assignment of contents to the buffers, each stretch computes Cert.Spec's layer of the
  message-passing sum of the previous output, and no stretch writes an argument; chained, the result buffer holds
  Cert.Spec.net of the fifteen arguments and the arguments are as they were.
-/
import proofs.«103496_j8332236554735_1_alg».proof.Proof.Spec
import Idealize.ShloMosaic.Lib.StableHlo.Run

set_option maxRecDepth 16384

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

-- The whole-array host functions stay folded throughout: every equation below holds because the two sides apply the same
-- operations in the same order, and none of them looks inside a gather, a segment sum, a reduction or a host unary.
attribute [local irreducible] Host.gather Host.scatterAdd Host.reduce Host.reduceAdd Host.exp Host.log Host.divf

/-! ## The operations, layer by layer

A callee's operation is written at the buffers its call's record names, with the function the callee's text gives
it; a record's typed reference to a literal buffer carries that buffer's own type, so the transport along the type
equation in the callee's text is the identity. -/

/-- Layer 1 (300 → 200, leaky rectifier): the source column, the gather, the zero array, the destination column, the segment sum, the product with the weight, the bias row and its repetition, the sum, the slope, then the rectifier's seven operations into the call's record. -/
def ops0 : List (HloOp τ sig (Elt F)) :=
  [ nullary main_c (constantI S_ 32 0#32),
    unary main_c main_v0 (broadcastInDim S262144 ![] bcast_S_S262144 : (⟨S_, .i32⟩ : BufTy).Contents (Elt F) → (⟨S262144, .i32⟩ : BufTy).Contents (Elt F)),
    binary main_arg1 main_v0 main_v1 (cmpi .slt : (⟨S262144, .i32⟩ : BufTy).Contents (Elt F) → (⟨S262144, .i32⟩ : BufTy).Contents (Elt F) → (⟨S262144, .i1⟩ : BufTy).Contents (Elt F)),
    nullary main_c_0 (constantI S_ 32 50000#32),
    unary main_c_0 main_v2 (broadcastInDim S262144 ![] bcast_S_S262144 : (⟨S_, .i32⟩ : BufTy).Contents (Elt F) → (⟨S262144, .i32⟩ : BufTy).Contents (Elt F)),
    binary main_arg1 main_v2 main_v3 (addi : (⟨S262144, .i32⟩ : BufTy).Contents (Elt F) → (⟨S262144, .i32⟩ : BufTy).Contents (Elt F) → (⟨S262144, .i32⟩ : BufTy).Contents (Elt F)),
    ternary main_v1 main_v3 main_arg1 main_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v4 main_v5 (broadcastInDim S262144x1 ![0] bcast_S262144_S262144x1_0 : (⟨S262144, .i32⟩ : BufTy).Contents (Elt F) → (⟨S262144x1, .i32⟩ : BufTy).Contents (Elt F)),
    binary main_arg0 main_v5 main_v6 ((fun x i => Host.gather gather_S50000x300_S262144x1_S262144x300_1_0_n_n_0_1_1300 x i) : (⟨S50000x300, .f32⟩ : BufTy).Contents (Elt F) → (⟨S262144x1, .i32⟩ : BufTy).Contents (Elt F) → (⟨S262144x300, .f32⟩ : BufTy).Contents (Elt F)),
    nullary main_cst (constant S_ .f32 0x00000000#32),
    unary main_cst main_v7 (broadcastInDim S50000x300 ![] bcast_S_S50000x300 : (⟨S_, .f32⟩ : BufTy).Contents (Elt F) → (⟨S50000x300, .f32⟩ : BufTy).Contents (Elt F)),
    unary main_arg2 main_v8 (broadcastInDim S262144x1 ![0] bcast_S262144_S262144x1_0 : (⟨S262144, .i32⟩ : BufTy).Contents (Elt F) → (⟨S262144x1, .i32⟩ : BufTy).Contents (Elt F)),
    ternary main_v7 main_v8 main_v6 main_v9 ((fun x i u => Host.scatterAdd scatter_S50000x300_S262144x1_S262144x300_1_0_0_1 x i u) : (⟨S50000x300, .f32⟩ : BufTy).Contents (Elt F) → (⟨S262144x1, .i32⟩ : BufTy).Contents (Elt F) → (⟨S262144x300, .f32⟩ : BufTy).Contents (Elt F) → (⟨S50000x300, .f32⟩ : BufTy).Contents (Elt F)),
    binary main_v9 main_arg3 main_v10 ((fun l r => Host.dotGeneral dot_S50000x300_S300x200_S50000x200_1_0_0_1_n_n none l r) : (⟨S50000x300, .f32⟩ : BufTy).Contents (Elt F) → (⟨S300x200, .f32⟩ : BufTy).Contents (Elt F) → (⟨S50000x200, .f32⟩ : BufTy).Contents (Elt F)),
    unary main_arg4 main_v11 (broadcastInDim S1x200 ![1] bcast_S200_S1x200_1 : (⟨S200, .f32⟩ : BufTy).Contents (Elt F) → (⟨S1x200, .f32⟩ : BufTy).Contents (Elt F)),
    unary main_v11 main_v12 (broadcastInDim S50000x200 ![0, 1] bcast_S1x200_S50000x200_0_1 : (⟨S1x200, .f32⟩ : BufTy).Contents (Elt F) → (⟨S50000x200, .f32⟩ : BufTy).Contents (Elt F)),
    binary main_v10 main_v12 main_v13 (addf : (⟨S50000x200, .f32⟩ : BufTy).Contents (Elt F) → (⟨S50000x200, .f32⟩ : BufTy).Contents (Elt F) → (⟨S50000x200, .f32⟩ : BufTy).Contents (Elt F)),
    nullary main_cst_1 (constant S_ .f32 0x3C23D70A#32),
    nullary main_call0_cst (constant S_ .f32 0x00000000#32),
    unary main_call0_cst main_call0_v0 (broadcastInDim S50000x200 ![] bcast_S_S50000x200 : (⟨S_, .f32⟩ : BufTy).Contents (Elt F) → (⟨S50000x200, .f32⟩ : BufTy).Contents (Elt F)),
    binary main_v13 main_call0_v0 main_call0_v1 (cmpf .oge : (⟨S50000x200, .f32⟩ : BufTy).Contents (Elt F) → (⟨S50000x200, .f32⟩ : BufTy).Contents (Elt F) → (⟨S50000x200, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S50000x200 ![] bcast_S_S50000x200 : (⟨S_, .f32⟩ : BufTy).Contents (Elt F) → (⟨S50000x200, .f32⟩ : BufTy).Contents (Elt F)),
    binary main_call0_v3 main_v13 main_call0_v4 (mulf : (⟨S50000x200, .f32⟩ : BufTy).Contents (Elt F) → (⟨S50000x200, .f32⟩ : BufTy).Contents (Elt F) → (⟨S50000x200, .f32⟩ : BufTy).Contents (Elt F)),
    ternary main_call0_v1 main_v13 main_call0_v4 main_v14 (select : (⟨S50000x200, .i1⟩ : BufTy).Contents (Elt F) → (⟨S50000x200, .f32⟩ : BufTy).Contents (Elt F) → (⟨S50000x200, .f32⟩ : BufTy).Contents (Elt F) → (⟨S50000x200, .f32⟩ : BufTy).Contents (Elt F)) ]

/-- Layer 2 (200 → 150, softmax): message passing and the affine map as before, then the row maxima, the shift, the exponential, the row sums and the quotient. -/
def ops1 : List (HloOp τ sig (Elt F)) :=
  [ nullary main_c_2 (constantI S_ 32 0#32),
    unary main_c_2 main_v15 (broadcastInDim S262144 ![] bcast_S_S262144 : (⟨S_, .i32⟩ : BufTy).Contents (Elt F) → (⟨S262144, .i32⟩ : BufTy).Contents (Elt F)),
    binary main_arg1 main_v15 main_v16 (cmpi .slt : (⟨S262144, .i32⟩ : BufTy).Contents (Elt F) → (⟨S262144, .i32⟩ : BufTy).Contents (Elt F) → (⟨S262144, .i1⟩ : BufTy).Contents (Elt F)),
    nullary main_c_3 (constantI S_ 32 50000#32),
    unary main_c_3 main_v17 (broadcastInDim S262144 ![] bcast_S_S262144 : (⟨S_, .i32⟩ : BufTy).Contents (Elt F) → (⟨S262144, .i32⟩ : BufTy).Contents (Elt F)),
    binary main_arg1 main_v17 main_v18 (addi : (⟨S262144, .i32⟩ : BufTy).Contents (Elt F) → (⟨S262144, .i32⟩ : BufTy).Contents (Elt F) → (⟨S262144, .i32⟩ : BufTy).Contents (Elt F)),
    ternary main_v16 main_v18 main_arg1 main_v19 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v19 main_v20 (broadcastInDim S262144x1 ![0] bcast_S262144_S262144x1_0 : (⟨S262144, .i32⟩ : BufTy).Contents (Elt F) → (⟨S262144x1, .i32⟩ : BufTy).Contents (Elt F)),
    binary main_v14 main_v20 main_v21 ((fun x i => Host.gather gather_S50000x200_S262144x1_S262144x200_1_0_n_n_0_1_1200 x i) : (⟨S50000x200, .f32⟩ : BufTy).Contents (Elt F) → (⟨S262144x1, .i32⟩ : BufTy).Contents (Elt F) → (⟨S262144x200, .f32⟩ : BufTy).Contents (Elt F)),
    nullary main_cst_4 (constant S_ .f32 0x00000000#32),
    unary main_cst_4 main_v22 (broadcastInDim S50000x200 ![] bcast_S_S50000x200 : (⟨S_, .f32⟩ : BufTy).Contents (Elt F) → (⟨S50000x200, .f32⟩ : BufTy).Contents (Elt F)),
    unary main_arg2 main_v23 (broadcastInDim S262144x1 ![0] bcast_S262144_S262144x1_0 : (⟨S262144, .i32⟩ : BufTy).Contents (Elt F) → (⟨S262144x1, .i32⟩ : BufTy).Contents (Elt F)),
    ternary main_v22 main_v23 main_v21 main_v24 ((fun x i u => Host.scatterAdd scatter_S50000x200_S262144x1_S262144x200_1_0_0_1 x i u) : (⟨S50000x200, .f32⟩ : BufTy).Contents (Elt F) → (⟨S262144x1, .i32⟩ : BufTy).Contents (Elt F) → (⟨S262144x200, .f32⟩ : BufTy).Contents (Elt F) → (⟨S50000x200, .f32⟩ : BufTy).Contents (Elt F)),
    binary main_v24 main_arg5 main_v25 ((fun l r => Host.dotGeneral dot_S50000x200_S200x150_S50000x150_1_0_0_1_n_n none l r) : (⟨S50000x200, .f32⟩ : BufTy).Contents (Elt F) → (⟨S200x150, .f32⟩ : BufTy).Contents (Elt F) → (⟨S50000x150, .f32⟩ : BufTy).Contents (Elt F)),
    unary main_arg6 main_v26 (broadcastInDim S1x150 ![1] bcast_S150_S1x150_1 : (⟨S150, .f32⟩ : BufTy).Contents (Elt F) → (⟨S1x150, .f32⟩ : BufTy).Contents (Elt F)),
    unary main_v26 main_v27 (broadcastInDim S50000x150 ![0, 1] bcast_S1x150_S50000x150_0_1 : (⟨S1x150, .f32⟩ : BufTy).Contents (Elt F) → (⟨S50000x150, .f32⟩ : BufTy).Contents (Elt F)),
    binary main_v25 main_v27 main_v28 (addf : (⟨S50000x150, .f32⟩ : BufTy).Contents (Elt F) → (⟨S50000x150, .f32⟩ : BufTy).Contents (Elt F) → (⟨S50000x150, .f32⟩ : BufTy).Contents (Elt F)),
    nullary main_cst_5 (constant S_ .f32 0xFF800000#32),
    binary main_v28 main_cst_5 main_v29 ((fun x v => Host.reduce FloatOps.maximumf x v reducesTo_S50000x150_S50000_d1 h_S_) : (⟨S50000x150, .f32⟩ : BufTy).Contents (Elt F) → (⟨S_, .f32⟩ : BufTy).Contents (Elt F) → (⟨S50000, .f32⟩ : BufTy).Contents (Elt F)),
    nullary main_cst_6 (constant S_ .f32 0xFF800000#32),
    unary main_cst_6 main_v30 (broadcastInDim S50000 ![] bcast_S_S50000 : (⟨S_, .f32⟩ : BufTy).Contents (Elt F) → (⟨S50000, .f32⟩ : BufTy).Contents (Elt F)),
    binary main_v30 main_v29 main_v31 (maximumf : (⟨S50000, .f32⟩ : BufTy).Contents (Elt F) → (⟨S50000, .f32⟩ : BufTy).Contents (Elt F) → (⟨S50000, .f32⟩ : BufTy).Contents (Elt F)),
    unary main_v31 main_v32 (broadcastInDim S50000x1 ![0] bcast_S50000_S50000x1_0 : (⟨S50000, .f32⟩ : BufTy).Contents (Elt F) → (⟨S50000x1, .f32⟩ : BufTy).Contents (Elt F)),
    unary main_v32 main_v33 (broadcastInDim S50000x150 ![0, 1] bcast_S50000x1_S50000x150_0_1 : (⟨S50000x1, .f32⟩ : BufTy).Contents (Elt F) → (⟨S50000x150, .f32⟩ : BufTy).Contents (Elt F)),
    binary main_v28 main_v33 main_v34 (subf : (⟨S50000x150, .f32⟩ : BufTy).Contents (Elt F) → (⟨S50000x150, .f32⟩ : BufTy).Contents (Elt F) → (⟨S50000x150, .f32⟩ : BufTy).Contents (Elt F)),
    unary main_v34 main_v35 (Host.exp : (⟨S50000x150, .f32⟩ : BufTy).Contents (Elt F) → (⟨S50000x150, .f32⟩ : BufTy).Contents (Elt F)),
    nullary main_cst_7 (constant S_ .f32 0x00000000#32),
    binary main_v35 main_cst_7 main_v36 ((fun x v => Host.reduceAdd x v reducesTo_S50000x150_S50000_d1 h_S_) : (⟨S50000x150, .f32⟩ : BufTy).Contents (Elt F) → (⟨S_, .f32⟩ : BufTy).Contents (Elt F) → (⟨S50000, .f32⟩ : BufTy).Contents (Elt F)),
    unary main_v36 main_v37 (broadcastInDim S50000x1 ![0] bcast_S50000_S50000x1_0 : (⟨S50000, .f32⟩ : BufTy).Contents (Elt F) → (⟨S50000x1, .f32⟩ : BufTy).Contents (Elt F)),
    unary main_v37 main_v38 (broadcastInDim S50000x150 ![0, 1] bcast_S50000x1_S50000x150_0_1 : (⟨S50000x1, .f32⟩ : BufTy).Contents (Elt F) → (⟨S50000x150, .f32⟩ : BufTy).Contents (Elt F)),
    binary main_v35 main_v38 main_v39 (Host.divf : (⟨S50000x150, .f32⟩ : BufTy).Contents (Elt F) → (⟨S50000x150, .f32⟩ : BufTy).Contents (Elt F) → (⟨S50000x150, .f32⟩ : BufTy).Contents (Elt F)) ]

/-- Layer 3 (150 → 100, leaky rectifier). -/
def ops2 : List (HloOp τ sig (Elt F)) :=
  [ nullary main_c_8 (constantI S_ 32 0#32),
    unary main_c_8 main_v40 (broadcastInDim S262144 ![] bcast_S_S262144 : (⟨S_, .i32⟩ : BufTy).Contents (Elt F) → (⟨S262144, .i32⟩ : BufTy).Contents (Elt F)),
    binary main_arg1 main_v40 main_v41 (cmpi .slt : (⟨S262144, .i32⟩ : BufTy).Contents (Elt F) → (⟨S262144, .i32⟩ : BufTy).Contents (Elt F) → (⟨S262144, .i1⟩ : BufTy).Contents (Elt F)),
    nullary main_c_9 (constantI S_ 32 50000#32),
    unary main_c_9 main_v42 (broadcastInDim S262144 ![] bcast_S_S262144 : (⟨S_, .i32⟩ : BufTy).Contents (Elt F) → (⟨S262144, .i32⟩ : BufTy).Contents (Elt F)),
    binary main_arg1 main_v42 main_v43 (addi : (⟨S262144, .i32⟩ : BufTy).Contents (Elt F) → (⟨S262144, .i32⟩ : BufTy).Contents (Elt F) → (⟨S262144, .i32⟩ : BufTy).Contents (Elt F)),
    ternary main_v41 main_v43 main_arg1 main_v44 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v44 main_v45 (broadcastInDim S262144x1 ![0] bcast_S262144_S262144x1_0 : (⟨S262144, .i32⟩ : BufTy).Contents (Elt F) → (⟨S262144x1, .i32⟩ : BufTy).Contents (Elt F)),
    binary main_v39 main_v45 main_v46 ((fun x i => Host.gather gather_S50000x150_S262144x1_S262144x150_1_0_n_n_0_1_1150 x i) : (⟨S50000x150, .f32⟩ : BufTy).Contents (Elt F) → (⟨S262144x1, .i32⟩ : BufTy).Contents (Elt F) → (⟨S262144x150, .f32⟩ : BufTy).Contents (Elt F)),
    nullary main_cst_10 (constant S_ .f32 0x00000000#32),
    unary main_cst_10 main_v47 (broadcastInDim S50000x150 ![] bcast_S_S50000x150 : (⟨S_, .f32⟩ : BufTy).Contents (Elt F) → (⟨S50000x150, .f32⟩ : BufTy).Contents (Elt F)),
    unary main_arg2 main_v48 (broadcastInDim S262144x1 ![0] bcast_S262144_S262144x1_0 : (⟨S262144, .i32⟩ : BufTy).Contents (Elt F) → (⟨S262144x1, .i32⟩ : BufTy).Contents (Elt F)),
    ternary main_v47 main_v48 main_v46 main_v49 ((fun x i u => Host.scatterAdd scatter_S50000x150_S262144x1_S262144x150_1_0_0_1 x i u) : (⟨S50000x150, .f32⟩ : BufTy).Contents (Elt F) → (⟨S262144x1, .i32⟩ : BufTy).Contents (Elt F) → (⟨S262144x150, .f32⟩ : BufTy).Contents (Elt F) → (⟨S50000x150, .f32⟩ : BufTy).Contents (Elt F)),
    binary main_v49 main_arg7 main_v50 ((fun l r => Host.dotGeneral dot_S50000x150_S150x100_S50000x100_1_0_0_1_n_n none l r) : (⟨S50000x150, .f32⟩ : BufTy).Contents (Elt F) → (⟨S150x100, .f32⟩ : BufTy).Contents (Elt F) → (⟨S50000x100, .f32⟩ : BufTy).Contents (Elt F)),
    unary main_arg8 main_v51 (broadcastInDim S1x100 ![1] bcast_S100_S1x100_1 : (⟨S100, .f32⟩ : BufTy).Contents (Elt F) → (⟨S1x100, .f32⟩ : BufTy).Contents (Elt F)),
    unary main_v51 main_v52 (broadcastInDim S50000x100 ![0, 1] bcast_S1x100_S50000x100_0_1 : (⟨S1x100, .f32⟩ : BufTy).Contents (Elt F) → (⟨S50000x100, .f32⟩ : BufTy).Contents (Elt F)),
    binary main_v50 main_v52 main_v53 (addf : (⟨S50000x100, .f32⟩ : BufTy).Contents (Elt F) → (⟨S50000x100, .f32⟩ : BufTy).Contents (Elt F) → (⟨S50000x100, .f32⟩ : BufTy).Contents (Elt F)),
    nullary main_cst_11 (constant S_ .f32 0x3C23D70A#32),
    nullary main_call1_cst (constant S_ .f32 0x00000000#32),
    unary main_call1_cst main_call1_v0 (broadcastInDim S50000x100 ![] bcast_S_S50000x100 : (⟨S_, .f32⟩ : BufTy).Contents (Elt F) → (⟨S50000x100, .f32⟩ : BufTy).Contents (Elt F)),
    binary main_v53 main_call1_v0 main_call1_v1 (cmpf .oge : (⟨S50000x100, .f32⟩ : BufTy).Contents (Elt F) → (⟨S50000x100, .f32⟩ : BufTy).Contents (Elt F) → (⟨S50000x100, .i1⟩ : BufTy).Contents (Elt F)),
    unary main_cst_11 main_call1_v2 (id : (⟨S_, .f32⟩ : BufTy).Contents (Elt F) → (⟨S_, .f32⟩ : BufTy).Contents (Elt F)),
    unary main_call1_v2 main_call1_v3 (broadcastInDim S50000x100 ![] bcast_S_S50000x100 : (⟨S_, .f32⟩ : BufTy).Contents (Elt F) → (⟨S50000x100, .f32⟩ : BufTy).Contents (Elt F)),
    binary main_call1_v3 main_v53 main_call1_v4 (mulf : (⟨S50000x100, .f32⟩ : BufTy).Contents (Elt F) → (⟨S50000x100, .f32⟩ : BufTy).Contents (Elt F) → (⟨S50000x100, .f32⟩ : BufTy).Contents (Elt F)),
    ternary main_call1_v1 main_v53 main_call1_v4 main_v54 (select : (⟨S50000x100, .i1⟩ : BufTy).Contents (Elt F) → (⟨S50000x100, .f32⟩ : BufTy).Contents (Elt F) → (⟨S50000x100, .f32⟩ : BufTy).Contents (Elt F) → (⟨S50000x100, .f32⟩ : BufTy).Contents (Elt F)) ]

/-- Layer 4 (100 → 50, softmax). -/
def ops3 : List (HloOp τ sig (Elt F)) :=
  [ nullary main_c_12 (constantI S_ 32 0#32),
    unary main_c_12 main_v55 (broadcastInDim S262144 ![] bcast_S_S262144 : (⟨S_, .i32⟩ : BufTy).Contents (Elt F) → (⟨S262144, .i32⟩ : BufTy).Contents (Elt F)),
    binary main_arg1 main_v55 main_v56 (cmpi .slt : (⟨S262144, .i32⟩ : BufTy).Contents (Elt F) → (⟨S262144, .i32⟩ : BufTy).Contents (Elt F) → (⟨S262144, .i1⟩ : BufTy).Contents (Elt F)),
    nullary main_c_13 (constantI S_ 32 50000#32),
    unary main_c_13 main_v57 (broadcastInDim S262144 ![] bcast_S_S262144 : (⟨S_, .i32⟩ : BufTy).Contents (Elt F) → (⟨S262144, .i32⟩ : BufTy).Contents (Elt F)),
    binary main_arg1 main_v57 main_v58 (addi : (⟨S262144, .i32⟩ : BufTy).Contents (Elt F) → (⟨S262144, .i32⟩ : BufTy).Contents (Elt F) → (⟨S262144, .i32⟩ : BufTy).Contents (Elt F)),
    ternary main_v56 main_v58 main_arg1 main_v59 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v59 main_v60 (broadcastInDim S262144x1 ![0] bcast_S262144_S262144x1_0 : (⟨S262144, .i32⟩ : BufTy).Contents (Elt F) → (⟨S262144x1, .i32⟩ : BufTy).Contents (Elt F)),
    binary main_v54 main_v60 main_v61 ((fun x i => Host.gather gather_S50000x100_S262144x1_S262144x100_1_0_n_n_0_1_1100 x i) : (⟨S50000x100, .f32⟩ : BufTy).Contents (Elt F) → (⟨S262144x1, .i32⟩ : BufTy).Contents (Elt F) → (⟨S262144x100, .f32⟩ : BufTy).Contents (Elt F)),
    nullary main_cst_14 (constant S_ .f32 0x00000000#32),
    unary main_cst_14 main_v62 (broadcastInDim S50000x100 ![] bcast_S_S50000x100 : (⟨S_, .f32⟩ : BufTy).Contents (Elt F) → (⟨S50000x100, .f32⟩ : BufTy).Contents (Elt F)),
    unary main_arg2 main_v63 (broadcastInDim S262144x1 ![0] bcast_S262144_S262144x1_0 : (⟨S262144, .i32⟩ : BufTy).Contents (Elt F) → (⟨S262144x1, .i32⟩ : BufTy).Contents (Elt F)),
    ternary main_v62 main_v63 main_v61 main_v64 ((fun x i u => Host.scatterAdd scatter_S50000x100_S262144x1_S262144x100_1_0_0_1 x i u) : (⟨S50000x100, .f32⟩ : BufTy).Contents (Elt F) → (⟨S262144x1, .i32⟩ : BufTy).Contents (Elt F) → (⟨S262144x100, .f32⟩ : BufTy).Contents (Elt F) → (⟨S50000x100, .f32⟩ : BufTy).Contents (Elt F)),
    binary main_v64 main_arg9 main_v65 ((fun l r => Host.dotGeneral dot_S50000x100_S100x50_S50000x50_1_0_0_1_n_n none l r) : (⟨S50000x100, .f32⟩ : BufTy).Contents (Elt F) → (⟨S100x50, .f32⟩ : BufTy).Contents (Elt F) → (⟨S50000x50, .f32⟩ : BufTy).Contents (Elt F)),
    unary main_arg10 main_v66 (broadcastInDim S1x50 ![1] bcast_S50_S1x50_1 : (⟨S50, .f32⟩ : BufTy).Contents (Elt F) → (⟨S1x50, .f32⟩ : BufTy).Contents (Elt F)),
    unary main_v66 main_v67 (broadcastInDim S50000x50 ![0, 1] bcast_S1x50_S50000x50_0_1 : (⟨S1x50, .f32⟩ : BufTy).Contents (Elt F) → (⟨S50000x50, .f32⟩ : BufTy).Contents (Elt F)),
    binary main_v65 main_v67 main_v68 (addf : (⟨S50000x50, .f32⟩ : BufTy).Contents (Elt F) → (⟨S50000x50, .f32⟩ : BufTy).Contents (Elt F) → (⟨S50000x50, .f32⟩ : BufTy).Contents (Elt F)),
    nullary main_cst_15 (constant S_ .f32 0xFF800000#32),
    binary main_v68 main_cst_15 main_v69 ((fun x v => Host.reduce FloatOps.maximumf x v reducesTo_S50000x50_S50000_d1 h_S_) : (⟨S50000x50, .f32⟩ : BufTy).Contents (Elt F) → (⟨S_, .f32⟩ : BufTy).Contents (Elt F) → (⟨S50000, .f32⟩ : BufTy).Contents (Elt F)),
    nullary main_cst_16 (constant S_ .f32 0xFF800000#32),
    unary main_cst_16 main_v70 (broadcastInDim S50000 ![] bcast_S_S50000 : (⟨S_, .f32⟩ : BufTy).Contents (Elt F) → (⟨S50000, .f32⟩ : BufTy).Contents (Elt F)),
    binary main_v70 main_v69 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x50 ![0, 1] bcast_S50000x1_S50000x50_0_1 : (⟨S50000x1, .f32⟩ : BufTy).Contents (Elt F) → (⟨S50000x50, .f32⟩ : BufTy).Contents (Elt F)),
    binary main_v68 main_v73 main_v74 (subf : (⟨S50000x50, .f32⟩ : BufTy).Contents (Elt F) → (⟨S50000x50, .f32⟩ : BufTy).Contents (Elt F) → (⟨S50000x50, .f32⟩ : BufTy).Contents (Elt F)),
    unary main_v74 main_v75 (Host.exp : (⟨S50000x50, .f32⟩ : BufTy).Contents (Elt F) → (⟨S50000x50, .f32⟩ : BufTy).Contents (Elt F)),
    nullary main_cst_17 (constant S_ .f32 0x00000000#32),
    binary main_v75 main_cst_17 main_v76 ((fun x v => Host.reduceAdd x v reducesTo_S50000x50_S50000_d1 h_S_) : (⟨S50000x50, .f32⟩ : BufTy).Contents (Elt F) → (⟨S_, .f32⟩ : BufTy).Contents (Elt F) → (⟨S50000, .f32⟩ : BufTy).Contents (Elt F)),
    unary main_v76 main_v77 (broadcastInDim S50000x1 ![0] bcast_S50000_S50000x1_0 : (⟨S50000, .f32⟩ : BufTy).Contents (Elt F) → (⟨S50000x1, .f32⟩ : BufTy).Contents (Elt F)),
    unary main_v77 main_v78 (broadcastInDim S50000x50 ![0, 1] bcast_S50000x1_S50000x50_0_1 : (⟨S50000x1, .f32⟩ : BufTy).Contents (Elt F) → (⟨S50000x50, .f32⟩ : BufTy).Contents (Elt F)),
    binary main_v75 main_v78 main_v79 (Host.divf : (⟨S50000x50, .f32⟩ : BufTy).Contents (Elt F) → (⟨S50000x50, .f32⟩ : BufTy).Contents (Elt F) → (⟨S50000x50, .f32⟩ : BufTy).Contents (Elt F)) ]

/-- Layer 5 (50 → 25, leaky rectifier). -/
def ops4 : List (HloOp τ sig (Elt F)) :=
  [ nullary main_c_18 (constantI S_ 32 0#32),
    unary main_c_18 main_v80 (broadcastInDim S262144 ![] bcast_S_S262144 : (⟨S_, .i32⟩ : BufTy).Contents (Elt F) → (⟨S262144, .i32⟩ : BufTy).Contents (Elt F)),
    binary main_arg1 main_v80 main_v81 (cmpi .slt : (⟨S262144, .i32⟩ : BufTy).Contents (Elt F) → (⟨S262144, .i32⟩ : BufTy).Contents (Elt F) → (⟨S262144, .i1⟩ : BufTy).Contents (Elt F)),
    nullary main_c_19 (constantI S_ 32 50000#32),
    unary main_c_19 main_v82 (broadcastInDim S262144 ![] bcast_S_S262144 : (⟨S_, .i32⟩ : BufTy).Contents (Elt F) → (⟨S262144, .i32⟩ : BufTy).Contents (Elt F)),
    binary main_arg1 main_v82 main_v83 (addi : (⟨S262144, .i32⟩ : BufTy).Contents (Elt F) → (⟨S262144, .i32⟩ : BufTy).Contents (Elt F) → (⟨S262144, .i32⟩ : BufTy).Contents (Elt F)),
    ternary main_v81 main_v83 main_arg1 main_v84 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v84 main_v85 (broadcastInDim S262144x1 ![0] bcast_S262144_S262144x1_0 : (⟨S262144, .i32⟩ : BufTy).Contents (Elt F) → (⟨S262144x1, .i32⟩ : BufTy).Contents (Elt F)),
    binary main_v79 main_v85 main_v86 ((fun x i => Host.gather gather_S50000x50_S262144x1_S262144x50_1_0_n_n_0_1_150 x i) : (⟨S50000x50, .f32⟩ : BufTy).Contents (Elt F) → (⟨S262144x1, .i32⟩ : BufTy).Contents (Elt F) → (⟨S262144x50, .f32⟩ : BufTy).Contents (Elt F)),
    nullary main_cst_20 (constant S_ .f32 0x00000000#32),
    unary main_cst_20 main_v87 (broadcastInDim S50000x50 ![] bcast_S_S50000x50 : (⟨S_, .f32⟩ : BufTy).Contents (Elt F) → (⟨S50000x50, .f32⟩ : BufTy).Contents (Elt F)),
    unary main_arg2 main_v88 (broadcastInDim S262144x1 ![0] bcast_S262144_S262144x1_0 : (⟨S262144, .i32⟩ : BufTy).Contents (Elt F) → (⟨S262144x1, .i32⟩ : BufTy).Contents (Elt F)),
    ternary main_v87 main_v88 main_v86 main_v89 ((fun x i u => Host.scatterAdd scatter_S50000x50_S262144x1_S262144x50_1_0_0_1 x i u) : (⟨S50000x50, .f32⟩ : BufTy).Contents (Elt F) → (⟨S262144x1, .i32⟩ : BufTy).Contents (Elt F) → (⟨S262144x50, .f32⟩ : BufTy).Contents (Elt F) → (⟨S50000x50, .f32⟩ : BufTy).Contents (Elt F)),
    binary main_v89 main_arg11 main_v90 ((fun l r => Host.dotGeneral dot_S50000x50_S50x25_S50000x25_1_0_0_1_n_n none l r) : (⟨S50000x50, .f32⟩ : BufTy).Contents (Elt F) → (⟨S50x25, .f32⟩ : BufTy).Contents (Elt F) → (⟨S50000x25, .f32⟩ : BufTy).Contents (Elt F)),
    unary main_arg12 main_v91 (broadcastInDim S1x25 ![1] bcast_S25_S1x25_1 : (⟨S25, .f32⟩ : BufTy).Contents (Elt F) → (⟨S1x25, .f32⟩ : BufTy).Contents (Elt F)),
    unary main_v91 main_v92 (broadcastInDim S50000x25 ![0, 1] bcast_S1x25_S50000x25_0_1 : (⟨S1x25, .f32⟩ : BufTy).Contents (Elt F) → (⟨S50000x25, .f32⟩ : BufTy).Contents (Elt F)),
    binary main_v90 main_v92 main_v93 (addf : (⟨S50000x25, .f32⟩ : BufTy).Contents (Elt F) → (⟨S50000x25, .f32⟩ : BufTy).Contents (Elt F) → (⟨S50000x25, .f32⟩ : BufTy).Contents (Elt F)),
    nullary main_cst_21 (constant S_ .f32 0x3C23D70A#32),
    nullary main_call2_cst (constant S_ .f32 0x00000000#32),
    unary main_call2_cst main_call2_v0 (broadcastInDim S50000x25 ![] bcast_S_S50000x25 : (⟨S_, .f32⟩ : BufTy).Contents (Elt F) → (⟨S50000x25, .f32⟩ : BufTy).Contents (Elt F)),
    binary main_v93 main_call2_v0 main_call2_v1 (cmpf .oge : (⟨S50000x25, .f32⟩ : BufTy).Contents (Elt F) → (⟨S50000x25, .f32⟩ : BufTy).Contents (Elt F) → (⟨S50000x25, .i1⟩ : BufTy).Contents (Elt F)),
    unary main_cst_21 main_call2_v2 (id : (⟨S_, .f32⟩ : BufTy).Contents (Elt F) → (⟨S_, .f32⟩ : BufTy).Contents (Elt F)),
    unary main_call2_v2 main_call2_v3 (broadcastInDim S50000x25 ![] bcast_S_S50000x25 : (⟨S_, .f32⟩ : BufTy).Contents (Elt F) → (⟨S50000x25, .f32⟩ : BufTy).Contents (Elt F)),
    binary main_call2_v3 main_v93 main_call2_v4 (mulf : (⟨S50000x25, .f32⟩ : BufTy).Contents (Elt F) → (⟨S50000x25, .f32⟩ : BufTy).Contents (Elt F) → (⟨S50000x25, .f32⟩ : BufTy).Contents (Elt F)),
    ternary main_call2_v1 main_v93 main_call2_v4 main_v94 (select : (⟨S50000x25, .i1⟩ : BufTy).Contents (Elt F) → (⟨S50000x25, .f32⟩ : BufTy).Contents (Elt F) → (⟨S50000x25, .f32⟩ : BufTy).Contents (Elt F) → (⟨S50000x25, .f32⟩ : BufTy).Contents (Elt F)) ]

/-- Layer 6 (25 → 3, log-softmax): message passing and the affine map, then the log-softmax's fifteen operations into the call's record. -/
def ops5 : List (HloOp τ sig (Elt F)) :=
  [ nullary main_c_22 (constantI S_ 32 0#32),
    unary main_c_22 main_v95 (broadcastInDim S262144 ![] bcast_S_S262144 : (⟨S_, .i32⟩ : BufTy).Contents (Elt F) → (⟨S262144, .i32⟩ : BufTy).Contents (Elt F)),
    binary main_arg1 main_v95 main_v96 (cmpi .slt : (⟨S262144, .i32⟩ : BufTy).Contents (Elt F) → (⟨S262144, .i32⟩ : BufTy).Contents (Elt F) → (⟨S262144, .i1⟩ : BufTy).Contents (Elt F)),
    nullary main_c_23 (constantI S_ 32 50000#32),
    unary main_c_23 main_v97 (broadcastInDim S262144 ![] bcast_S_S262144 : (⟨S_, .i32⟩ : BufTy).Contents (Elt F) → (⟨S262144, .i32⟩ : BufTy).Contents (Elt F)),
    binary main_arg1 main_v97 main_v98 (addi : (⟨S262144, .i32⟩ : BufTy).Contents (Elt F) → (⟨S262144, .i32⟩ : BufTy).Contents (Elt F) → (⟨S262144, .i32⟩ : BufTy).Contents (Elt F)),
    ternary main_v96 main_v98 main_arg1 main_v99 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v99 main_v100 (broadcastInDim S262144x1 ![0] bcast_S262144_S262144x1_0 : (⟨S262144, .i32⟩ : BufTy).Contents (Elt F) → (⟨S262144x1, .i32⟩ : BufTy).Contents (Elt F)),
    binary main_v94 main_v100 main_v101 ((fun x i => Host.gather gather_S50000x25_S262144x1_S262144x25_1_0_n_n_0_1_125 x i) : (⟨S50000x25, .f32⟩ : BufTy).Contents (Elt F) → (⟨S262144x1, .i32⟩ : BufTy).Contents (Elt F) → (⟨S262144x25, .f32⟩ : BufTy).Contents (Elt F)),
    nullary main_cst_24 (constant S_ .f32 0x00000000#32),
    unary main_cst_24 main_v102 (broadcastInDim S50000x25 ![] bcast_S_S50000x25 : (⟨S_, .f32⟩ : BufTy).Contents (Elt F) → (⟨S50000x25, .f32⟩ : BufTy).Contents (Elt F)),
    unary main_arg2 main_v103 (broadcastInDim S262144x1 ![0] bcast_S262144_S262144x1_0 : (⟨S262144, .i32⟩ : BufTy).Contents (Elt F) → (⟨S262144x1, .i32⟩ : BufTy).Contents (Elt F)),
    ternary main_v102 main_v103 main_v101 main_v104 ((fun x i u => Host.scatterAdd scatter_S50000x25_S262144x1_S262144x25_1_0_0_1 x i u) : (⟨S50000x25, .f32⟩ : BufTy).Contents (Elt F) → (⟨S262144x1, .i32⟩ : BufTy).Contents (Elt F) → (⟨S262144x25, .f32⟩ : BufTy).Contents (Elt F) → (⟨S50000x25, .f32⟩ : BufTy).Contents (Elt F)),
    binary main_v104 main_arg13 main_v105 ((fun l r => Host.dotGeneral dot_S50000x25_S25x3_S50000x3_1_0_0_1_n_n none l r) : (⟨S50000x25, .f32⟩ : BufTy).Contents (Elt F) → (⟨S25x3, .f32⟩ : BufTy).Contents (Elt F) → (⟨S50000x3, .f32⟩ : BufTy).Contents (Elt F)),
    unary main_arg14 main_v106 (broadcastInDim S1x3 ![1] bcast_S3_S1x3_1 : (⟨S3, .f32⟩ : BufTy).Contents (Elt F) → (⟨S1x3, .f32⟩ : BufTy).Contents (Elt F)),
    unary main_v106 main_v107 (broadcastInDim S50000x3 ![0, 1] bcast_S1x3_S50000x3_0_1 : (⟨S1x3, .f32⟩ : BufTy).Contents (Elt F) → (⟨S50000x3, .f32⟩ : BufTy).Contents (Elt F)),
    binary main_v105 main_v107 main_v108 (addf : (⟨S50000x3, .f32⟩ : BufTy).Contents (Elt F) → (⟨S50000x3, .f32⟩ : BufTy).Contents (Elt F) → (⟨S50000x3, .f32⟩ : BufTy).Contents (Elt F)),
    nullary main_call3_cst (constant S_ .f32 0xFF800000#32),
    binary main_v108 main_call3_cst main_call3_v0 ((fun x v => Host.reduce FloatOps.maximumf x v reducesTo_S50000x3_S50000_d1 h_S_) : (⟨S50000x3, .f32⟩ : BufTy).Contents (Elt F) → (⟨S_, .f32⟩ : BufTy).Contents (Elt F) → (⟨S50000, .f32⟩ : BufTy).Contents (Elt F)),
    nullary main_call3_cst_0 (constant S_ .f32 0xFF800000#32),
    unary main_call3_cst_0 main_call3_v1 (broadcastInDim S50000 ![] bcast_S_S50000 : (⟨S_, .f32⟩ : BufTy).Contents (Elt F) → (⟨S50000, .f32⟩ : BufTy).Contents (Elt F)),
    binary main_call3_v1 main_call3_v0 main_call3_v2 (maximumf : (⟨S50000, .f32⟩ : BufTy).Contents (Elt F) → (⟨S50000, .f32⟩ : BufTy).Contents (Elt F) → (⟨S50000, .f32⟩ : BufTy).Contents (Elt F)),
    unary main_call3_v2 main_call3_v3 (broadcastInDim S50000x1 ![0] bcast_S50000_S50000x1_0 : (⟨S50000, .f32⟩ : BufTy).Contents (Elt F) → (⟨S50000x1, .f32⟩ : BufTy).Contents (Elt F)),
    unary main_call3_v3 main_call3_v4 (broadcastInDim S50000x3 ![0, 1] bcast_S50000x1_S50000x3_0_1 : (⟨S50000x1, .f32⟩ : BufTy).Contents (Elt F) → (⟨S50000x3, .f32⟩ : BufTy).Contents (Elt F)),
    binary main_v108 main_call3_v4 main_call3_v5 (subf : (⟨S50000x3, .f32⟩ : BufTy).Contents (Elt F) → (⟨S50000x3, .f32⟩ : BufTy).Contents (Elt F) → (⟨S50000x3, .f32⟩ : BufTy).Contents (Elt F)),
    unary main_call3_v5 main_call3_v6 (Host.exp : (⟨S50000x3, .f32⟩ : BufTy).Contents (Elt F) → (⟨S50000x3, .f32⟩ : BufTy).Contents (Elt F)),
    nullary main_call3_cst_1 (constant S_ .f32 0x00000000#32),
    binary main_call3_v6 main_call3_cst_1 main_call3_v7 ((fun x v => Host.reduceAdd x v reducesTo_S50000x3_S50000_d1 h_S_) : (⟨S50000x3, .f32⟩ : BufTy).Contents (Elt F) → (⟨S_, .f32⟩ : BufTy).Contents (Elt F) → (⟨S50000, .f32⟩ : BufTy).Contents (Elt F)),
    unary main_call3_v7 main_call3_v8 (broadcastInDim S50000x1 ![0] bcast_S50000_S50000x1_0 : (⟨S50000, .f32⟩ : BufTy).Contents (Elt F) → (⟨S50000x1, .f32⟩ : BufTy).Contents (Elt F)),
    unary main_call3_v8 main_call3_v9 (Host.log : (⟨S50000x1, .f32⟩ : BufTy).Contents (Elt F) → (⟨S50000x1, .f32⟩ : BufTy).Contents (Elt F)),
    unary main_call3_v9 main_call3_v10 (broadcastInDim S50000x3 ![0, 1] bcast_S50000x1_S50000x3_0_1 : (⟨S50000x1, .f32⟩ : BufTy).Contents (Elt F) → (⟨S50000x3, .f32⟩ : BufTy).Contents (Elt F)),
    binary main_call3_v5 main_call3_v10 main_v109 (subf : (⟨S50000x3, .f32⟩ : BufTy).Contents (Elt F) → (⟨S50000x3, .f32⟩ : BufTy).Contents (Elt F) → (⟨S50000x3, .f32⟩ : BufTy).Contents (Elt F)) ]

/-- @main's 169 operations in order: the six layers one after the other. -/
def ops : List (HloOp τ sig (Elt F)) := ops0 ++ ops1 ++ ops2 ++ ops3 ++ ops4 ++ ops5

/-- Layer 1's operations with the call's operations spelled as the callee's text spells them, over the record's typed references. -/
def opsT0 : List (HloOp τ sig (Elt F)) :=
  [ nullary main_c (constantI S_ 32 0#32),
    unary main_c main_v0 (broadcastInDim S262144 ![] bcast_S_S262144 : (⟨S_, .i32⟩ : BufTy).Contents (Elt F) → (⟨S262144, .i32⟩ : BufTy).Contents (Elt F)),
    binary main_arg1 main_v0 main_v1 (cmpi .slt : (⟨S262144, .i32⟩ : BufTy).Contents (Elt F) → (⟨S262144, .i32⟩ : BufTy).Contents (Elt F) → (⟨S262144, .i1⟩ : BufTy).Contents (Elt F)),
    nullary main_c_0 (constantI S_ 32 50000#32),
    unary main_c_0 main_v2 (broadcastInDim S262144 ![] bcast_S_S262144 : (⟨S_, .i32⟩ : BufTy).Contents (Elt F) → (⟨S262144, .i32⟩ : BufTy).Contents (Elt F)),
    binary main_arg1 main_v2 main_v3 (addi : (⟨S262144, .i32⟩ : BufTy).Contents (Elt F) → (⟨S262144, .i32⟩ : BufTy).Contents (Elt F) → (⟨S262144, .i32⟩ : BufTy).Contents (Elt F)),
    ternary main_v1 main_v3 main_arg1 main_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v4 main_v5 (broadcastInDim S262144x1 ![0] bcast_S262144_S262144x1_0 : (⟨S262144, .i32⟩ : BufTy).Contents (Elt F) → (⟨S262144x1, .i32⟩ : BufTy).Contents (Elt F)),
    binary main_arg0 main_v5 main_v6 ((fun x i => Host.gather gather_S50000x300_S262144x1_S262144x300_1_0_n_n_0_1_1300 x i) : (⟨S50000x300, .f32⟩ : BufTy).Contents (Elt F) → (⟨S262144x1, .i32⟩ : BufTy).Contents (Elt F) → (⟨S262144x300, .f32⟩ : BufTy).Contents (Elt F)),
    nullary main_cst (constant S_ .f32 0x00000000#32),
    unary main_cst main_v7 (broadcastInDim S50000x300 ![] bcast_S_S50000x300 : (⟨S_, .f32⟩ : BufTy).Contents (Elt F) → (⟨S50000x300, .f32⟩ : BufTy).Contents (Elt F)),
    unary main_arg2 main_v8 (broadcastInDim S262144x1 ![0] bcast_S262144_S262144x1_0 : (⟨S262144, .i32⟩ : BufTy).Contents (Elt F) → (⟨S262144x1, .i32⟩ : BufTy).Contents (Elt F)),
    ternary main_v7 main_v8 main_v6 main_v9 ((fun x i u => Host.scatterAdd scatter_S50000x300_S262144x1_S262144x300_1_0_0_1 x i u) : (⟨S50000x300, .f32⟩ : BufTy).Contents (Elt F) → (⟨S262144x1, .i32⟩ : BufTy).Contents (Elt F) → (⟨S262144x300, .f32⟩ : BufTy).Contents (Elt F) → (⟨S50000x300, .f32⟩ : BufTy).Contents (Elt F)),
    binary main_v9 main_arg3 main_v10 ((fun l r => Host.dotGeneral dot_S50000x300_S300x200_S50000x200_1_0_0_1_n_n none l r) : (⟨S50000x300, .f32⟩ : BufTy).Contents (Elt F) → (⟨S300x200, .f32⟩ : BufTy).Contents (Elt F) → (⟨S50000x200, .f32⟩ : BufTy).Contents (Elt F)),
    unary main_arg4 main_v11 (broadcastInDim S1x200 ![1] bcast_S200_S1x200_1 : (⟨S200, .f32⟩ : BufTy).Contents (Elt F) → (⟨S1x200, .f32⟩ : BufTy).Contents (Elt F)),
    unary main_v11 main_v12 (broadcastInDim S50000x200 ![0, 1] bcast_S1x200_S50000x200_0_1 : (⟨S1x200, .f32⟩ : BufTy).Contents (Elt F) → (⟨S50000x200, .f32⟩ : BufTy).Contents (Elt F)),
    binary main_v10 main_v12 main_v13 (addf : (⟨S50000x200, .f32⟩ : BufTy).Contents (Elt F) → (⟨S50000x200, .f32⟩ : BufTy).Contents (Elt F) → (⟨S50000x200, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x200 ![] bcast_S_S50000x200),
    TRef.binary (TRef.of main_v13 : TRef sig ⟨S50000x200, .f32⟩) main_call0.v0 main_call0.v1 (cmpf .oge),
    TRef.unary (TRef.of main_cst_1 : TRef sig ⟨S_, .f32⟩) main_call0.v2 id,
    TRef.unary main_call0.v2 main_call0.v3 (broadcastInDim S50000x200 ![] bcast_S_S50000x200),
    TRef.binary main_call0.v3 (TRef.of main_v13 : TRef sig ⟨S50000x200, .f32⟩) main_call0.v4 mulf,
    TRef.ternary main_call0.v1 (TRef.of main_v13 : TRef sig ⟨S50000x200, .f32⟩) main_call0.v4 main_call0.call0.v0 select ]

/-- Layer 3's operations with the call's operations spelled as the callee's text spells them, over the record's typed references. -/
def opsT2 : List (HloOp τ sig (Elt F)) :=
  [ nullary main_c_8 (constantI S_ 32 0#32),
    unary main_c_8 main_v40 (broadcastInDim S262144 ![] bcast_S_S262144 : (⟨S_, .i32⟩ : BufTy).Contents (Elt F) → (⟨S262144, .i32⟩ : BufTy).Contents (Elt F)),
    binary main_arg1 main_v40 main_v41 (cmpi .slt : (⟨S262144, .i32⟩ : BufTy).Contents (Elt F) → (⟨S262144, .i32⟩ : BufTy).Contents (Elt F) → (⟨S262144, .i1⟩ : BufTy).Contents (Elt F)),
    nullary main_c_9 (constantI S_ 32 50000#32),
    unary main_c_9 main_v42 (broadcastInDim S262144 ![] bcast_S_S262144 : (⟨S_, .i32⟩ : BufTy).Contents (Elt F) → (⟨S262144, .i32⟩ : BufTy).Contents (Elt F)),
    binary main_arg1 main_v42 main_v43 (addi : (⟨S262144, .i32⟩ : BufTy).Contents (Elt F) → (⟨S262144, .i32⟩ : BufTy).Contents (Elt F) → (⟨S262144, .i32⟩ : BufTy).Contents (Elt F)),
    ternary main_v41 main_v43 main_arg1 main_v44 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v44 main_v45 (broadcastInDim S262144x1 ![0] bcast_S262144_S262144x1_0 : (⟨S262144, .i32⟩ : BufTy).Contents (Elt F) → (⟨S262144x1, .i32⟩ : BufTy).Contents (Elt F)),
    binary main_v39 main_v45 main_v46 ((fun x i => Host.gather gather_S50000x150_S262144x1_S262144x150_1_0_n_n_0_1_1150 x i) : (⟨S50000x150, .f32⟩ : BufTy).Contents (Elt F) → (⟨S262144x1, .i32⟩ : BufTy).Contents (Elt F) → (⟨S262144x150, .f32⟩ : BufTy).Contents (Elt F)),
    nullary main_cst_10 (constant S_ .f32 0x00000000#32),
    unary main_cst_10 main_v47 (broadcastInDim S50000x150 ![] bcast_S_S50000x150 : (⟨S_, .f32⟩ : BufTy).Contents (Elt F) → (⟨S50000x150, .f32⟩ : BufTy).Contents (Elt F)),
    unary main_arg2 main_v48 (broadcastInDim S262144x1 ![0] bcast_S262144_S262144x1_0 : (⟨S262144, .i32⟩ : BufTy).Contents (Elt F) → (⟨S262144x1, .i32⟩ : BufTy).Contents (Elt F)),
    ternary main_v47 main_v48 main_v46 main_v49 ((fun x i u => Host.scatterAdd scatter_S50000x150_S262144x1_S262144x150_1_0_0_1 x i u) : (⟨S50000x150, .f32⟩ : BufTy).Contents (Elt F) → (⟨S262144x1, .i32⟩ : BufTy).Contents (Elt F) → (⟨S262144x150, .f32⟩ : BufTy).Contents (Elt F) → (⟨S50000x150, .f32⟩ : BufTy).Contents (Elt F)),
    binary main_v49 main_arg7 main_v50 ((fun l r => Host.dotGeneral dot_S50000x150_S150x100_S50000x100_1_0_0_1_n_n none l r) : (⟨S50000x150, .f32⟩ : BufTy).Contents (Elt F) → (⟨S150x100, .f32⟩ : BufTy).Contents (Elt F) → (⟨S50000x100, .f32⟩ : BufTy).Contents (Elt F)),
    unary main_arg8 main_v51 (broadcastInDim S1x100 ![1] bcast_S100_S1x100_1 : (⟨S100, .f32⟩ : BufTy).Contents (Elt F) → (⟨S1x100, .f32⟩ : BufTy).Contents (Elt F)),
    unary main_v51 main_v52 (broadcastInDim S50000x100 ![0, 1] bcast_S1x100_S50000x100_0_1 : (⟨S1x100, .f32⟩ : BufTy).Contents (Elt F) → (⟨S50000x100, .f32⟩ : BufTy).Contents (Elt F)),
    binary main_v50 main_v52 main_v53 (addf : (⟨S50000x100, .f32⟩ : BufTy).Contents (Elt F) → (⟨S50000x100, .f32⟩ : BufTy).Contents (Elt F) → (⟨S50000x100, .f32⟩ : BufTy).Contents (Elt F)),
    nullary main_cst_11 (constant S_ .f32 0x3C23D70A#32),
    TRef.nullary main_call1.cst (constant S_ .f32 0x00000000#32),
    TRef.unary main_call1.cst main_call1.v0 (broadcastInDim S50000x100 ![] bcast_S_S50000x100),
    TRef.binary (TRef.of main_v53 : TRef sig ⟨S50000x100, .f32⟩) main_call1.v0 main_call1.v1 (cmpf .oge),
    TRef.unary (TRef.of main_cst_11 : TRef sig ⟨S_, .f32⟩) main_call1.v2 id,
    TRef.unary main_call1.v2 main_call1.v3 (broadcastInDim S50000x100 ![] bcast_S_S50000x100),
    TRef.binary main_call1.v3 (TRef.of main_v53 : TRef sig ⟨S50000x100, .f32⟩) main_call1.v4 mulf,
    TRef.ternary main_call1.v1 (TRef.of main_v53 : TRef sig ⟨S50000x100, .f32⟩) main_call1.v4 main_call1.call0.v0 select ]

/-- Layer 5's operations with the call's operations spelled as the callee's text spells them, over the record's typed references. -/
def opsT4 : List (HloOp τ sig (Elt F)) :=
  [ nullary main_c_18 (constantI S_ 32 0#32),
    unary main_c_18 main_v80 (broadcastInDim S262144 ![] bcast_S_S262144 : (⟨S_, .i32⟩ : BufTy).Contents (Elt F) → (⟨S262144, .i32⟩ : BufTy).Contents (Elt F)),
    binary main_arg1 main_v80 main_v81 (cmpi .slt : (⟨S262144, .i32⟩ : BufTy).Contents (Elt F) → (⟨S262144, .i32⟩ : BufTy).Contents (Elt F) → (⟨S262144, .i1⟩ : BufTy).Contents (Elt F)),
    nullary main_c_19 (constantI S_ 32 50000#32),
    unary main_c_19 main_v82 (broadcastInDim S262144 ![] bcast_S_S262144 : (⟨S_, .i32⟩ : BufTy).Contents (Elt F) → (⟨S262144, .i32⟩ : BufTy).Contents (Elt F)),
    binary main_arg1 main_v82 main_v83 (addi : (⟨S262144, .i32⟩ : BufTy).Contents (Elt F) → (⟨S262144, .i32⟩ : BufTy).Contents (Elt F) → (⟨S262144, .i32⟩ : BufTy).Contents (Elt F)),
    ternary main_v81 main_v83 main_arg1 main_v84 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v84 main_v85 (broadcastInDim S262144x1 ![0] bcast_S262144_S262144x1_0 : (⟨S262144, .i32⟩ : BufTy).Contents (Elt F) → (⟨S262144x1, .i32⟩ : BufTy).Contents (Elt F)),
    binary main_v79 main_v85 main_v86 ((fun x i => Host.gather gather_S50000x50_S262144x1_S262144x50_1_0_n_n_0_1_150 x i) : (⟨S50000x50, .f32⟩ : BufTy).Contents (Elt F) → (⟨S262144x1, .i32⟩ : BufTy).Contents (Elt F) → (⟨S262144x50, .f32⟩ : BufTy).Contents (Elt F)),
    nullary main_cst_20 (constant S_ .f32 0x00000000#32),
    unary main_cst_20 main_v87 (broadcastInDim S50000x50 ![] bcast_S_S50000x50 : (⟨S_, .f32⟩ : BufTy).Contents (Elt F) → (⟨S50000x50, .f32⟩ : BufTy).Contents (Elt F)),
    unary main_arg2 main_v88 (broadcastInDim S262144x1 ![0] bcast_S262144_S262144x1_0 : (⟨S262144, .i32⟩ : BufTy).Contents (Elt F) → (⟨S262144x1, .i32⟩ : BufTy).Contents (Elt F)),
    ternary main_v87 main_v88 main_v86 main_v89 ((fun x i u => Host.scatterAdd scatter_S50000x50_S262144x1_S262144x50_1_0_0_1 x i u) : (⟨S50000x50, .f32⟩ : BufTy).Contents (Elt F) → (⟨S262144x1, .i32⟩ : BufTy).Contents (Elt F) → (⟨S262144x50, .f32⟩ : BufTy).Contents (Elt F) → (⟨S50000x50, .f32⟩ : BufTy).Contents (Elt F)),
    binary main_v89 main_arg11 main_v90 ((fun l r => Host.dotGeneral dot_S50000x50_S50x25_S50000x25_1_0_0_1_n_n none l r) : (⟨S50000x50, .f32⟩ : BufTy).Contents (Elt F) → (⟨S50x25, .f32⟩ : BufTy).Contents (Elt F) → (⟨S50000x25, .f32⟩ : BufTy).Contents (Elt F)),
    unary main_arg12 main_v91 (broadcastInDim S1x25 ![1] bcast_S25_S1x25_1 : (⟨S25, .f32⟩ : BufTy).Contents (Elt F) → (⟨S1x25, .f32⟩ : BufTy).Contents (Elt F)),
    unary main_v91 main_v92 (broadcastInDim S50000x25 ![0, 1] bcast_S1x25_S50000x25_0_1 : (⟨S1x25, .f32⟩ : BufTy).Contents (Elt F) → (⟨S50000x25, .f32⟩ : BufTy).Contents (Elt F)),
    binary main_v90 main_v92 main_v93 (addf : (⟨S50000x25, .f32⟩ : BufTy).Contents (Elt F) → (⟨S50000x25, .f32⟩ : BufTy).Contents (Elt F) → (⟨S50000x25, .f32⟩ : BufTy).Contents (Elt F)),
    nullary main_cst_21 (constant S_ .f32 0x3C23D70A#32),
    TRef.nullary main_call2.cst (constant S_ .f32 0x00000000#32),
    TRef.unary main_call2.cst main_call2.v0 (broadcastInDim S50000x25 ![] bcast_S_S50000x25),
    TRef.binary (TRef.of main_v93 : TRef sig ⟨S50000x25, .f32⟩) main_call2.v0 main_call2.v1 (cmpf .oge),
    TRef.unary (TRef.of main_cst_21 : TRef sig ⟨S_, .f32⟩) main_call2.v2 id,
    TRef.unary main_call2.v2 main_call2.v3 (broadcastInDim S50000x25 ![] bcast_S_S50000x25),
    TRef.binary main_call2.v3 (TRef.of main_v93 : TRef sig ⟨S50000x25, .f32⟩) main_call2.v4 mulf,
    TRef.ternary main_call2.v1 (TRef.of main_v93 : TRef sig ⟨S50000x25, .f32⟩) main_call2.v4 main_call2.call0.v0 select ]

/-- Layer 6's operations with the call's operations spelled as the callee's text spells them, over the record's typed references. -/
def opsT5 : List (HloOp τ sig (Elt F)) :=
  [ nullary main_c_22 (constantI S_ 32 0#32),
    unary main_c_22 main_v95 (broadcastInDim S262144 ![] bcast_S_S262144 : (⟨S_, .i32⟩ : BufTy).Contents (Elt F) → (⟨S262144, .i32⟩ : BufTy).Contents (Elt F)),
    binary main_arg1 main_v95 main_v96 (cmpi .slt : (⟨S262144, .i32⟩ : BufTy).Contents (Elt F) → (⟨S262144, .i32⟩ : BufTy).Contents (Elt F) → (⟨S262144, .i1⟩ : BufTy).Contents (Elt F)),
    nullary main_c_23 (constantI S_ 32 50000#32),
    unary main_c_23 main_v97 (broadcastInDim S262144 ![] bcast_S_S262144 : (⟨S_, .i32⟩ : BufTy).Contents (Elt F) → (⟨S262144, .i32⟩ : BufTy).Contents (Elt F)),
    binary main_arg1 main_v97 main_v98 (addi : (⟨S262144, .i32⟩ : BufTy).Contents (Elt F) → (⟨S262144, .i32⟩ : BufTy).Contents (Elt F) → (⟨S262144, .i32⟩ : BufTy).Contents (Elt F)),
    ternary main_v96 main_v98 main_arg1 main_v99 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v99 main_v100 (broadcastInDim S262144x1 ![0] bcast_S262144_S262144x1_0 : (⟨S262144, .i32⟩ : BufTy).Contents (Elt F) → (⟨S262144x1, .i32⟩ : BufTy).Contents (Elt F)),
    binary main_v94 main_v100 main_v101 ((fun x i => Host.gather gather_S50000x25_S262144x1_S262144x25_1_0_n_n_0_1_125 x i) : (⟨S50000x25, .f32⟩ : BufTy).Contents (Elt F) → (⟨S262144x1, .i32⟩ : BufTy).Contents (Elt F) → (⟨S262144x25, .f32⟩ : BufTy).Contents (Elt F)),
    nullary main_cst_24 (constant S_ .f32 0x00000000#32),
    unary main_cst_24 main_v102 (broadcastInDim S50000x25 ![] bcast_S_S50000x25 : (⟨S_, .f32⟩ : BufTy).Contents (Elt F) → (⟨S50000x25, .f32⟩ : BufTy).Contents (Elt F)),
    unary main_arg2 main_v103 (broadcastInDim S262144x1 ![0] bcast_S262144_S262144x1_0 : (⟨S262144, .i32⟩ : BufTy).Contents (Elt F) → (⟨S262144x1, .i32⟩ : BufTy).Contents (Elt F)),
    ternary main_v102 main_v103 main_v101 main_v104 ((fun x i u => Host.scatterAdd scatter_S50000x25_S262144x1_S262144x25_1_0_0_1 x i u) : (⟨S50000x25, .f32⟩ : BufTy).Contents (Elt F) → (⟨S262144x1, .i32⟩ : BufTy).Contents (Elt F) → (⟨S262144x25, .f32⟩ : BufTy).Contents (Elt F) → (⟨S50000x25, .f32⟩ : BufTy).Contents (Elt F)),
    binary main_v104 main_arg13 main_v105 ((fun l r => Host.dotGeneral dot_S50000x25_S25x3_S50000x3_1_0_0_1_n_n none l r) : (⟨S50000x25, .f32⟩ : BufTy).Contents (Elt F) → (⟨S25x3, .f32⟩ : BufTy).Contents (Elt F) → (⟨S50000x3, .f32⟩ : BufTy).Contents (Elt F)),
    unary main_arg14 main_v106 (broadcastInDim S1x3 ![1] bcast_S3_S1x3_1 : (⟨S3, .f32⟩ : BufTy).Contents (Elt F) → (⟨S1x3, .f32⟩ : BufTy).Contents (Elt F)),
    unary main_v106 main_v107 (broadcastInDim S50000x3 ![0, 1] bcast_S1x3_S50000x3_0_1 : (⟨S1x3, .f32⟩ : BufTy).Contents (Elt F) → (⟨S50000x3, .f32⟩ : BufTy).Contents (Elt F)),
    binary main_v105 main_v107 main_v108 (addf : (⟨S50000x3, .f32⟩ : BufTy).Contents (Elt F) → (⟨S50000x3, .f32⟩ : BufTy).Contents (Elt F) → (⟨S50000x3, .f32⟩ : BufTy).Contents (Elt F)),
    TRef.nullary main_call3.cst (constant S_ .f32 0xFF800000#32),
    TRef.binary (TRef.of main_v108 : TRef sig ⟨S50000x3, .f32⟩) main_call3.cst main_call3.v0 (fun x v => Host.reduce FloatOps.maximumf x v reducesTo_S50000x3_S50000_d1 h_S_),
    TRef.nullary main_call3.cst_0 (constant S_ .f32 0xFF800000#32),
    TRef.unary main_call3.cst_0 main_call3.v1 (broadcastInDim S50000 ![] bcast_S_S50000),
    TRef.binary main_call3.v1 main_call3.v0 main_call3.v2 maximumf,
    TRef.unary main_call3.v2 main_call3.v3 (broadcastInDim S50000x1 ![0] bcast_S50000_S50000x1_0),
    TRef.unary main_call3.v3 main_call3.v4 (broadcastInDim S50000x3 ![0, 1] bcast_S50000x1_S50000x3_0_1),
    TRef.binary (TRef.of main_v108 : TRef sig ⟨S50000x3, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S50000x3_S50000_d1 h_S_),
    TRef.unary main_call3.v7 main_call3.v8 (broadcastInDim S50000x1 ![0] bcast_S50000_S50000x1_0),
    TRef.unary main_call3.v8 main_call3.v9 Host.log,
    TRef.unary main_call3.v9 main_call3.v10 (broadcastInDim S50000x3 ![0, 1] bcast_S50000x1_S50000x3_0_1),
    TRef.binary main_call3.v5 main_call3.v10 main_call3.v11 subf ]

/-- At a record's literal buffers the callee's spelling of an operation is the plain one: the typed reference's
    buffer is the literal, and the transports along its type equation are the identity. -/
theorem opsT0_eq : (opsT0 : List (HloOp τ sig (Elt F))) = ops0 := rfl
theorem opsT2_eq : (opsT2 : List (HloOp τ sig (Elt F))) = ops2 := rfl
theorem opsT4_eq : (opsT4 : List (HloOp τ sig (Elt F))) = ops4 := rfl
theorem opsT5_eq : (opsT5 : List (HloOp τ sig (Elt F))) = ops5 := rfl

/-- @main's operations in order, the calls in their callees' spelling. -/
def opsT : List (HloOp τ sig (Elt F)) := opsT0 ++ ops1 ++ opsT2 ++ ops3 ++ opsT4 ++ opsT5

theorem opsT_eq : (opsT : List (HloOp τ sig (Elt F))) = ops := by
  unfold opsT ops
  rw [opsT0_eq, opsT2_eq, opsT4_eq, opsT5_eq]

/-- @main is that straight line: its three windows, the callees' bodies at their calls and the records at their
    fields unfolded, both sides are one chain of operation steps once sequencing is reassociated. -/
theorem main_eqT (c : Dev nD) : main (F := F) c = seq opsT := by
  simp only [main, main_part0, main_part1, main_part2, fn_leaky_relu.body, fn_where.body, fn_leaky_relu_0.body,
    fn_where_1.body, fn_leaky_relu_2.body, fn_where_3.body, fn_log_softmax.body, opsT, opsT0, ops1, opsT2, ops3, opsT4, opsT5,
    seq_append, seq, bind_assoc, pure_bind]

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its result -/

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl⟩

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_sub : (ops : List (HloOp τ sig (Elt F))).Forall fun op => op.bufs ⊆ tcRefs τ sig := by
  simp only [ops, List.forall_append]
  exact ⟨⟨⟨⟨⟨ops0_sub, ops1_sub⟩, ops2_sub⟩, ops3_sub⟩, ops4_sub⟩, ops5_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨⟨⟨⟨⟨ops0_fresh, ops1_fresh⟩, ops2_fresh⟩, ops3_fresh⟩, ops4_fresh⟩, ops5_fresh⟩
  exact List.forall_iff_forall_mem.mp h

/-! ## The contents after the line, one layer at a time -/

/-- Running two stretches one after the other is running the second from where the first ends. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- @main's fifteen arguments. -/
def argRefs : List (Ref sig .tc) :=
  [main_arg0, main_arg1, main_arg2, main_arg3, main_arg4, main_arg5, main_arg6, main_arg7, main_arg8, main_arg9, main_arg10, main_arg11, main_arg12, main_arg13, main_arg14]

set_option maxHeartbeats 4000000 in
/-- No operation of layer 1 writes an argument. -/
theorem frame0 (V : Valuation τ sig (Elt F)) {r : Ref sig .tc} (hr : r ∈ argRefs) :
    after ops0 V (no_index (Proc.devRef .tc r)) = V (Proc.devRef .tc r) := by
  unfold ops0
  simp only [argRefs, List.mem_cons, List.not_mem_nil, or_false] at hr
  rcases hr with rfl | rfl | rfl | rfl | rfl | rfl | rfl | rfl | rfl | rfl | rfl | rfl | rfl | rfl | rfl <;> after_results_simp

set_option maxHeartbeats 4000000 in
/-- No operation of layer 2 writes an argument. -/
theorem frame1 (V : Valuation τ sig (Elt F)) {r : Ref sig .tc} (hr : r ∈ argRefs) :
    after ops1 V (no_index (Proc.devRef .tc r)) = V (Proc.devRef .tc r) := by
  unfold ops1
  simp only [argRefs, List.mem_cons, List.not_mem_nil, or_false] at hr
  rcases hr with rfl | rfl | rfl | rfl | rfl | rfl | rfl | rfl | rfl | rfl | rfl | rfl | rfl | rfl | rfl <;> after_results_simp

set_option maxHeartbeats 4000000 in
/-- No operation of layer 3 writes an argument. -/
theorem frame2 (V : Valuation τ sig (Elt F)) {r : Ref sig .tc} (hr : r ∈ argRefs) :
    after ops2 V (no_index (Proc.devRef .tc r)) = V (Proc.devRef .tc r) := by
  unfold ops2
  simp only [argRefs, List.mem_cons, List.not_mem_nil, or_false] at hr
  rcases hr with rfl | rfl | rfl | rfl | rfl | rfl | rfl | rfl | rfl | rfl | rfl | rfl | rfl | rfl | rfl <;> after_results_simp

set_option maxHeartbeats 4000000 in
/-- No operation of layer 4 writes an argument. -/
theorem frame3 (V : Valuation τ sig (Elt F)) {r : Ref sig .tc} (hr : r ∈ argRefs) :
    after ops3 V (no_index (Proc.devRef .tc r)) = V (Proc.devRef .tc r) := by
  unfold ops3
  simp only [argRefs, List.mem_cons, List.not_mem_nil, or_false] at hr
  rcases hr with rfl | rfl | rfl | rfl | rfl | rfl | rfl | rfl | rfl | rfl | rfl | rfl | rfl | rfl | rfl <;> after_results_simp

set_option maxHeartbeats 4000000 in
/-- No operation of layer 5 writes an argument. -/
theorem frame4 (V : Valuation τ sig (Elt F)) {r : Ref sig .tc} (hr : r ∈ argRefs) :
    after ops4 V (no_index (Proc.devRef .tc r)) = V (Proc.devRef .tc r) := by
  unfold ops4
  simp only [argRefs, List.mem_cons, List.not_mem_nil, or_false] at hr
  rcases hr with rfl | rfl | rfl | rfl | rfl | rfl | rfl | rfl | rfl | rfl | rfl | rfl | rfl | rfl | rfl <;> after_results_simp

set_option maxHeartbeats 4000000 in
/-- No operation of layer 6 writes an argument. -/
theorem frame5 (V : Valuation τ sig (Elt F)) {r : Ref sig .tc} (hr : r ∈ argRefs) :
    after ops5 V (no_index (Proc.devRef .tc r)) = V (Proc.devRef .tc r) := by
  unfold ops5
  simp only [argRefs, List.mem_cons, List.not_mem_nil, or_false] at hr
  rcases hr with rfl | rfl | rfl | rfl | rfl | rfl | rfl | rfl | rfl | rfl | rfl | rfl | rfl | rfl | rfl <;> after_results_simp

/-- Layer 1's output buffer after its stretch, from any contents: Cert.Spec's layer 1 of the
    message-passing sum of what the feature argument's buffer held. -/
theorem layer0_eq (V : Valuation τ sig (Elt Ideal)) :
    after (ops0 (F := Ideal)) V (main_v14 : DevRef τ sig)
      = Spec.layer0 (Spec.agg300 (V (main_arg0 : DevRef τ sig)) (V (main_arg1 : DevRef τ sig)) (V (main_arg2 : DevRef τ sig)))
          (V (main_arg3 : DevRef τ sig)) (Spec.row0 (V (main_arg4 : DevRef τ sig))) := by
  unfold ops0
  after_results_simp
  rfl

/-- Layer 2's output buffer after its stretch, from any contents: Cert.Spec's layer 2 of the
    message-passing sum of what the previous output's buffer held. -/
theorem layer1_eq (V : Valuation τ sig (Elt Ideal)) :
    after (ops1 (F := Ideal)) V (main_v39 : DevRef τ sig)
      = Spec.layer1 (Spec.agg200 (V (main_v14 : DevRef τ sig)) (V (main_arg1 : DevRef τ sig)) (V (main_arg2 : DevRef τ sig)))
          (V (main_arg5 : DevRef τ sig)) (Spec.row1 (V (main_arg6 : DevRef τ sig))) := by
  unfold ops1
  after_results_simp
  rfl

/-- Layer 3's output buffer after its stretch, from any contents: Cert.Spec's layer 3 of the
    message-passing sum of what the previous output's buffer held. -/
theorem layer2_eq (V : Valuation τ sig (Elt Ideal)) :
    after (ops2 (F := Ideal)) V (main_v54 : DevRef τ sig)
      = Spec.layer2 (Spec.agg150 (V (main_v39 : DevRef τ sig)) (V (main_arg1 : DevRef τ sig)) (V (main_arg2 : DevRef τ sig)))
          (V (main_arg7 : DevRef τ sig)) (Spec.row2 (V (main_arg8 : DevRef τ sig))) := by
  unfold ops2
  after_results_simp
  rfl

/-- Layer 4's output buffer after its stretch, from any contents: Cert.Spec's layer 4 of the
    message-passing sum of what the previous output's buffer held. -/
theorem layer3_eq (V : Valuation τ sig (Elt Ideal)) :
    after (ops3 (F := Ideal)) V (main_v79 : DevRef τ sig)
      = Spec.layer3 (Spec.agg100 (V (main_v54 : DevRef τ sig)) (V (main_arg1 : DevRef τ sig)) (V (main_arg2 : DevRef τ sig)))
          (V (main_arg9 : DevRef τ sig)) (Spec.row3 (V (main_arg10 : DevRef τ sig))) := by
  unfold ops3
  after_results_simp
  rfl

/-- Layer 5's output buffer after its stretch, from any contents: Cert.Spec's layer 5 of the
    message-passing sum of what the previous output's buffer held. -/
theorem layer4_eq (V : Valuation τ sig (Elt Ideal)) :
    after (ops4 (F := Ideal)) V (main_v94 : DevRef τ sig)
      = Spec.layer4 (Spec.agg50 (V (main_v79 : DevRef τ sig)) (V (main_arg1 : DevRef τ sig)) (V (main_arg2 : DevRef τ sig)))
          (V (main_arg11 : DevRef τ sig)) (Spec.row4 (V (main_arg12 : DevRef τ sig))) := by
  unfold ops4
  after_results_simp
  rfl

/-- Layer 6's output buffer after its stretch, from any contents: Cert.Spec's layer 6 of the
    message-passing sum of what the previous output's buffer held. -/
theorem layer5_eq (V : Valuation τ sig (Elt Ideal)) :
    after (ops5 (F := Ideal)) V (main_v109 : DevRef τ sig)
      = Spec.layer5 (Spec.agg25 (V (main_v94 : DevRef τ sig)) (V (main_arg1 : DevRef τ sig)) (V (main_arg2 : DevRef τ sig)))
          (V (main_arg13 : DevRef τ sig)) (Spec.row5 (V (main_arg14 : DevRef τ sig))) := by
  unfold ops5
  after_results_simp
  rfl

/-- The result buffer after the whole line: the network of the arguments. Each layer's output is read where the next
    layer's stretch starts, the arguments through every stretch before. -/
theorem out_eq (V : Valuation τ sig (Elt Ideal)) :
    after (ops (F := Ideal)) V (main_v109 : DevRef τ sig)
      = Spec.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [ops, after_append]
  rw [layer5_eq]
  rw [frame4 _ (r := main_arg1) (by decide), frame4 _ (r := main_arg2) (by decide), frame4 _ (r := main_arg13) (by decide), frame4 _ (r := main_arg14) (by decide), layer4_eq]
  rw [frame3 _ (r := main_arg1) (by decide), frame3 _ (r := main_arg2) (by decide), frame3 _ (r := main_arg11) (by decide), frame3 _ (r := main_arg12) (by decide), frame3 _ (r := main_arg13) (by decide), frame3 _ (r := main_arg14) (by decide), layer3_eq]
  rw [frame2 _ (r := main_arg1) (by decide), frame2 _ (r := main_arg2) (by decide), frame2 _ (r := main_arg9) (by decide), frame2 _ (r := main_arg10) (by decide), frame2 _ (r := main_arg11) (by decide), frame2 _ (r := main_arg12) (by decide), frame2 _ (r := main_arg13) (by decide), frame2 _ (r := main_arg14) (by decide), layer2_eq]
  rw [frame1 _ (r := main_arg1) (by decide), frame1 _ (r := main_arg2) (by decide), frame1 _ (r := main_arg7) (by decide), frame1 _ (r := main_arg8) (by decide), frame1 _ (r := main_arg9) (by decide), frame1 _ (r := main_arg10) (by decide), frame1 _ (r := main_arg11) (by decide), frame1 _ (r := main_arg12) (by decide), frame1 _ (r := main_arg13) (by decide), frame1 _ (r := main_arg14) (by decide), layer1_eq]
  rw [frame0 _ (r := main_arg1) (by decide), frame0 _ (r := main_arg2) (by decide), frame0 _ (r := main_arg5) (by decide), frame0 _ (r := main_arg6) (by decide), frame0 _ (r := main_arg7) (by decide), frame0 _ (r := main_arg8) (by decide), frame0 _ (r := main_arg9) (by decide), frame0 _ (r := main_arg10) (by decide), frame0 _ (r := main_arg11) (by decide), frame0 _ (r := main_arg12) (by decide), frame0 _ (r := main_arg13) (by decide), frame0 _ (r := main_arg14) (by decide), layer0_eq]
  rfl

/-- An argument's buffer after the whole line holds what it held. -/
theorem arg_eq (V : Valuation τ sig (Elt F)) {r : Ref sig .tc} (hr : r ∈ argRefs) :
    after ops V (Proc.devRef .tc r) = V (Proc.devRef .tc r) := by
  simp only [ops, after_append]
  rw [frame5 _ hr, frame4 _ hr, frame3 _ hr, frame2 _ hr, frame1 _ hr, frame0 _ hr]

end Cert.ReferenceIdeal.RefRun

open Idealize.ShloMosaic Idealize.ShloMosaic.TcCoe Idealize.SL.Sem

/-- On every device, from any memory with zero counters: every weakly fair execution of the reference's @main
    terminates with the result buffer at the network of the arguments' launch contents and the arguments unchanged. -/
theorem Cert.ReferenceIdeal.RefRun.run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v109) = Cert.Spec.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run Cert.ReferenceIdeal.defs _ _).mono (fun _ h c =>
      ⟨(h c Cert.ReferenceIdeal.main_v109).trans (Cert.ReferenceIdeal.RefRun.out_eq _),
       (h c Cert.ReferenceIdeal.main_arg0).trans (Cert.ReferenceIdeal.RefRun.arg_eq _ (by decide)),
       (h c Cert.ReferenceIdeal.main_arg1).trans (Cert.ReferenceIdeal.RefRun.arg_eq _ (by decide)),
       (h c Cert.ReferenceIdeal.main_arg2).trans (Cert.ReferenceIdeal.RefRun.arg_eq _ (by decide)),
       (h c Cert.ReferenceIdeal.main_arg3).trans (Cert.ReferenceIdeal.RefRun.arg_eq _ (by decide)),
       (h c Cert.ReferenceIdeal.main_arg4).trans (Cert.ReferenceIdeal.RefRun.arg_eq _ (by decide)),
       (h c Cert.ReferenceIdeal.main_arg5).trans (Cert.ReferenceIdeal.RefRun.arg_eq _ (by decide)),
       (h c Cert.ReferenceIdeal.main_arg6).trans (Cert.ReferenceIdeal.RefRun.arg_eq _ (by decide)),
       (h c Cert.ReferenceIdeal.main_arg7).trans (Cert.ReferenceIdeal.RefRun.arg_eq _ (by decide)),
       (h c Cert.ReferenceIdeal.main_arg8).trans (Cert.ReferenceIdeal.RefRun.arg_eq _ (by decide)),
       (h c Cert.ReferenceIdeal.main_arg9).trans (Cert.ReferenceIdeal.RefRun.arg_eq _ (by decide)),
       (h c Cert.ReferenceIdeal.main_arg10).trans (Cert.ReferenceIdeal.RefRun.arg_eq _ (by decide)),
       (h c Cert.ReferenceIdeal.main_arg11).trans (Cert.ReferenceIdeal.RefRun.arg_eq _ (by decide)),
       (h c Cert.ReferenceIdeal.main_arg12).trans (Cert.ReferenceIdeal.RefRun.arg_eq _ (by decide)),
       (h c Cert.ReferenceIdeal.main_arg13).trans (Cert.ReferenceIdeal.RefRun.arg_eq _ (by decide)),
       (h c Cert.ReferenceIdeal.main_arg14).trans (Cert.ReferenceIdeal.RefRun.arg_eq _ (by decide))⟩)
    (Idealize.ShloMosaic.StableHlo.run_seq Cert.ReferenceIdeal.RefRun.scopedRefs_eq Cert.ReferenceIdeal.RefRun.scopedSems_eq
      Cert.ReferenceIdeal.defs Cert.ReferenceIdeal.main (fun _ => Cert.ReferenceIdeal.RefRun.ops)
      Cert.ReferenceIdeal.RefRun.main_eq (fun _ => Cert.ReferenceIdeal.RefRun.ops_sub) m ρ
      (fun _ => Cert.ReferenceIdeal.RefRun.ops_fresh))

end
-- ==== Proof.lean ====
/-
  The certificate: a six-layer graph network computed by six tiled kernel regions against its jnp reference.

  Each layer gathers the rows of the node features at the edges' source nodes, sums them into the edges' destination
  nodes, applies an affine map and an activation along each row (leaky rectifier, softmax, leaky rectifier, softmax,
  leaky rectifier, log-softmax). The kernel program does the gather and the segment sum on the host, exactly as the
  reference does, and the affine map with the activation in a kernel region that walks the 50000 rows in ten tiles of
  5000; since every output row depends on the same input row only, the tiles of the region's result are the tiles of
  the layer computed on the whole array, and the matrix product into a zero accumulator plus the bias row is the
  reference's dot product plus the broadcast bias at the ideal values (the casts to bf16 are the identity there).
  So both programs end with the specification's network of the arguments (Proof/Spec.lean): the regions' values are
  Proof/Region0 … Region5, the host operations between them Proof/KValue, the reference's run Proof/RefRun, and
  Proof/Assemble puts the five claims together.
-/
import proofs.«103496_j8332236554735_1_alg».proof.Defs
import proofs.«103496_j8332236554735_1_alg».proof.Proof.Assemble
import proofs.«103496_j8332236554735_1_alg».proof.Proof.Region0
import proofs.«103496_j8332236554735_1_alg».proof.Proof.Region1
import proofs.«103496_j8332236554735_1_alg».proof.Proof.Region2
import proofs.«103496_j8332236554735_1_alg».proof.Proof.Region3
import proofs.«103496_j8332236554735_1_alg».proof.Proof.Region4
import proofs.«103496_j8332236554735_1_alg».proof.Proof.Region5
import proofs.«103496_j8332236554735_1_alg».proof.Proof.RefRun

noncomputable section

namespace Cert.Proof

theorem claim : Cert.Claim :=
  Cert.Proof.Assemble.claim Cert.KernelIdeal.Region0.arr Cert.KernelIdeal.Region1.arr Cert.KernelIdeal.Region2.arr
    Cert.KernelIdeal.Region3.arr Cert.KernelIdeal.Region4.arr Cert.KernelIdeal.Region5.arr Cert.ReferenceIdeal.RefRun.run

end Cert.Proof

end
